-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S125000x8x64 : Shape := ⟨3, ![125000, 8, 64]⟩
abbrev S16384x64 : Shape := ⟨2, ![16384, 64]⟩
abbrev S512 : Shape := ⟨1, ![512]⟩
abbrev S512x64 : Shape := ⟨2, ![512, 64]⟩
abbrev S_ : Shape := ⟨0, ![]⟩
abbrev S16 : Shape := ⟨1, ![16]⟩
abbrev S1 : Shape := ⟨1, ![1]⟩
abbrev S1x64 : Shape := ⟨2, ![1, 64]⟩
abbrev S1x1x64 : Shape := ⟨3, ![1, 1, 64]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S125000x8x64, .f32⟩
  | .hbm, ⟨3, _⟩ => ⟨S16384x64, .f32⟩
  | .local .scVector .vmem, ⟨0, _⟩ => ⟨S512, .i32⟩
  | .local .scVector .vmem, ⟨1, _⟩ => ⟨S512x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v6 : Index := Scalar.indexCast v5
  ![v6.toNat]
def k0_off3 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c16_i32_7 : BitVec 32 := 16#32
  let v17 : BitVec 32 := Scalar.muli arg8 c16_i32_7
  let c0_i32_8 : BitVec 32 := 0#32
  let v18 : BitVec 32 := Scalar.addi v17 c0_i32_8
  let c0_i32_9 : BitVec 32 := 0#32
  ![v18.toNat, 0]
def k0_off4 (v14 : BitVec 32) (v16 : BitVec 32) : Fin 3 → Nat :=
  let c0_i32_10 : BitVec 32 := 0#32
  ![v14.toNat, v16.toNat, 0]

def k0_chk1 (v14 : BitVec 32) (v16 : BitVec 32) : Prop :=
  (∀ a, (k0_off4 v14 v16) a + S1x1x64.size a ≤ S125000x8x64.size a)
instance k0_chk1.dec : ∀ (v14 : BitVec 32) (v16 : BitVec 32), Decidable (k0_chk1 v14 v16) := fun v14 v16 => decidable_of_iff' _ (Iff.of_eq (k0_chk1.eq_1 v14 v16))
theorem k0_off4_inb : ∀ (v14 : BitVec 32) (v16 : BitVec 32) (k0_hw1 : k0_chk1 v14 v16), ∀ a, (k0_off4 v14 v16) a + S1x1x64.size a ≤ S125000x8x64.size a := fun v14 v16 k0_hw1 => k0_hw1

def k0_off5 (k0_t1 : Fin k0_t1_loop.trips) (c0_i32_8 : BitVec 32) : Fin 2 → Nat :=
  let c0_i32_0 : BitVec 32 := 0#32
  let c1_i32 : BitVec 32 := 1#32
  let arg8 : BitVec 32 := Scf.iv c0_i32_0 c1_i32 k0_t1
  let c16_i32_7 : BitVec 32 := 16#32
  let v17 : BitVec 32 := Scalar.muli arg8 c16_i32_7
  let v18 : BitVec 32 := Scalar.addi v17 c0_i32_8
  let c0_i32_11 : BitVec 32 := 0#32
  ![v18.toNat, 0]
def k0_off6 (v26 : BitVec 32) (v28 : BitVec 32) : Fin 3 → Nat :=
  let c0_i32_16 : BitVec 32 := 0#32
  ![v26.toNat, v28.toNat, 0]

def k0_chk2 (v26 : BitVec 32) (v28 : BitVec 32) : Prop :=
  (∀ a, (k0_off6 v26 v28) a + S1x1x64.size a ≤ S125000x8x64.size a)
instance k0_chk2.dec : ∀ (v26 : BitVec 32) (v28 : BitVec 32), Decidable (k0_chk2 v26 v28) := fun v26 v28 => decidable_of_iff' _ (Iff.of_eq (k0_chk2.eq_1 v26 v28))
theorem k0_off6_inb : ∀ (v26 : BitVec 32) (v28 : BitVec 32) (k0_hw2 : k0_chk2 v26 v28), ∀ a, (k0_off6 v26 v28) a + S1x1x64.size a ≤ S125000x8x64.size a := fun v26 v28 k0_hw2 => k0_hw2

def k0_off7 (k0_t1 : Fin k0_t1_loop.trips) (c1_i32_14 : BitVec 32) : Fin 2 → Nat :=
  let c0_i32_0 : BitVec 32 := 0#32
  let c1_i32 : BitVec 32 := 1#32
  let arg8 : BitVec 32 := Scf.iv c0_i32_0 c1_i32 k0_t1
  let c16_i32_13 : BitVec 32 := 16#32
  let v29 : BitVec 32 := Scalar.muli arg8 c16_i32_13
  let v30 : BitVec 32 := Scalar.addi v29 c1_i32_14
  let c0_i32_17 : BitVec 32 := 0#32
  ![v30.toNat, 0]
def k0_off8 (v38 : BitVec 32) (v40 : BitVec 32) : Fin 3 → Nat :=
  let c0_i32_22 : BitVec 32 := 0#32
  ![v38.toNat, v40.toNat, 0]

def k0_chk3 (v38 : BitVec 32) (v40 : BitVec 32) : Prop :=
  (∀ a, (k0_off8 v38 v40) a + S1x1x64.size a ≤ S125000x8x64.size a)
instance k0_chk3.dec : ∀ (v38 : BitVec 32) (v40 : BitVec 32), Decidable (k0_chk3 v38 v40) := fun v38 v40 => decidable_of_iff' _ (Iff.of_eq (k0_chk3.eq_1 v38 v40))
theorem k0_off8_inb : ∀ (v38 : BitVec 32) (v40 : BitVec 32) (k0_hw3 : k0_chk3 v38 v40), ∀ a, (k0_off8 v38 v40) a + S1x1x64.size a ≤ S125000x8x64.size a := fun v38 v40 k0_hw3 => k0_hw3

def k0_off9 (k0_t1 : Fin k0_t1_loop.trips) (c2_i32_20 : BitVec 32) : Fin 2 → Nat :=
  let c0_i32_0 : BitVec 32 := 0#32
  let c1_i32 : BitVec 32 := 1#32
  let arg8 : BitVec 32 := Scf.iv c0_i32_0 c1_i32 k0_t1
  let c16_i32_19 : BitVec 32 := 16#32
  let v41 : BitVec 32 := Scalar.muli arg8 c16_i32_19
  let v42 : BitVec 32 := Scalar.addi v41 c2_i32_20
  let c0_i32_23 : BitVec 32 := 0#32
  ![v42.toNat, 0]
def k0_off10 (v50 : BitVec 32) (v52 : BitVec 32) : Fin 3 → Nat :=
  let c0_i32_28 : BitVec 32 := 0#32
  ![v50.toNat, v52.toNat, 0]

def k0_chk4 (v50 : BitVec 32) (v52 : BitVec 32) : Prop :=
  (∀ a, (k0_off10 v50 v52) a + S1x1x64.size a ≤ S125000x8x64.size a)
instance k0_chk4.dec : ∀ (v50 : BitVec 32) (v52 : BitVec 32), Decidable (k0_chk4 v50 v52) := fun v50 v52 => decidable_of_iff' _ (Iff.of_eq (k0_chk4.eq_1 v50 v52))
theorem k0_off10_inb : ∀ (v50 : BitVec 32) (v52 : BitVec 32) (k0_hw4 : k0_chk4 v50 v52), ∀ a, (k0_off10 v50 v52) a + S1x1x64.size a ≤ S125000x8x64.size a := fun v50 v52 k0_hw4 => k0_hw4

def k0_off11 (k0_t1 : Fin k0_t1_loop.trips) (c3_i32_26 : BitVec 32) : Fin 2 → Nat :=
  let c0_i32_0 : BitVec 32 := 0#32
  let c1_i32 : BitVec 32 := 1#32
  let arg8 : BitVec 32 := Scf.iv c0_i32_0 c1_i32 k0_t1
  let c16_i32_25 : BitVec 32 := 16#32
  let v53 : BitVec 32 := Scalar.muli arg8 c16_i32_25
  let v54 : BitVec 32 := Scalar.addi v53 c3_i32_26
  let c0_i32_29 : BitVec 32 := 0#32
  ![v54.toNat, 0]
def k0_off12 (v62 : BitVec 32) (v64 : BitVec 32) : Fin 3 → Nat :=
  let c0_i32_33 : BitVec 32 := 0#32
  ![v62.toNat, v64.toNat, 0]

def k0_chk5 (v62 : BitVec 32) (v64 : BitVec 32) : Prop :=
  (∀ a, (k0_off12 v62 v64) a + S1x1x64.size a ≤ S125000x8x64.size a)
instance k0_chk5.dec : ∀ (v62 : BitVec 32) (v64 : BitVec 32), Decidable (k0_chk5 v62 v64) := fun v62 v64 => decidable_of_iff' _ (Iff.of_eq (k0_chk5.eq_1 v62 v64))
theorem k0_off12_inb : ∀ (v62 : BitVec 32) (v64 : BitVec 32) (k0_hw5 : k0_chk5 v62 v64), ∀ a, (k0_off12 v62 v64) a + S1x1x64.size a ≤ S125000x8x64.size a := fun v62 v64 k0_hw5 => k0_hw5

def k0_off13 (k0_t1 : Fin k0_t1_loop.trips) (c4_i32 : BitVec 32) : Fin 2 → Nat :=
  let c0_i32_0 : BitVec 32 := 0#32
  let c1_i32 : BitVec 32 := 1#32
  let arg8 : BitVec 32 := Scf.iv c0_i32_0 c1_i32 k0_t1
  let c16_i32_31 : BitVec 32 := 16#32
  let v65 : BitVec 32 := Scalar.muli arg8 c16_i32_31
  let v66 : BitVec 32 := Scalar.addi v65 c4_i32
  let c0_i32_34 : BitVec 32 := 0#32
  ![v66.toNat, 0]
def k0_off14 (v74 : BitVec 32) (v76 : BitVec 32) : Fin 3 → Nat :=
  let c0_i32_38 : BitVec 32 := 0#32
  ![v74.toNat, v76.toNat, 0]

def k0_chk6 (v74 : BitVec 32) (v76 : BitVec 32) : Prop :=
  (∀ a, (k0_off14 v74 v76) a + S1x1x64.size a ≤ S125000x8x64.size a)
instance k0_chk6.dec : ∀ (v74 : BitVec 32) (v76 : BitVec 32), Decidable (k0_chk6 v74 v76) := fun v74 v76 => decidable_of_iff' _ (Iff.of_eq (k0_chk6.eq_1 v74 v76))
theorem k0_off14_inb : ∀ (v74 : BitVec 32) (v76 : BitVec 32) (k0_hw6 : k0_chk6 v74 v76), ∀ a, (k0_off14 v74 v76) a + S1x1x64.size a ≤ S125000x8x64.size a := fun v74 v76 k0_hw6 => k0_hw6

def k0_off15 (k0_t1 : Fin k0_t1_loop.trips) (c5_i32 : BitVec 32) : Fin 2 → Nat :=
  let c0_i32_0 : BitVec 32 := 0#32
  let c1_i32 : BitVec 32 := 1#32
  let arg8 : BitVec 32 := Scf.iv c0_i32_0 c1_i32 k0_t1
  let c16_i32_36 : BitVec 32 := 16#32
  let v77 : BitVec 32 := Scalar.muli arg8 c16_i32_36
  let v78 : BitVec 32 := Scalar.addi v77 c5_i32
  let c0_i32_39 : BitVec 32 := 0#32
  ![v78.toNat, 0]
def k0_off16 (v86 : BitVec 32) (v88 : BitVec 32) : Fin 3 → Nat :=
  let c0_i32_43 : BitVec 32 := 0#32
  ![v86.toNat, v88.toNat, 0]

def k0_chk7 (v86 : BitVec 32) (v88 : BitVec 32) : Prop :=
  (∀ a, (k0_off16 v86 v88) a + S1x1x64.size a ≤ S125000x8x64.size a)
instance k0_chk7.dec : ∀ (v86 : BitVec 32) (v88 : BitVec 32), Decidable (k0_chk7 v86 v88) := fun v86 v88 => decidable_of_iff' _ (Iff.of_eq (k0_chk7.eq_1 v86 v88))
theorem k0_off16_inb : ∀ (v86 : BitVec 32) (v88 : BitVec 32) (k0_hw7 : k0_chk7 v86 v88), ∀ a, (k0_off16 v86 v88) a + S1x1x64.size a ≤ S125000x8x64.size a := fun v86 v88 k0_hw7 => k0_hw7

def k0_off17 (k0_t1 : Fin k0_t1_loop.trips) (c6_i32 : BitVec 32) : Fin 2 → Nat :=
  let c0_i32_0 : BitVec 32 := 0#32
  let c1_i32 : BitVec 32 := 1#32
  let arg8 : BitVec 32 := Scf.iv c0_i32_0 c1_i32 k0_t1
  let c16_i32_41 : BitVec 32 := 16#32
  let v89 : BitVec 32 := Scalar.muli arg8 c16_i32_41
  let v90 : BitVec 32 := Scalar.addi v89 c6_i32
  let c0_i32_44 : BitVec 32 := 0#32
  ![v90.toNat, 0]
def k0_off18 (v98 : BitVec 32) (v100 : BitVec 32) : Fin 3 → Nat :=
  let c0_i32_49 : BitVec 32 := 0#32
  ![v98.toNat, v100.toNat, 0]

def k0_chk8 (v98 : BitVec 32) (v100 : BitVec 32) : Prop :=
  (∀ a, (k0_off18 v98 v100) a + S1x1x64.size a ≤ S125000x8x64.size a)
instance k0_chk8.dec : ∀ (v98 : BitVec 32) (v100 : BitVec 32), Decidable (k0_chk8 v98 v100) := fun v98 v100 => decidable_of_iff' _ (Iff.of_eq (k0_chk8.eq_1 v98 v100))
theorem k0_off18_inb : ∀ (v98 : BitVec 32) (v100 : BitVec 32) (k0_hw8 : k0_chk8 v98 v100), ∀ a, (k0_off18 v98 v100) a + S1x1x64.size a ≤ S125000x8x64.size a := fun v98 v100 k0_hw8 => k0_hw8

def k0_off19 (k0_t1 : Fin k0_t1_loop.trips) (c7_i32_47 : BitVec 32) : Fin 2 → Nat :=
  let c0_i32_0 : BitVec 32 := 0#32
  let c1_i32 : BitVec 32 := 1#32
  let arg8 : BitVec 32 := Scf.iv c0_i32_0 c1_i32 k0_t1
  let c16_i32_46 : BitVec 32 := 16#32
  let v101 : BitVec 32 := Scalar.muli arg8 c16_i32_46
  let v102 : BitVec 32 := Scalar.addi v101 c7_i32_47
  let c0_i32_50 : BitVec 32 := 0#32
  ![v102.toNat, 0]
def k0_off20 (v110 : BitVec 32) (v112 : BitVec 32) : Fin 3 → Nat :=
  let c0_i32_54 : BitVec 32 := 0#32
  ![v110.toNat, v112.toNat, 0]

def k0_chk9 (v110 : BitVec 32) (v112 : BitVec 32) : Prop :=
  (∀ a, (k0_off20 v110 v112) a + S1x1x64.size a ≤ S125000x8x64.size a)
instance k0_chk9.dec : ∀ (v110 : BitVec 32) (v112 : BitVec 32), Decidable (k0_chk9 v110 v112) := fun v110 v112 => decidable_of_iff' _ (Iff.of_eq (k0_chk9.eq_1 v110 v112))
theorem k0_off20_inb : ∀ (v110 : BitVec 32) (v112 : BitVec 32) (k0_hw9 : k0_chk9 v110 v112), ∀ a, (k0_off20 v110 v112) a + S1x1x64.size a ≤ S125000x8x64.size a := fun v110 v112 k0_hw9 => k0_hw9

def k0_off21 (k0_t1 : Fin k0_t1_loop.trips) (c8_i32 : BitVec 32) : Fin 2 → Nat :=
  let c0_i32_0 : BitVec 32 := 0#32
  let c1_i32 : BitVec 32 := 1#32
  let arg8 : BitVec 32 := Scf.iv c0_i32_0 c1_i32 k0_t1
  let c16_i32_52 : BitVec 32 := 16#32
  let v113 : BitVec 32 := Scalar.muli arg8 c16_i32_52
  let v114 : BitVec 32 := Scalar.addi v113 c8_i32
  let c0_i32_55 : BitVec 32 := 0#32
  ![v114.toNat, 0]
def k0_off22 (v122 : BitVec 32) (v124 : BitVec 32) : Fin 3 → Nat :=
  let c0_i32_59 : BitVec 32 := 0#32
  ![v122.toNat, v124.toNat, 0]

def k0_chk10 (v122 : BitVec 32) (v124 : BitVec 32) : Prop :=
  (∀ a, (k0_off22 v122 v124) a + S1x1x64.size a ≤ S125000x8x64.size a)
instance k0_chk10.dec : ∀ (v122 : BitVec 32) (v124 : BitVec 32), Decidable (k0_chk10 v122 v124) := fun v122 v124 => decidable_of_iff' _ (Iff.of_eq (k0_chk10.eq_1 v122 v124))
theorem k0_off22_inb : ∀ (v122 : BitVec 32) (v124 : BitVec 32) (k0_hw10 : k0_chk10 v122 v124), ∀ a, (k0_off22 v122 v124) a + S1x1x64.size a ≤ S125000x8x64.size a := fun v122 v124 k0_hw10 => k0_hw10

def k0_off23 (k0_t1 : Fin k0_t1_loop.trips) (c9_i32 : BitVec 32) : Fin 2 → Nat :=
  let c0_i32_0 : BitVec 32 := 0#32
  let c1_i32 : BitVec 32 := 1#32
  let arg8 : BitVec 32 := Scf.iv c0_i32_0 c1_i32 k0_t1
  let c16_i32_57 : BitVec 32 := 16#32
  let v125 : BitVec 32 := Scalar.muli arg8 c16_i32_57
  let v126 : BitVec 32 := Scalar.addi v125 c9_i32
  let c0_i32_60 : BitVec 32 := 0#32
  ![v126.toNat, 0]
def k0_off24 (v134 : BitVec 32) (v136 : BitVec 32) : Fin 3 → Nat :=
  let c0_i32_64 : BitVec 32 := 0#32
  ![v134.toNat, v136.toNat, 0]

def k0_chk11 (v134 : BitVec 32) (v136 : BitVec 32) : Prop :=
  (∀ a, (k0_off24 v134 v136) a + S1x1x64.size a ≤ S125000x8x64.size a)
instance k0_chk11.dec : ∀ (v134 : BitVec 32) (v136 : BitVec 32), Decidable (k0_chk11 v134 v136) := fun v134 v136 => decidable_of_iff' _ (Iff.of_eq (k0_chk11.eq_1 v134 v136))
theorem k0_off24_inb : ∀ (v134 : BitVec 32) (v136 : BitVec 32) (k0_hw11 : k0_chk11 v134 v136), ∀ a, (k0_off24 v134 v136) a + S1x1x64.size a ≤ S125000x8x64.size a := fun v134 v136 k0_hw11 => k0_hw11

def k0_off25 (k0_t1 : Fin k0_t1_loop.trips) (c10_i32 : BitVec 32) : Fin 2 → Nat :=
  let c0_i32_0 : BitVec 32 := 0#32
  let c1_i32 : BitVec 32 := 1#32
  let arg8 : BitVec 32 := Scf.iv c0_i32_0 c1_i32 k0_t1
  let c16_i32_62 : BitVec 32 := 16#32
  let v137 : BitVec 32 := Scalar.muli arg8 c16_i32_62
  let v138 : BitVec 32 := Scalar.addi v137 c10_i32
  let c0_i32_65 : BitVec 32 := 0#32
  ![v138.toNat, 0]
def k0_off26 (v146 : BitVec 32) (v148 : BitVec 32) : Fin 3 → Nat :=
  let c0_i32_69 : BitVec 32 := 0#32
  ![v146.toNat, v148.toNat, 0]

def k0_chk12 (v146 : BitVec 32) (v148 : BitVec 32) : Prop :=
  (∀ a, (k0_off26 v146 v148) a + S1x1x64.size a ≤ S125000x8x64.size a)
instance k0_chk12.dec : ∀ (v146 : BitVec 32) (v148 : BitVec 32), Decidable (k0_chk12 v146 v148) := fun v146 v148 => decidable_of_iff' _ (Iff.of_eq (k0_chk12.eq_1 v146 v148))
theorem k0_off26_inb : ∀ (v146 : BitVec 32) (v148 : BitVec 32) (k0_hw12 : k0_chk12 v146 v148), ∀ a, (k0_off26 v146 v148) a + S1x1x64.size a ≤ S125000x8x64.size a := fun v146 v148 k0_hw12 => k0_hw12

def k0_off27 (k0_t1 : Fin k0_t1_loop.trips) (c11_i32 : BitVec 32) : Fin 2 → Nat :=
  let c0_i32_0 : BitVec 32 := 0#32
  let c1_i32 : BitVec 32 := 1#32
  let arg8 : BitVec 32 := Scf.iv c0_i32_0 c1_i32 k0_t1
  let c16_i32_67 : BitVec 32 := 16#32
  let v149 : BitVec 32 := Scalar.muli arg8 c16_i32_67
  let v150 : BitVec 32 := Scalar.addi v149 c11_i32
  let c0_i32_70 : BitVec 32 := 0#32
  ![v150.toNat, 0]
def k0_off28 (v158 : BitVec 32) (v160 : BitVec 32) : Fin 3 → Nat :=
  let c0_i32_74 : BitVec 32 := 0#32
  ![v158.toNat, v160.toNat, 0]

def k0_chk13 (v158 : BitVec 32) (v160 : BitVec 32) : Prop :=
  (∀ a, (k0_off28 v158 v160) a + S1x1x64.size a ≤ S125000x8x64.size a)
instance k0_chk13.dec : ∀ (v158 : BitVec 32) (v160 : BitVec 32), Decidable (k0_chk13 v158 v160) := fun v158 v160 => decidable_of_iff' _ (Iff.of_eq (k0_chk13.eq_1 v158 v160))
theorem k0_off28_inb : ∀ (v158 : BitVec 32) (v160 : BitVec 32) (k0_hw13 : k0_chk13 v158 v160), ∀ a, (k0_off28 v158 v160) a + S1x1x64.size a ≤ S125000x8x64.size a := fun v158 v160 k0_hw13 => k0_hw13

def k0_off29 (k0_t1 : Fin k0_t1_loop.trips) (c12_i32 : BitVec 32) : Fin 2 → Nat :=
  let c0_i32_0 : BitVec 32 := 0#32
  let c1_i32 : BitVec 32 := 1#32
  let arg8 : BitVec 32 := Scf.iv c0_i32_0 c1_i32 k0_t1
  let c16_i32_72 : BitVec 32 := 16#32
  let v161 : BitVec 32 := Scalar.muli arg8 c16_i32_72
  let v162 : BitVec 32 := Scalar.addi v161 c12_i32
  let c0_i32_75 : BitVec 32 := 0#32
  ![v162.toNat, 0]
def k0_off30 (v170 : BitVec 32) (v172 : BitVec 32) : Fin 3 → Nat :=
  let c0_i32_79 : BitVec 32 := 0#32
  ![v170.toNat, v172.toNat, 0]

def k0_chk14 (v170 : BitVec 32) (v172 : BitVec 32) : Prop :=
  (∀ a, (k0_off30 v170 v172) a + S1x1x64.size a ≤ S125000x8x64.size a)
instance k0_chk14.dec : ∀ (v170 : BitVec 32) (v172 : BitVec 32), Decidable (k0_chk14 v170 v172) := fun v170 v172 => decidable_of_iff' _ (Iff.of_eq (k0_chk14.eq_1 v170 v172))
theorem k0_off30_inb : ∀ (v170 : BitVec 32) (v172 : BitVec 32) (k0_hw14 : k0_chk14 v170 v172), ∀ a, (k0_off30 v170 v172) a + S1x1x64.size a ≤ S125000x8x64.size a := fun v170 v172 k0_hw14 => k0_hw14

def k0_off31 (k0_t1 : Fin k0_t1_loop.trips) (c13_i32 : BitVec 32) : Fin 2 → Nat :=
  let c0_i32_0 : BitVec 32 := 0#32
  let c1_i32 : BitVec 32 := 1#32
  let arg8 : BitVec 32 := Scf.iv c0_i32_0 c1_i32 k0_t1
  let c16_i32_77 : BitVec 32 := 16#32
  let v173 : BitVec 32 := Scalar.muli arg8 c16_i32_77
  let v174 : BitVec 32 := Scalar.addi v173 c13_i32
  let c0_i32_80 : BitVec 32 := 0#32
  ![v174.toNat, 0]
def k0_off32 (v182 : BitVec 32) (v184 : BitVec 32) : Fin 3 → Nat :=
  let c0_i32_84 : BitVec 32 := 0#32
  ![v182.toNat, v184.toNat, 0]

def k0_chk15 (v182 : BitVec 32) (v184 : BitVec 32) : Prop :=
  (∀ a, (k0_off32 v182 v184) a + S1x1x64.size a ≤ S125000x8x64.size a)
instance k0_chk15.dec : ∀ (v182 : BitVec 32) (v184 : BitVec 32), Decidable (k0_chk15 v182 v184) := fun v182 v184 => decidable_of_iff' _ (Iff.of_eq (k0_chk15.eq_1 v182 v184))
theorem k0_off32_inb : ∀ (v182 : BitVec 32) (v184 : BitVec 32) (k0_hw15 : k0_chk15 v182 v184), ∀ a, (k0_off32 v182 v184) a + S1x1x64.size a ≤ S125000x8x64.size a := fun v182 v184 k0_hw15 => k0_hw15

def k0_off33 (k0_t1 : Fin k0_t1_loop.trips) (c14_i32 : BitVec 32) : Fin 2 → Nat :=
  let c0_i32_0 : BitVec 32 := 0#32
  let c1_i32 : BitVec 32 := 1#32
  let arg8 : BitVec 32 := Scf.iv c0_i32_0 c1_i32 k0_t1
  let c16_i32_82 : BitVec 32 := 16#32
  let v185 : BitVec 32 := Scalar.muli arg8 c16_i32_82
  let v186 : BitVec 32 := Scalar.addi v185 c14_i32
  let c0_i32_85 : BitVec 32 := 0#32
  ![v186.toNat, 0]
def k0_off34 (v194 : BitVec 32) (v196 : BitVec 32) : Fin 3 → Nat :=
  let c0_i32_89 : BitVec 32 := 0#32
  ![v194.toNat, v196.toNat, 0]

def k0_chk16 (v194 : BitVec 32) (v196 : BitVec 32) : Prop :=
  (∀ a, (k0_off34 v194 v196) a + S1x1x64.size a ≤ S125000x8x64.size a)
instance k0_chk16.dec : ∀ (v194 : BitVec 32) (v196 : BitVec 32), Decidable (k0_chk16 v194 v196) := fun v194 v196 => decidable_of_iff' _ (Iff.of_eq (k0_chk16.eq_1 v194 v196))
theorem k0_off34_inb : ∀ (v194 : BitVec 32) (v196 : BitVec 32) (k0_hw16 : k0_chk16 v194 v196), ∀ a, (k0_off34 v194 v196) a + S1x1x64.size a ≤ S125000x8x64.size a := fun v194 v196 k0_hw16 => k0_hw16

def k0_off35 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c16_i32_87 : BitVec 32 := 16#32
  let v197 : BitVec 32 := Scalar.muli arg8 c16_i32_87
  let c15_i32 : BitVec 32 := 15#32
  let v198 : BitVec 32 := Scalar.addi v197 c15_i32
  let c0_i32_90 : BitVec 32 := 0#32
  ![v198.toNat, 0]
@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x64_S125000x8x64 : S1000000x64.ShapeCasts S125000x8x64
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x64_S1x64 : S1x1x64.Squeezes S1x64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S512x64_S1x64_0_0 : ∀ a, (![0, 0] : Fin 2 → Nat) a + S1x64.size a ≤ S512x64.size a
  inb_S125000x8x64_S1x1x64_0_0_0 : ∀ a, (![0, 0, 0] : Fin 3 → Nat) a + S1x1x64.size a ≤ S125000x8x64.size a
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ (r : Fin 2), ∀ a, (k0_off5 k0_t1 (BitVec.ofNat 32 r.val)) a + S1x64.size a ≤ S512x64.size a
  k0_off7_inb : ∀ k0_t1 : Fin k0_t1_loop.trips, ∀ (r : Fin 2), ∀ a, (k0_off7 k0_t1 (BitVec.ofNat 32 (1 + r.val))) a + S1x64.size a ≤ S512x64.size a
  k0_off9_inb : ∀ k0_t1 : Fin k0_t1_loop.trips, ∀ (r : Fin 2), ∀ a, (k0_off9 k0_t1 (BitVec.ofNat 32 (2 + r.val))) a + S1x64.size a ≤ S512x64.size a
  k0_off11_inb : ∀ k0_t1 : Fin k0_t1_loop.trips, ∀ (r : Fin 2), ∀ a, (k0_off11 k0_t1 (BitVec.ofNat 32 (3 + r.val))) a + S1x64.size a ≤ S512x64.size a
  k0_off13_inb : ∀ k0_t1 : Fin k0_t1_loop.trips, ∀ (r : Fin 2), ∀ a, (k0_off13 k0_t1 (BitVec.ofNat 32 (4 + r.val))) a + S1x64.size a ≤ S512x64.size a
  k0_off15_inb : ∀ k0_t1 : Fin k0_t1_loop.trips, ∀ (r : Fin 2), ∀ a, (k0_off15 k0_t1 (BitVec.ofNat 32 (5 + r.val))) a + S1x64.size a ≤ S512x64.size a
  k0_off17_inb : ∀ k0_t1 : Fin k0_t1_loop.trips, ∀ (r : Fin 2), ∀ a, (k0_off17 k0_t1 (BitVec.ofNat 32 (6 + r.val))) a + S1x64.size a ≤ S512x64.size a
  k0_off19_inb : ∀ k0_t1 : Fin k0_t1_loop.trips, ∀ (r : Fin 2), ∀ a, (k0_off19 k0_t1 (BitVec.ofNat 32 (7 + r.val))) a + S1x64.size a ≤ S512x64.size a
  k0_off21_inb : ∀ k0_t1 : Fin k0_t1_loop.trips, ∀ (r : Fin 2), ∀ a, (k0_off21 k0_t1 (BitVec.ofNat 32 (8 + r.val))) a + S1x64.size a ≤ S512x64.size a
  k0_off23_inb : ∀ k0_t1 : Fin k0_t1_loop.trips, ∀ (r : Fin 2), ∀ a, (k0_off23 k0_t1 (BitVec.ofNat 32 (9 + r.val))) a + S1x64.size a ≤ S512x64.size a
  k0_off25_inb : ∀ k0_t1 : Fin k0_t1_loop.trips, ∀ (r : Fin 2), ∀ a, (k0_off25 k0_t1 (BitVec.ofNat 32 (10 + r.val))) a + S1x64.size a ≤ S512x64.size a
  k0_off27_inb : ∀ k0_t1 : Fin k0_t1_loop.trips, ∀ (r : Fin 2), ∀ a, (k0_off27 k0_t1 (BitVec.ofNat 32 (11 + r.val))) a + S1x64.size a ≤ S512x64.size a
  k0_off29_inb : ∀ k0_t1 : Fin k0_t1_loop.trips, ∀ (r : Fin 2), ∀ a, (k0_off29 k0_t1 (BitVec.ofNat 32 (12 + r.val))) a + S1x64.size a ≤ S512x64.size a
  k0_off31_inb : ∀ k0_t1 : Fin k0_t1_loop.trips, ∀ (r : Fin 2), ∀ a, (k0_off31 k0_t1 (BitVec.ofNat 32 (13 + r.val))) a + S1x64.size a ≤ S512x64.size a
  k0_off33_inb : ∀ k0_t1 : Fin k0_t1_loop.trips, ∀ (r : Fin 2), ∀ a, (k0_off33 k0_t1 (BitVec.ofNat 32 (14 + r.val))) a + S1x64.size a ≤ S512x64.size a
  k0_off35_inb : ∀ k0_t1 : Fin k0_t1_loop.trips, ∀ a, (k0_off35 k0_t1) a + S1x64.size a ≤ S512x64.size a
  k0_t2_ok : k0_t2_loop.OK
  k0_off36_inb : ∀ i : grid0.Coords, ∀ a, (k0_off36 i) a + S512x64.size a ≤ S16384x64.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  What both programs compute, as one function of the argument arrays: row `r` of the result is the row of the
  table that entry `r` of the index list names (a signed 32-bit word read as an integer, negative words read as
  row 0, words past the last row read as the last row).  Under the claim's precondition every entry lies in
  `[0, 999999]`, so the clamp is never active; it is kept so that the function is total.
-/
import Idealize.ShloMosaic.PureOps.Ideal
import Idealize.ShloMosaic.Lib.ValueIdx

noncomputable section

namespace Cert.Spec

open Idealize.ShloMosaic Idealize.ShloMosaic.ValueIdx

/-- The row an index word names: the word as a signed integer, clamped into `[0, 999999]`. -/
def rowOf (w : BitVec 32) : Fin 1000000 := ⟨min w.toInt.toNat 999999, by omega⟩

/-- The row gather: `out[r, c] = table[rowOf (msg[r]), c]`. -/
def takeRows {F : FTy → Type} (msg : IVec ⟨1, ![16384]⟩ 32) (tbl : FVec F ⟨2, ![1000000, 64]⟩ .f32) :
    FVec F ⟨2, ![16384, 64]⟩ .f32 :=
  fun j => tbl (ix2 (rowOf (msg (ix1 (j 0)))) (j 1))

end Cert.Spec

end
-- ==== Proof.SetupKI.lean ====
/-
  The gather kernel's programs as the SparseCore launch theorem sees them, and what its handshakes carry.

  The device's 32 vector subcores each fetch 512 consecutive entries of the index list (subcore `s` of core `c` the
  entries from `1024 s + 512 c` on), start one row copy per entry out of the table (reshaped on the TensorCore to
  `[125000, 8, 64]`: row `r` of the table is rows `(r / 8, r % 8)` of the reshaped array) into 512 rows of a scratch
  of their own, all on one DMA semaphore, wait 512 times for one row's worth each, and write the scratch out to the
  512 rows of the result that carry their entries' numbers.  The launch hands every subcore its 512 entries of the
  index list, a read share of the whole reshaped table, and its 512 rows of the result; it gets back the entries and
  the rows, the latter holding the table's rows the entries name.
-/
import proofs.«201881_g28561532518853_retrytranche2_526_24_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«201881_g28561532518853_retrytranche2_526_24_alg».proof.Proof.Gen.KernelIdeal
import proofs.«201881_g28561532518853_retrytranche2_526_24_alg».proof.Proof.Gen.KernelIdeal.Skeleton
import proofs.«201881_g28561532518853_retrytranche2_526_24_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the result holds -/

variable (m : (ℓ : Loc nD τ sig) → Buf (Elt F) ℓ) (ρ : Dev nD → PrngReg)

/-- The index list and the table (the arguments), the reshaped table, the result, as locations of device `d`. -/
abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

variable [FloatOps F]

/-- The reshaped table: the table's elements in row-major order at `[125000, 8, 64]`. -/
def tbl3 (d : Dev nD) : Buf (Elt F) (tLoc d) :=
  shapeCast S125000x8x64 (m (xLoc d)) shapeCasts_S1000000x64_S125000x8x64

/-- What the result holds at the end: row `r` is the table's row that entry `r` of the index list names. -/
def gath (d : Dev nD) : Buf (Elt F) (oLoc d) := Cert.Spec.takeRows (F := F) (m (iLoc d)) (m (xLoc d))

/-- What the proof asks of the launch memory: every entry of the index list, read as a natural number, names a row of the table. -/
def PreOK : Prop := ∀ (d : Dev nD) (r : S16384.Idx), (m (iLoc d) r).toNat ≤ 999999

/-! ## A subcore's pieces of the arrays -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The 512 entries of the index list a subcore fetches, and the 512 rows of the result it writes, as the kernel slices them. -/
def iSl (L : grid0.Coords) : Memref sig .scVector .hbm S512 .i32 :=
  (Memref.whole main_arg0_scv).slice (Rect.unit (s := S16384) (k0_off1 L) S512.size (k0_off1_inb L)) (fun _ => rfl)
def oSl (L : grid0.Coords) : Memref sig .scVector .hbm S512x64 .f32 :=
  (Memref.whole main_v1_scv).slice (Rect.unit (s := S16384x64) (k0_off36 L) S512x64.size (k0_off36_inb L)) (fun _ => rfl)
/-- Their elements. -/
def mSet (L : grid0.Coords) : Finset S16384.Idx := (iSl L).view.set
def oSet (L : grid0.Coords) : Finset S16384x64.Idx := (oSl L).view.set

/-- The read share of the reshaped table that goes to core `c`, and to its subcore `s`. -/
def coreShare (c : Fin 2) : PosShare TreeShare := Transfers.shareTok fullShare 2 c
def tileShare (c : Fin 2) (s : Fin 16) : PosShare TreeShare := Transfers.shareTok (coreShare c) 16 s

/-! ## What the handshakes carry -/

/-- A subcore's entries of the index list, at their launch contents. -/
abbrev msgPts (d : Dev nD) (L : grid0.Coords) : sProp 𝕄 := iLoc d ↦[mSet L]{fullShare} m (iLoc d)
/-- Its rows of the result, at contents `f`. -/
abbrev outPts (d : Dev nD) (L : grid0.Coords) (f : Buf (Elt F) (oLoc d)) : sProp 𝕄 := oLoc d ↦[oSet L]{fullShare} f
/-- The reshaped table whole, at read share `q`. -/
abbrev tblPts (d : Dev nD) (q : PosShare TreeShare) : sProp 𝕄 := tLoc d ↦{q} tbl3 m d

/-- What a subcore's task takes, and what it brings back. -/
def tileGo (d : Dev nD) (c : Fin 2) (s : Fin 16) : sProp 𝕄 :=
  iprop(msgPts m d (coordsV c s) ∗ outPts d (coordsV c s) (m (oLoc d)) ∗ tblPts m d (tileShare c s))
def tileTd (d : Dev nD) (c : Fin 2) (s : Fin 16) : sProp 𝕄 :=
  iprop(msgPts m d (coordsV c s) ∗ outPts d (coordsV c s) (gath m d))

/-- What a core takes for its sixteen subcores, and what it brings back. -/
def coreSt (d : Dev nD) (c : Fin 2) : sProp 𝕄 :=
  iprop((bigSep Finset.univ fun s : Fin 16 => iprop(msgPts m d (coordsV c s) ∗ outPts d (coordsV c s) (m (oLoc d)))) ∗ tblPts m d (coreShare c))
def coreDn (d : Dev nD) (c : Fin 2) : sProp 𝕄 := bigSep Finset.univ fun s : Fin 16 => tileTd m d c s

/-- The one call: a core takes its subcores' entries and rows and a read share of the reshaped table, and brings the
    entries and the rows back, the rows at the gathered contents. -/
def P : (K (F := F)).Pay (nD := nD) (Val := Elt F) (Name := ℕ) (U := UU) where
  st := fun q d c => match q with
    | 0 => coreSt m d (Fin.cast nCore_zero c)
  dn := fun q d c => match q with
    | 0 => coreDn m d (Fin.cast nCore_zero c)
  go := fun q d c i => match q with
    | 0 => tileGo m d (Fin.cast nCore_zero c) (Fin.cast nSub_zero i)
  td := fun q d c i => match q with
    | 0 => tileTd m d (Fin.cast nCore_zero c) (Fin.cast nSub_zero i)
  x := fun _ _ => iprop(emp)

instance coreSt_storable (d : Dev nD) (c : Fin 2) : BI.Storable (upEmb : UEmb _ 𝕄) (coreSt m d c) := by unfold coreSt; infer_instance
instance tileGo_storable (d : Dev nD) (c : Fin 2) (s : Fin 16) : BI.Storable (upEmb : UEmb _ 𝕄) (tileGo m d c s) := by unfold tileGo; infer_instance
instance tileTd_storable (d : Dev nD) (c : Fin 2) (s : Fin 16) : BI.Storable (upEmb : UEmb _ 𝕄) (tileTd m d c s) := by unfold tileTd; infer_instance
instance coreDn_storable (d : Dev nD) (c : Fin 2) : BI.Storable (upEmb : UEmb _ 𝕄) (coreDn m d c) := by unfold coreDn; infer_instance

instance P_storable : (P (F := F) m).IsStorable where
  st q d c := match q with
    | 0 => (inferInstance : BI.Storable (upEmb : UEmb _ 𝕄) (coreSt m d (Fin.cast nCore_zero c)))
  dn q d c := match q with
    | 0 => (inferInstance : BI.Storable (upEmb : UEmb _ 𝕄) (coreDn m d (Fin.cast nCore_zero c)))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

end Cert.Proof.KI

end
-- ==== Proof.DataKI.lean ====
/-
  The data of one subcore's gather, away from the program logic: the two words a table index splits into, the rows of
  the row scratch, what a row copy lands, and what the final write-out leaves in the result.

  An index `w ≤ 999999` names row `w` of the table; the kernel reads it as block `w >>> 3` and sub-row `w &&& 7` of the
  table reshaped to `[125000, 8, 64]`, whose element `(a, b, c)` is the table's `(8 a + b, c)`: the same row.
-/
import proofs.«201881_g28561532518853_retrytranche2_526_24_alg».proof.Proof.SetupKI
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)

variable {F : FTy → Type}

/-! ## The two words of an index -/

/-- The block and the sub-row the kernel computes from an index word. -/
def blkW (w : BitVec 32) : BitVec 32 := IntOp.shrui .vector w 3#32
def subW (w : BitVec 32) : BitVec 32 := IntOp.andi w 7#32

theorem blkW_toNat (w : BitVec 32) : (blkW w).toNat = w.toNat / 8 := by
  unfold blkW IntOp.shrui
  rw [if_pos (by decide), BitVec.ushiftRight_eq', BitVec.toNat_ushiftRight, Nat.shiftRight_eq_div_pow]
  rfl
theorem subW_toNat (w : BitVec 32) : (subW w).toNat = w.toNat % 8 := by
  unfold subW IntOp.andi
  rw [BitVec.toNat_and]
  exact Nat.and_two_pow_sub_one_eq_mod w.toNat 3

/-- The kernel's check on the two words of an index that names a row of the table: the one-row slice they address lies
    inside the reshaped table. -/
theorem chk_words {w a b : BitVec 32} (hw : w.toNat ≤ 999999) (ha : a = blkW w) (hb : b = subW w) :
    ∀ x, (![a.toNat, b.toNat, 0] : Fin 3 → ℕ) x + S1x1x64.size x ≤ S125000x8x64.size x := by
  subst ha hb
  have h1 := blkW_toNat w
  have h2 := subW_toNat w
  intro x
  match x with
  | ⟨0, _⟩ =>
    show (blkW w).toNat + 1 ≤ 125000
    omega
  | ⟨1, _⟩ =>
    show (subW w).toNat + 1 ≤ 8
    omega
  | ⟨2, _⟩ =>
    show 0 + 64 ≤ 64
    omega

/-! ## The rows of the row scratch -/

theorem row_inb (t : Fin 512) : ∀ a, (![t.val, 0] : Fin 2 → ℕ) a + S1x64.size a ≤ S512x64.size a := by
  intro a
  have := t.isLt
  match a with
  | ⟨0, _⟩ =>
    show t.val + 1 ≤ 512
    omega
  | ⟨1, _⟩ =>
    show 0 + 64 ≤ 64
    omega

/-- Row `t` of the row scratch, as a one-row slice. -/
def rowM (t : Fin 512) : Memref sig .scVector .vmem S1x64 .f32 :=
  (Memref.whole cc0_scratch1).slice (Rect.unit (s := S512x64) ![t.val, 0] S1x64.size (row_inb t)) (fun _ => rfl)
/-- Its elements. -/
def rowSet (t : Fin 512) : Finset S512x64.Idx := (rowM t).view.set

/-- Row `t`'s elements are the unit rectangle's at offsets `(t, 0)`. -/
theorem rowSet_eq (t : Fin 512) : rowSet t = (Rect.unit (s := S512x64) ![t.val, 0] S1x64.size (row_inb t)).set :=
  View.set_slice_whole _ _

theorem mem_rowSet (t : Fin 512) (y : S512x64.Idx) : y ∈ rowSet t ↔ (y 0).val = t.val := by
  rw [rowSet_eq, Rect.mem_set_unit]
  have h1 : (y 1).val < 64 := (y 1).isLt
  constructor
  · intro H
    have a0 : t.val ≤ (y 0).val ∧ (y 0).val < t.val + 1 := H 0
    omega
  · intro H a
    match a with
    | ⟨0, _⟩ =>
      show t.val ≤ (y 0).val ∧ (y 0).val < t.val + 1
      omega
    | ⟨1, _⟩ =>
      show 0 ≤ (y 1).val ∧ (y 1).val < 0 + 64
      omega
theorem rowSet_disjoint : ∀ t ∈ (Finset.univ : Finset (Fin 512)), ∀ t' ∈ (Finset.univ : Finset (Fin 512)), t ≠ t' → Disjoint (rowSet t) (rowSet t') := by
  intro t _ t' _ hne
  rw [Finset.disjoint_left]
  intro y hy hy'
  rw [mem_rowSet] at hy hy'
  exact hne (Fin.ext (by omega))
theorem rowSet_cover : (Finset.univ : Finset (Fin 512)).biUnion rowSet = Finset.univ := by
  ext y
  simp only [Finset.mem_biUnion, Finset.mem_univ, true_and, iff_true]
  exact ⟨y 0, (mem_rowSet _ _).mpr rfl⟩

/-- A one-row slice of the row scratch at offsets that ARE `(t, 0)` has row `t`'s elements. -/
theorem set_row_of_off (t : Fin 512) (off : Fin 2 → ℕ) (hinb : ∀ a, off a + S1x64.size a ≤ S512x64.size a) (hoff : off = ![t.val, 0]) :
    ((Memref.whole cc0_scratch1 : Memref sig .scVector .vmem S512x64 .f32).slice (Rect.unit (s := S512x64) off S1x64.size hinb) (fun _ => rfl)).view.set = rowSet t := by
  subst hoff; rfl

/-! ## What a row copy lands -/

/-- The one-row slice `(a, b, :)` of the reshaped table, squeezed to `[1, 64]`: a row copy's source. -/
def srcM (off : Fin 3 → ℕ) (h : ∀ x, off x + S1x1x64.size x ≤ S125000x8x64.size x) : Memref sig .scVector .hbm S1x64 .f32 :=
  ((Memref.whole main_v0_scv).slice (Rect.unit (s := S125000x8x64) off S1x1x64.size h) (fun _ => rfl)).squeeze S1x64 squeezes_S1x1x64_S1x64

/-- What the row scratch holds once every copy has landed: row `t` is row `(blk, sub)` of the reshaped table `T3`, the
    two words taken from entry `t` of the index scratch `fS`. -/
def landed (fS : S512.Idx → BitVec 32) (T3 : S125000x8x64.Idx → F .f32) : S512x64.Idx → F .f32 :=
  fun y => T3 (ix3 (⟨(blkW (fS (ix1 (y 0)))).toNat % 125000, Nat.mod_lt _ (by norm_num)⟩ : Fin 125000)
    (⟨(subW (fS (ix1 (y 0)))).toNat % 8, Nat.mod_lt _ (by norm_num)⟩ : Fin 8) (y 1))

/-- On row `t` the landed contents read entry `t` of the index scratch. -/
theorem landed_row (fS : S512.Idx → BitVec 32) (T3 : S125000x8x64.Idx → F .f32) (t : Fin 512) (y : S512x64.Idx)
    (hy : (y 0).val = t.val) :
    landed fS T3 y = T3 (ix3 (⟨(blkW (fS (ix1 t))).toNat % 125000, Nat.mod_lt _ (by norm_num)⟩ : Fin 125000)
      (⟨(subW (fS (ix1 t))).toNat % 8, Nat.mod_lt _ (by norm_num)⟩ : Fin 8) (y 1)) := by
  have e : y 0 = t := Fin.ext hy
  subst e
  rfl

/-- The squeeze of `[1, 1, 64]` to `[1, 64]` matches `(0, c)` with `(0, 0, c)`: both are at row-major position `c`. -/
theorem squeeze_idx (x : S1x64.Idx) (hh : S1x64.numel = (⟨3, S1x1x64.size⟩ : Shape).numel) :
    Shape.reshapeEquiv hh x = ix3 (0 : Fin 1) (0 : Fin 1) (x 1 : Fin 64) := by
  have hx0 : (x 0).val < 1 := (x 0).isLt
  have e3 := Shape.rowMajor_val_three (d := ![1, 1, 64]) (ix3 (0 : Fin 1) (0 : Fin 1) (x 1 : Fin 64))
  have e2 := Shape.rowMajor_val_two (d := ![1, 64]) x
  refine Shape.reshapeEquiv_eq_of_rowMajor hh (e3.trans (Eq.trans ?_ e2.symm))
  show (0 * 1 + 0) * 64 + (x 1).val = (x 0).val * 64 + (x 1).val
  omega

/-- A row copy out of slice `(a, b, :)` of the reshaped table into row `t` of the row scratch, `a` and `b` the two
    words of entry `t` of the index scratch (an index that names a row of the table), leaves on row `t` what `landed`
    says, whatever the scratch held. -/
theorem deliver_row (fS : S512.Idx → BitVec 32) (T3 : S125000x8x64.Idx → F .f32) (fd : S512x64.Idx → F .f32) (t : Fin 512)
    (off : Fin 3 → ℕ) (h : ∀ x, off x + S1x1x64.size x ≤ S125000x8x64.size x)
    (a b : BitVec 32) (hoff : off = ![a.toNat, b.toNat, 0])
    (ha : a = blkW (fS (ix1 t))) (hb : b = subW (fS (ix1 t))) (hw : (fS (ix1 t)).toNat ≤ 999999) :
    ∀ y ∈ rowSet t,
      (rowM t).view.write (Elt F) fd ((srcM off h).view.read (Elt F) T3) Finset.univ y = landed fS T3 y := by
  subst hoff ha hb
  intro y hy
  have hy0 : (y 0).val = t.val := (mem_rowSet t y).1 hy
  obtain ⟨x, -, hx⟩ := Finset.mem_map.1 hy
  have hy1 : 0 + 1 * (x 1).val = (y 1).val := congrArg (fun z : S512x64.Idx => (z 1).val) hx
  have h1 := blkW_toNat (fS (ix1 t))
  have h2 := subW_toNat (fS (ix1 t))
  rw [landed_row fS T3 t y hy0]
  have hwr : (rowM t).view.write (Elt F) fd ((srcM _ h).view.read (Elt F) T3) Finset.univ y
      = T3 ((srcM _ h).view.emb x) := by
    rw [← hx]
    exact View.write_emb_of_mem (v := (rowM t).view) (Val := Elt F) fd _ (Finset.mem_univ x)
  refine hwr.trans (congrArg T3 ?_)
  have hsrc : (srcM _ h).view.emb x
      = (Rect.unit (s := S125000x8x64) ![(blkW (fS (ix1 t))).toNat, (subW (fS (ix1 t))).toNat, 0] S1x1x64.size h).emb
          (ix3 (0 : Fin 1) (0 : Fin 1) (x 1 : Fin 64)) := by
    show (Rect.unit (s := S125000x8x64) ![(blkW (fS (ix1 t))).toNat, (subW (fS (ix1 t))).toNat, 0] S1x1x64.size h).emb
        (Shape.reshapeEquiv _ x) = _
    exact congrArg _ (squeeze_idx x _)
  refine hsrc.trans ?_
  funext c
  refine Fin.ext ?_
  match c with
  | ⟨0, _⟩ =>
    show (blkW (fS (ix1 t))).toNat + 1 * 0 = (blkW (fS (ix1 t))).toNat % 125000
    omega
  | ⟨1, _⟩ =>
    show (subW (fS (ix1 t))).toNat + 1 * 0 = (subW (fS (ix1 t))).toNat % 8
    omega
  | ⟨2, _⟩ =>
    show 0 + 1 * (x 1).val = (y 1).val
    exact hy1

/-! ## What the write-out leaves -/

variable (m : (ℓ : Loc nD τ sig) → Buf (Elt F) ℓ)

/-- What the index scratch of the subcore at grid point `L` holds after its fetch: its 512 entries of the index list. -/
def fetched (d : Dev nD) (L : grid0.Coords) : S512.Idx → BitVec 32 := (iSl L).view.read (Elt F) (m (iLoc d))

variable [FloatOps F]

/-- Every fetched entry names a row of the table. -/
theorem fetched_le (hpre : PreOK m) (d : Dev nD) (L : grid0.Coords) (t : Fin 512) : (fetched m d L (ix1 t)).toNat ≤ 999999 := by
  unfold fetched
  exact hpre d ((iSl L).view.emb (ix1 t))

/-- A word that names a row of the table reads the same signed and unsigned, so `rowOf` keeps it. -/
theorem rowOf_val (v : BitVec 32) (hv : v.toNat ≤ 999999) : (Cert.Spec.rowOf v).val = v.toNat := by
  have e : v.toInt = (v.toNat : Int) := BitVec.toInt_eq_toNat_of_lt (by omega)
  show min v.toInt.toNat 999999 = v.toNat
  rw [e, Int.toNat_natCast]
  omega

/-- Writing the row scratch, at the landed contents, over the subcore's 512 rows of the result leaves there the rows of
    the table its entries of the index list name: what the result holds at the end. -/
theorem out_value (hpre : PreOK m) (d : Dev nD) (L : grid0.Coords) (fo : S16384x64.Idx → F .f32) :
    ∀ y ∈ oSet L,
      (oSl L).view.write (Elt F) fo ((Memref.whole cc0_scratch1 : Memref sig .scVector .vmem S512x64 .f32).view.read (Elt F) (landed (fetched m d L) (tbl3 m d))) Finset.univ y
        = gath m d y := by
  intro y hy
  obtain ⟨x, -, hx⟩ := Finset.mem_map.1 hy
  -- the coordinates of `y`: the slice starts at row `1024 (L 1) + 512 (L 0)`, column 0
  have hy0 : k0_off36 L 0 + 1 * (x 0).val = (y 0).val := congrArg (fun z : S16384x64.Idx => (z 0).val) hx
  have hy1 : k0_off36 L 1 + 1 * (x 1).val = (y 1).val := congrArg (fun z : S16384x64.Idx => (z 1).val) hx
  rw [k0_off36_eq L] at hy0 hy1
  have hy0' : 1024 * (L 1).val + 512 * (L 0).val + 1 * (x 0).val = (y 0).val := hy0
  have hy1' : 0 + 1 * (x 1).val = (y 1).val := hy1
  -- the fetched entry under row `x 0` of the slice is entry `y 0` of the index list
  have hidx : (ix1 (y 0) : S16384.Idx) = (iSl L).view.emb (ix1 (x 0)) := by
    funext c
    refine Fin.ext ?_
    match c with
    | ⟨0, _⟩ =>
      show (y 0).val = k0_off1 L 0 + 1 * (x 0).val
      rw [k0_off1_eq L]
      show (y 0).val = 1024 * (L 1).val + 512 * (L 0).val + 1 * (x 0).val
      omega
  have hmsg : m (iLoc d) (ix1 (y 0)) = fetched m d L (ix1 (x 0)) := congrArg (m (iLoc d)) hidx
  have hw : (fetched m d L (ix1 (x 0))).toNat ≤ 999999 := fetched_le m hpre d L (x 0)
  have h1 := blkW_toNat (fetched m d L (ix1 (x 0)))
  have h2 := subW_toNat (fetched m d L (ix1 (x 0)))
  -- the write puts the landed element there
  have hwr : (oSl L).view.write (Elt F) fo ((Memref.whole cc0_scratch1 : Memref sig .scVector .vmem S512x64 .f32).view.read (Elt F)
      (landed (fetched m d L) (tbl3 m d))) Finset.univ y = landed (fetched m d L) (tbl3 m d) x := by
    rw [← hx]
    exact View.write_emb_of_mem (v := (oSl L).view) (Val := Elt F) fo _ (Finset.mem_univ x)
  refine hwr.trans ?_
  -- the reshaped table at `(w / 8, w % 8, c)` is the table at `(w, c)`
  have hcast : landed (fetched m d L) (tbl3 m d) x
      = m (xLoc d) (ix2 (⟨(fetched m d L (ix1 (x 0))).toNat, by omega⟩ : Fin 1000000) (x 1 : Fin 64)) := by
    refine shapeCast_apply (m (xLoc d)) shapeCasts_S1000000x64_S125000x8x64 _ _ ?_
    refine (Shape.rowMajor_val_two (d := ![1000000, 64]) _).trans (Eq.trans ?_ (Shape.rowMajor_val_three (d := ![125000, 8, 64]) _).symm)
    show (fetched m d L (ix1 (x 0))).toNat * 64 + (x 1).val
      = ((blkW (fetched m d L (ix1 (x 0)))).toNat % 125000 * 8 + (subW (fetched m d L (ix1 (x 0)))).toNat % 8) * 64 + (x 1).val
    omega
  refine hcast.trans (congrArg (m (xLoc d)) ?_)
  funext c
  refine Fin.ext ?_
  match c with
  | ⟨0, _⟩ =>
    show (fetched m d L (ix1 (x 0))).toNat = (Cert.Spec.rowOf (m (iLoc d) (ix1 (y 0)))).val
    exact ((rowOf_val _ (hpre d _)).trans (congrArg BitVec.toNat hmsg)).symm
  | ⟨1, _⟩ =>
    show (x 1).val = (y 1).val
    omega

end Cert.Proof.KI

end
-- ==== Proof.TileKI.lean ====
import proofs.«201881_g28561532518853_retrytranche2_526_24_alg».proof.Proof.DataKI
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iW" => (Memref.whole Cert.KernelIdeal.main_arg0_scv : Memref Cert.KernelIdeal.sig Kind.scVector Space.hbm Cert.KernelIdeal.S16384 EltTy.i32)
local notation "tW" => (Memref.whole Cert.KernelIdeal.main_v0_scv : Memref Cert.KernelIdeal.sig Kind.scVector Space.hbm Cert.KernelIdeal.S125000x8x64 EltTy.f32)
local notation "oW" => (Memref.whole Cert.KernelIdeal.main_v1_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The subcore's three DMA semaphores' cells. -/
abbrev cBatch (d : Dev nD) (c : Fin τ.nSC) (i : Fin τ.nSub) : GSem nD τ sig := (V d c i, .dma cc0_scratch2.sem)
abbrev cIn (d : Dev nD) (c : Fin τ.nSC) (i : Fin τ.nSub) : GSem nD τ sig := (V d c i, .dma cc0_scoped0.sem)
abbrev cOut (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cBatch d (cV L) (jV L)) 0 ∗ semVal (cIn d (cV L) (jV L)) 0 ∗ semVal (cOut d (cV L) (jV L)) 0
          ∗ bigSep ((((ownCells (V d (cV L) (jV L))).erase (cBatch d (cV L) (jV L))).erase (cIn d (cV L) (jV L))).erase (cOut d (cV L) (jV L)))
              fun g => semVal g 0) := by
  unfold SparseCore.Cfg.ownSems0
  rw [SparseCore.bigSep_erase' ((mem_ownCells (g := cBatch d (cV L) (jV L))).mpr ⟨rfl, by
      show (SemLoc.dma cc0_scratch2.sem : SemLoc sig).isScoped .scVector = true; decide⟩),
    SparseCore.bigSep_erase' (Finset.mem_erase.mpr ⟨by simp [cBatch, cIn]; decide, (mem_ownCells (g := cIn d (cV L) (jV L))).mpr ⟨rfl, by
      show (SemLoc.dma cc0_scoped0.sem : SemLoc sig).isScoped .scVector = true; decide⟩⟩),
    SparseCore.bigSep_erase' (Finset.mem_erase.mpr ⟨by simp [cIn, cOut]; decide, Finset.mem_erase.mpr ⟨by simp [cBatch, cOut]; decide,
      (mem_ownCells (g := cOut d (cV L) (jV L))).mpr ⟨rfl, by show (SemLoc.dma cc0_scoped1.sem : SemLoc sig).isScoped .scVector = true; decide⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The transfers' counters, in the certificate's algebra. -/
abbrev EC : UEmb Counters (MT nD τ sig (HIx 1) (Elt F) ℕ UU ℕ) := countersEmb (U := UU)

/-- One row copy's credit on the batch's semaphore. -/
abbrev NR : ℕ := (rowM ⟨0, by norm_num⟩).view.dmaCredit

/-- What row copy `t` delivers: row `t` of the row scratch at the landed contents. -/
def Dl (fS : S512.Idx → BitVec 32) (t : Fin 512) : sProp 𝕄 :=
  (V d (cV L) (jV L)).loc cc0_scratch1 ↦[rowSet t]{fullShare} landed fS (tbl3 m d)

instance Dl_storable (fS : S512.Idx → BitVec 32) (t : Fin 512) : BI.Storable (upEmb : UEmb _ 𝕄) (Dl m d L fS t) := by
  unfold Dl; infer_instance

/-- The batch of the subcore's 512 row copies: `j` started, none waited for. -/
abbrev batch (fS : S512.Idx → BitVec 32) (j u : ℕ) : sProp 𝕄 :=
  Transfers.Batch (EC (F := F)) (V d (cV L) (jV L)) (.dma cc0_scratch2.sem) (none : HIx 1) NR (Dl m d L fS) j u

/-- ONE ROW COPY, number `j`: out of the slice of the reshaped table the two words of entry `j` of the index scratch
    address, into row `j` of the row scratch, on the batch's semaphore. -/
theorem issue_one {α : Type} {kont : PUnit → Prog (TpuEff nD τ sig (Elt F) Λ₀ (.scVector (cV L) (jV L))) α} {Q : α → sProp 𝕄}
    (fS : S512.Idx → BitVec 32) (q : PosShare TreeShare) (n₀ j : ℕ) (hn : n₀ = j) (hj : j < 512)
    (offd : Fin 2 → ℕ) (hd : ∀ a, offd a + S1x64.size a ≤ S512x64.size a) (hoffd : offd = ![j, 0])
    (offs : Fin 3 → ℕ) (hs : ∀ x, offs x + S1x1x64.size x ≤ S125000x8x64.size x)
    (a b : BitVec 32) (hoffs : offs = ![a.toNat, b.toNat, 0])
    (ha : a = blkW (fS (ix1 ⟨j, hj⟩))) (hb : b = subW (fS (ix1 ⟨j, hj⟩))) (hw : (fS (ix1 ⟨j, hj⟩)).toNat ≤ 999999)
    {hsrc : (srcM offs hs).view.WordExact} {hdst : ((sR).slice (Rect.unit (s := S512x64) offd S1x64.size hd) (fun _ => rfl)).view.WordExact}
    {hsem : DmaTarget.Typed (nD := nD) (τ := τ) (p := Proc.scVector (cV L) (jV L)) Space.hbm (.dma cc0_scratch2.sem) (DmaTarget.here (nD := nD) (τ := τ) (p := Proc.scVector (cV L) (jV L)) ((sR).slice (Rect.unit (s := S512x64) offd S1x64.size hd) (fun _ => rfl)))}
    (fd : S512x64.Idx → F .f32) :
    iprop(((tW).view.loc (V d (cV L) (jV L)) ↦{q} tbl3 m d) ∗ ((V d (cV L) (jV L)).loc cc0_scratch1 ↦[rowSet ⟨j, hj⟩]{fullShare} fd)
        ∗ batch m d L fS n₀ 0)
      ⊢ iprop((batch m d L fS (j + 1) 0 -∗ wp frame (wpE (defs₀ (F := F)) 𝒱₀ (V d (cV L) (jV L)) none) Set.univ (kont ⟨⟩) Q)
          -∗ wp frame (wpE (defs₀ (F := F)) 𝒱₀ (V d (cV L) (jV L)) none) Set.univ
            (.op (.enqueueDmaAs (srcM offs hs) (DmaTarget.here (nD := nD) (τ := τ) (p := Proc.scVector (cV L) (jV L)) ((sR).slice (Rect.unit (s := S512x64) offd S1x64.size hd) (fun _ => rfl))) .same (.dma cc0_scratch2.sem) hsrc hdst hsem) kont) Q) := by
  subst hn hoffd
  iintro ⟨Ht, Hr, HB⟩ Hk
  ihave Ht' := ((pointsTo_split_subset (ℓ := (tW).view.loc (V d (cV L) (jV L))) (I := (srcM offs hs).view.set) (S := Finset.univ) (Finset.subset_univ _)).1) $$ Ht
  icases Ht' with ⟨Hsrc, -⟩
  iapply (Transfers.wp_dmaBatch (EC (F := F)) 𝒱₀ (V d (cV L) (jV L)) none (src := srcM offs hs)
      (dst := (sR).slice (Rect.unit (s := S512x64) ![n₀, 0] S1x64.size hd) (fun _ => rfl)) (fs := tbl3 m d) (fd := fd) (q := q)
      (D := Dl m d L fS) (none : HIx 1) NR rfl
      (Sd := rowSet ⟨n₀, hj⟩) (Finset.Subset.refl _) hj (Nat.zero_le _) ?hD) $$ [Hsrc Hr HB]
  case hD =>
    iintro ⟨Hd, -⟩
    unfold Dl
    iapply (Entails.of_eq (pointsTo_congr (deliver_row fS (tbl3 m d) fd ⟨n₀, hj⟩ offs hs a b hoffs ha hb hw)))
    iexact Hd
  · isplitl [Hsrc]; · iexact Hsrc
    isplitl [Hr]; · iexact Hr
    iexact HB
  iexact Hk

/-! ## The lanes of a chunk of sixteen entries -/

/-- Lane `u` of a sixteen-lane vector, as the kernel takes it: the one-lane slice at `u`, then its only entry. -/
theorem lane_apply (x : IVec S16 32) (u : Fin 16) (h : S16.Slices ![u.val] S1) :
    extractAt ![0] (extractStridedSlice S1 ![u.val] x h) inpos_S1_p0 = x (ix1 u) := by
  unfold extractAt extractStridedSlice
  refine congrArg x (funext fun a => Fin.ext ?_)
  match a with
  | ⟨0, _⟩ => simp

/-- The kernel's two vector operations on a chunk: every lane's block word and sub-row word. -/
theorem pay4_apply (v7 : Vec F S16 .i32) (i : S16.Idx) : k0_pay4 (F := F) v7 i = blkW (v7 i) := by
  unfold k0_pay4 k0_pay3
  show IntOp.shrui .vector (shapeCast S16 v7 shapeCasts_S16_S16 i) (broadcast S16 3#32 i) = _
  rw [shapeCast_self]; rfl
theorem pay5_apply (v7 : Vec F S16 .i32) (i : S16.Idx) : k0_pay5 (F := F) v7 i = subW (v7 i) := by
  unfold k0_pay5 k0_pay3
  show IntOp.andi (shapeCast S16 v7 shapeCasts_S16_S16 i) (broadcast S16 7#32 i) = _
  rw [shapeCast_self]; rfl

omit [FloatOps F] in
theorem trips1_le : k0_t1_loop.trips ≤ 32 := k0_t1_abs.2.1

/-- Trip `k`'s chunk: sixteen entries of the index scratch from `16 k` on. -/
abbrev chunk (fS : S512.Idx → BitVec 32) (k : Fin k0_t1_loop.trips) : Vec F S16 .i32 :=
  (sI).view.readAt (Elt F) (Rect.unit (s := S512) (k0_off2 k) S16.size (k0_off2_inb k)).toLoadRect fS

omit [FloatOps F] in
theorem load_lane (fS : S512.Idx → BitVec 32) (k : Fin k0_t1_loop.trips) (u : Fin 16) (h : 16 * k.val + u.val < 512) :
    chunk (F := F) fS k (ix1 u) = fS (ix1 ⟨16 * k.val + u.val, h⟩) := by
  unfold chunk
  rw [View.readAt_apply]
  show fS _ = fS _
  refine congrArg fS (funext fun a => Fin.ext ?_)
  match a with
  | ⟨0, _⟩ =>
    show (k0_off2 k) 0 + 1 * (u : ℕ) = 16 * k.val + u.val
    rw [k0_off2_eq]; simp

/-! ## The issue loop -/

omit [FloatOps F] in
/-- Sixteen heads off a run. -/
theorem take16 (Φ : Fin 512 → sProp 𝕄) (lo : ℕ) (h : lo + 16 ≤ 512) :
    bigSep (Ring.rangeSet 512 lo 512) Φ = iprop(Φ ⟨lo + 0, by omega⟩ ∗ Φ ⟨lo + 1, by omega⟩ ∗ Φ ⟨lo + 2, by omega⟩ ∗ Φ ⟨lo + 3, by omega⟩ ∗ Φ ⟨lo + 4, by omega⟩ ∗ Φ ⟨lo + 5, by omega⟩ ∗ Φ ⟨lo + 6, by omega⟩ ∗ Φ ⟨lo + 7, by omega⟩ ∗ Φ ⟨lo + 8, by omega⟩ ∗ Φ ⟨lo + 9, by omega⟩ ∗ Φ ⟨lo + 10, by omega⟩ ∗ Φ ⟨lo + 11, by omega⟩ ∗ Φ ⟨lo + 12, by omega⟩ ∗ Φ ⟨lo + 13, by omega⟩ ∗ Φ ⟨lo + 14, by omega⟩ ∗ Φ ⟨lo + 15, by omega⟩ ∗ bigSep (Ring.rangeSet 512 (lo + 16) 512) Φ) := by
  have e : ∀ (a b : ℕ) (_ : b = a + 1) (ha : a < 512),
      bigSep (Ring.rangeSet 512 a 512) Φ = iprop(Φ ⟨a, ha⟩ ∗ bigSep (Ring.rangeSet 512 b 512) Φ) := by
    intro a b hb ha; subst hb; exact Ring.bigSep_rangeSet_head ha ha
  rw [e lo (lo + 1) rfl (by omega), e (lo + 1) (lo + 2) rfl (by omega), e (lo + 2) (lo + 3) rfl (by omega), e (lo + 3) (lo + 4) rfl (by omega), e (lo + 4) (lo + 5) rfl (by omega), e (lo + 5) (lo + 6) rfl (by omega), e (lo + 6) (lo + 7) rfl (by omega), e (lo + 7) (lo + 8) rfl (by omega), e (lo + 8) (lo + 9) rfl (by omega), e (lo + 9) (lo + 10) rfl (by omega), e (lo + 10) (lo + 11) rfl (by omega), e (lo + 11) (lo + 12) rfl (by omega), e (lo + 12) (lo + 13) rfl (by omega), e (lo + 13) (lo + 14) rfl (by omega), e (lo + 14) (lo + 15) rfl (by omega), e (lo + 15) (lo + 16) rfl (by omega)]
  rfl

/-- A row of the row scratch owned, and read token `t` of the reshaped table. -/
abbrev rowF (t : Fin 512) : sProp 𝕄 := iprop(∃ g : S512x64.Idx → F .f32, (V d (cV L) (jV L)).loc cc0_scratch1 ↦[rowSet t]{fullShare} g)
abbrev tokF (q : PosShare TreeShare) (t : Fin 512) : sProp 𝕄 := (tW).view.loc (V d (cV L) (jV L)) ↦{Transfers.shareTokN q t.val} tbl3 m d

/-- Before trip `k` of the issue loop: the index scratch at its fetched contents, `16 k` row copies started, the rows and
    the read tokens from `16 k` on still in hand. -/
def issueInv (fS : S512.Idx → BitVec 32) (q : PosShare TreeShare) (k : ℕ) (_ : Unit) : sProp 𝕄 :=
  iprop(((sI).view.loc (V d (cV L) (jV L)) ↦{fullShare} fS) ∗ batch m d L fS (16 * k) 0
    ∗ bigSep (Ring.rangeSet 512 (16 * k) 512) (rowF d L) ∗ bigSep (Ring.rangeSet 512 (16 * k) 512) (tokF m d L q))

/-- Lane `u` of the chunk's block words is the block word of entry `16 k + u` of the index scratch. -/
theorem laneA (fS : S512.Idx → BitVec 32) (k : Fin k0_t1_loop.trips) (u : Fin 16) (h : S16.Slices ![u.val] S1)
    (j : ℕ) (hj : j < 512) (e : j = 16 * k.val + u.val) :
    extractAt ![0] (extractStridedSlice S1 ![u.val] (k0_pay4 (chunk (F := F) fS k)) h) inpos_S1_p0 = blkW (fS (ix1 ⟨j, hj⟩)) := by
  subst e
  exact (lane_apply _ u h).trans ((pay4_apply _ _).trans (congrArg blkW (load_lane fS k u hj)))
/-- Lane `u` of the chunk's sub-row words is the sub-row word of entry `16 k + u` of the index scratch. -/
theorem laneB (fS : S512.Idx → BitVec 32) (k : Fin k0_t1_loop.trips) (u : Fin 16) (h : S16.Slices ![u.val] S1)
    (j : ℕ) (hj : j < 512) (e : j = 16 * k.val + u.val) :
    extractAt ![0] (extractStridedSlice S1 ![u.val] (k0_pay5 (chunk (F := F) fS k)) h) inpos_S1_p0 = subW (fS (ix1 ⟨j, hj⟩)) := by
  subst e
  exact (lane_apply _ u h).trans ((pay5_apply _ _).trans (congrArg subW (load_lane fS k u hj)))

/-- The chunk's load, its value handed to the continuation as a variable equal to what the index scratch reads. -/
theorem wp_load_var {α : Type} (fS : S512.Idx → BitVec 32) (r : LoadRect S512) (hl : (sI).view.LoadsAt r)
    (kk : (r.shape.Idx → Elt F .i32) → Prog (TpuEff nD τ sig (Elt F) Λ₀ (.scVector (cV L) (jV L))) α) (Q : α → sProp 𝕄) :
    iprop((((sI).view.loc (V d (cV L) (jV L)) ↦{fullShare} fS) : sProp 𝕄)
        ∗ (∀ v : r.shape.Idx → Elt F .i32, ⌜v = (sI).view.readAt (Elt F) r fS⌝ -∗ ((sI).view.loc (V d (cV L) (jV L)) ↦{fullShare} fS) -∗ wp frame (wpE (defs₀ (F := F)) 𝒱₀ (V d (cV L) (jV L)) none) Set.univ (kk v) Q))
      ⊢ wp frame (wpE (defs₀ (F := F)) 𝒱₀ (V d (cV L) (jV L)) none) Set.univ (.op (.load sI r hl) kk) Q := by
  iintro ⟨Hs, Hk⟩
  iapply (wp_load 𝒱₀ (V d (cV L) (jV L)) none Set.univ (m := sI) (S := Finset.univ) (Finset.subset_univ _)) $$ Hs
  iintro Hs
  iapply Hk $$ %_ %rfl Hs

set_option maxHeartbeats 400000 in
/-- Part 1 of a trip: the chunk loaded, lanes 0 and 1 checked and started, lane 2 checked. The continuation takes the
    part's results as variables, with what they are: every lane of the two word vectors, and lane 2's two words. -/
theorem part1_step {α : Type} (fS : S512.Idx → BitVec 32) (hfS : ∀ t : Fin 512, (fS (ix1 t)).toNat ≤ 999999) (q : PosShare TreeShare)
    (k : Fin k0_t1_loop.trips) (hk : k.val < 32)
    (kont : (Σ' (arg8 : BitVec 32) (v10 : IVec S16 32) (v12 : IVec S16 32) (vA : BitVec 32) (vB : BitVec 32) (_ : k0_chk3 vA vB) (_ : BitVec 32), BitVec 32) → Prog (TpuEff nD τ sig (Elt F) Λ₀ (.scVector (cV L) (jV L))) α) (Q : α → sProp 𝕄) :
    iprop(((sI).view.loc (V d (cV L) (jV L)) ↦{fullShare} fS) ∗ batch m d L fS (16 * k.val) 0
        ∗ rowF d L ⟨16 * k.val + 0, by omega⟩ ∗ rowF d L ⟨16 * k.val + 1, by omega⟩ ∗ tokF m d L q ⟨16 * k.val + 0, by omega⟩ ∗ tokF m d L q ⟨16 * k.val + 1, by omega⟩)
      ⊢ iprop((∀ t : (Σ' (arg8 : BitVec 32) (v10 : IVec S16 32) (v12 : IVec S16 32) (vA : BitVec 32) (vB : BitVec 32) (_ : k0_chk3 vA vB) (_ : BitVec 32), BitVec 32), ⌜((∀ (u : Fin 16) (h : S16.Slices ![u.val] S1) (hlt : 16 * k.val + u.val < 512),
        extractAt ![0] (extractStridedSlice S1 ![u.val] t.2.1 h) inpos_S1_p0 = blkW (fS (ix1 ⟨16 * k.val + u.val, hlt⟩)))
      ∧ (∀ (u : Fin 16) (h : S16.Slices ![u.val] S1) (hlt : 16 * k.val + u.val < 512),
        extractAt ![0] (extractStridedSlice S1 ![u.val] t.2.2.1 h) inpos_S1_p0 = subW (fS (ix1 ⟨16 * k.val + u.val, hlt⟩))))
                ∧ t.2.2.2.1 = blkW (fS (ix1 ⟨(16 * k.val + 0 + 2), by omega⟩)) ∧ t.2.2.2.2.1 = subW (fS (ix1 ⟨(16 * k.val + 0 + 2), by omega⟩))⌝
              -∗ iprop(((sI).view.loc (V d (cV L) (jV L)) ↦{fullShare} fS) ∗ batch m d L fS (16 * k.val + 2) 0) -∗ wp frame (wpE (defs₀ (F := F)) 𝒱₀ (V d (cV L) (jV L)) none) Set.univ (kont t) Q)
          -∗ wp frame (wpE (defs₀ (F := F)) 𝒱₀ (V d (cV L) (jV L)) none) Set.univ (k0_part1 L iW (Memref.isWhole_whole _) tW (Memref.isWhole_whole _) oW (Memref.isWhole_whole _) sI (Memref.isWhole_whole _) sR (Memref.isWhole_whole _) cc0_scratch2 cc0_scoped0 cc0_scoped1 0#32 1#32 k >>= kont) Q) := by
  simp only [k0_part1_eq_skeleton]
  unfold k0_part1_skel
  simp only [Prog.lift, Prog.bind_op, Prog.bind_ret, Prog.pure_eq_ret]
  iintro ⟨Hs, HB, ⟨%g0, Hr0⟩, ⟨%g1, Hr1⟩, Ht0, Ht1⟩ Hk
  iapply (wp_load_var d L fS _ _ _ _)
  isplitl [Hs]; · iexact Hs
  iintro %v7 %hv7 Hs
  have hv10 : ∀ (u : Fin 16) (h : S16.Slices ![u.val] S1) (hlt : 16 * k.val + u.val < 512),
      extractAt ![0] (extractStridedSlice S1 ![u.val] (k0_pay4 (F := F) v7) h) inpos_S1_p0 = blkW (fS (ix1 ⟨16 * k.val + u.val, hlt⟩)) := by
    intro u h hlt; rw [hv7]; exact laneA fS k u h _ hlt rfl
  have hv12 : ∀ (u : Fin 16) (h : S16.Slices ![u.val] S1) (hlt : 16 * k.val + u.val < 512),
      extractAt ![0] (extractStridedSlice S1 ![u.val] (k0_pay5 (F := F) v7) h) inpos_S1_p0 = subW (fS (ix1 ⟨16 * k.val + u.val, hlt⟩)) := by
    intro u h hlt; rw [hv7]; exact laneB fS k u h _ hlt rfl
  iapply (Entails.of_eq (wp_assume_of _ _ _ _ (chk_words (hfS _) (hv10 ⟨0, by norm_num⟩ slices_S16_o0_S1 (by omega)) (hv12 ⟨0, by norm_num⟩ slices_S16_o0_S1 (by omega)))).symm)
  iapply (issue_one m d L fS _ (16 * k.val) (16 * k.val + 0) rfl (by omega) _ _ (k0_off5_eq k 0) _ _ _ _ rfl (hv10 ⟨0, by norm_num⟩ slices_S16_o0_S1 (by omega)) (hv12 ⟨0, by norm_num⟩ slices_S16_o0_S1 (by omega)) (hfS _) g0) $$ [Ht0 Hr0 HB]
  · isplitl [Ht0]; · iexact Ht0
    isplitl [Hr0]; · iexact Hr0
    iexact HB
  iintro HB
  iapply (Entails.of_eq (wp_assume_of _ _ _ _ (chk_words (hfS _) (hv10 ⟨1, by norm_num⟩ slices_S16_o1_S1 (by omega)) (hv12 ⟨1, by norm_num⟩ slices_S16_o1_S1 (by omega)))).symm)
  iapply (issue_one m d L fS _ ((16 * k.val + 0) + 1) (16 * k.val + 0 + 1) rfl (by omega) _ _ (k0_off7_eq k 0) _ _ _ _ rfl (hv10 ⟨1, by norm_num⟩ slices_S16_o1_S1 (by omega)) (hv12 ⟨1, by norm_num⟩ slices_S16_o1_S1 (by omega)) (hfS _) g1) $$ [Ht1 Hr1 HB]
  · isplitl [Ht1]; · iexact Ht1
    isplitl [Hr1]; · iexact Hr1
    iexact HB
  iintro HB
  iapply (Entails.of_eq (wp_assume_of _ _ _ _ (chk_words (hfS _) (hv10 ⟨2, by norm_num⟩ slices_S16_o2_S1 (by omega)) (hv12 ⟨2, by norm_num⟩ slices_S16_o2_S1 (by omega)))).symm)
  iapply Hk $$ %_ %⟨⟨hv10, hv12⟩, (hv10 ⟨2, by norm_num⟩ slices_S16_o2_S1 (by omega)), (hv12 ⟨2, by norm_num⟩ slices_S16_o2_S1 (by omega))⟩ [Hs HB]
  isplitl [Hs]; · iexact Hs
  iexact HB

set_option maxHeartbeats 400000 in
/-- Part 2 of a trip: the row copy of lane 2 started (its check passed before), lanes 3 and 4 checked and started, lane 5 checked. -/
theorem part2_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk6 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 2), by omega⟩))) (heB : eB = subW (fS (ix1 ⟨(16 * k.val + 0 + 2), by omega⟩)))
    (hwe : k0_chk3 eA eB) (hwa : k0_chk6 (extractAt ![0] (k0_pay16 v10) inpos_S1_p0) (extractAt ![0] (k0_pay17 v12) inpos_S1_p0)) :
    iprop(batch m d L fS (16 * k.val + 2) 0
        ∗ rowF d L ⟨16 * k.val + 2, by omega⟩ ∗ rowF d L ⟨16 * k.val + 3, by omega⟩ ∗ rowF d L ⟨16 * k.val + 4, by omega⟩
        ∗ tokF m d L q ⟨16 * k.val + 2, by omega⟩ ∗ tokF m d L q ⟨16 * k.val + 3, by omega⟩ ∗ tokF m d L q ⟨16 * k.val + 4, by omega⟩)
      ⊢ iprop((batch m d L fS (16 * k.val + 5) 0 -∗ wp frame (wpE (defs₀ (F := F)) 𝒱₀ (V d (cV L) (jV L)) none) Set.univ (kont ⟨(extractAt ![0] (k0_pay16 v10) inpos_S1_p0), (extractAt ![0] (k0_pay17 v12) inpos_S1_p0), hwa, Scalar.muli arg8 16#32, 5#32⟩) Q)
          -∗ wp frame (wpE (defs₀ (F := F)) 𝒱₀ (V d (cV L) (jV L)) none) Set.univ (k0_part2 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part2_eq_skeleton]
  unfold k0_part2_skel
  simp only [Prog.lift, Prog.bind_op, Prog.bind_ret, Prog.pure_eq_ret]
  iintro ⟨HB, ⟨%g2, Hr2⟩, ⟨%g3, Hr3⟩, ⟨%g4, Hr4⟩, Ht2, Ht3, Ht4⟩ Hk
  iapply (issue_one m d L fS _ (16 * k.val + 2) (16 * k.val + 0 + 2) rfl (by omega) _ _ (k0_off9_eq k 0) _ _ _ _ rfl heA heB (hfS _) g2) $$ [Ht2 Hr2 HB]
  · isplitl [Ht2]; · iexact Ht2
    isplitl [Hr2]; · iexact Hr2
    iexact HB
  iintro HB
  iapply (Entails.of_eq (wp_assume_of _ _ _ _ (chk_words (hfS _) (hv10 ⟨3, by norm_num⟩ slices_S16_o3_S1 (by omega)) (hv12 ⟨3, by norm_num⟩ slices_S16_o3_S1 (by omega)))).symm)
  iapply (issue_one m d L fS _ ((16 * k.val + 0 + 2) + 1) (16 * k.val + 0 + 3) rfl (by omega) _ _ (k0_off11_eq k 0) _ _ _ _ rfl (hv10 ⟨3, by norm_num⟩ slices_S16_o3_S1 (by omega)) (hv12 ⟨3, by norm_num⟩ slices_S16_o3_S1 (by omega)) (hfS _) g3) $$ [Ht3 Hr3 HB]
  · isplitl [Ht3]; · iexact Ht3
    isplitl [Hr3]; · iexact Hr3
    iexact HB
  iintro HB
  iapply (Entails.of_eq (wp_assume_of _ _ _ _ (chk_words (hfS _) (hv10 ⟨4, by norm_num⟩ slices_S16_o4_S1 (by omega)) (hv12 ⟨4, by norm_num⟩ slices_S16_o4_S1 (by omega)))).symm)
  iapply (issue_one m d L fS _ ((16 * k.val + 0 + 3) + 1) (16 * k.val + 0 + 4) rfl (by omega) _ _ (k0_off13_eq k 0) _ _ _ _ rfl (hv10 ⟨4, by norm_num⟩ slices_S16_o4_S1 (by omega)) (hv12 ⟨4, by norm_num⟩ slices_S16_o4_S1 (by omega)) (hfS _) g4) $$ [Ht4 Hr4 HB]
  · isplitl [Ht4]; · iexact Ht4
    isplitl [Hr4]; · iexact Hr4
    iexact HB
  iintro HB
  iapply (Entails.of_eq (wp_assume_of _ _ _ _ hwa).symm)
  iapply Hk
  iexact HB

set_option maxHeartbeats 400000 in
/-- Part 3 of a trip: the row copy of lane 5 started (its check passed before), lanes 6 and 7 checked and started, lane 8 checked. -/
theorem part3_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk9 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 5), by omega⟩))) (heB : eB = subW (fS (ix1 ⟨(16 * k.val + 0 + 5), by omega⟩)))
    (hwe : k0_chk6 eA eB) (hwa : k0_chk9 (extractAt ![0] (k0_pay22 v10) inpos_S1_p0) (extractAt ![0] (k0_pay23 v12) inpos_S1_p0)) :
    iprop(batch m d L fS (16 * k.val + 5) 0
        ∗ rowF d L ⟨16 * k.val + 5, by omega⟩ ∗ rowF d L ⟨16 * k.val + 6, by omega⟩ ∗ rowF d L ⟨16 * k.val + 7, by omega⟩
        ∗ tokF m d L q ⟨16 * k.val + 5, by omega⟩ ∗ tokF m d L q ⟨16 * k.val + 6, by omega⟩ ∗ tokF m d L q ⟨16 * k.val + 7, by omega⟩)
      ⊢ iprop((batch m d L fS (16 * k.val + 8) 0 -∗ wp frame (wpE (defs₀ (F := F)) 𝒱₀ (V d (cV L) (jV L)) none) Set.univ (kont ⟨(extractAt ![0] (k0_pay22 v10) inpos_S1_p0), (extractAt ![0] (k0_pay23 v12) inpos_S1_p0), hwa, Scalar.muli arg8 16#32, 8#32⟩) Q)
          -∗ wp frame (wpE (defs₀ (F := F)) 𝒱₀ (V d (cV L) (jV L)) none) Set.univ (k0_part3 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part3_eq_skeleton]
  unfold k0_part3_skel
  simp only [Prog.lift, Prog.bind_op, Prog.bind_ret, Prog.pure_eq_ret]
  iintro ⟨HB, ⟨%g5, Hr5⟩, ⟨%g6, Hr6⟩, ⟨%g7, Hr7⟩, Ht5, Ht6, Ht7⟩ Hk
  iapply (issue_one m d L fS _ (16 * k.val + 5) (16 * k.val + 0 + 5) rfl (by omega) _ _ (k0_off15_eq k 0) _ _ _ _ rfl heA heB (hfS _) g5) $$ [Ht5 Hr5 HB]
  · isplitl [Ht5]; · iexact Ht5
    isplitl [Hr5]; · iexact Hr5
    iexact HB
  iintro HB
  iapply (Entails.of_eq (wp_assume_of _ _ _ _ (chk_words (hfS _) (hv10 ⟨6, by norm_num⟩ slices_S16_o6_S1 (by omega)) (hv12 ⟨6, by norm_num⟩ slices_S16_o6_S1 (by omega)))).symm)
  iapply (issue_one m d L fS _ ((16 * k.val + 0 + 5) + 1) (16 * k.val + 0 + 6) rfl (by omega) _ _ (k0_off17_eq k 0) _ _ _ _ rfl (hv10 ⟨6, by norm_num⟩ slices_S16_o6_S1 (by omega)) (hv12 ⟨6, by norm_num⟩ slices_S16_o6_S1 (by omega)) (hfS _) g6) $$ [Ht6 Hr6 HB]
  · isplitl [Ht6]; · iexact Ht6
    isplitl [Hr6]; · iexact Hr6
    iexact HB
  iintro HB
  iapply (Entails.of_eq (wp_assume_of _ _ _ _ (chk_words (hfS _) (hv10 ⟨7, by norm_num⟩ slices_S16_o7_S1 (by omega)) (hv12 ⟨7, by norm_num⟩ slices_S16_o7_S1 (by omega)))).symm)
  iapply (issue_one m d L fS _ ((16 * k.val + 0 + 6) + 1) (16 * k.val + 0 + 7) rfl (by omega) _ _ (k0_off19_eq k 0) _ _ _ _ rfl (hv10 ⟨7, by norm_num⟩ slices_S16_o7_S1 (by omega)) (hv12 ⟨7, by norm_num⟩ slices_S16_o7_S1 (by omega)) (hfS _) g7) $$ [Ht7 Hr7 HB]
  · isplitl [Ht7]; · iexact Ht7
    isplitl [Hr7]; · iexact Hr7
    iexact HB
  iintro HB
  iapply (Entails.of_eq (wp_assume_of _ _ _ _ hwa).symm)
  iapply Hk
  iexact HB

set_option maxHeartbeats 400000 in
/-- Part 4 of a trip: the row copy of lane 8 started (its check passed before), lanes 9 and 10 checked and started, lane 11 checked. -/
theorem part4_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk12 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 8), by omega⟩))) (heB : eB = subW (fS (ix1 ⟨(16 * k.val + 0 + 8), by omega⟩)))
    (hwe : k0_chk9 eA eB) (hwa : k0_chk12 (extractAt ![0] (k0_pay28 v10) inpos_S1_p0) (extractAt ![0] (k0_pay29 v12) inpos_S1_p0)) :
    iprop(batch m d L fS (16 * k.val + 8) 0
        ∗ rowF d L ⟨16 * k.val + 8, by omega⟩ ∗ rowF d L ⟨16 * k.val + 9, by omega⟩ ∗ rowF d L ⟨16 * k.val + 10, by omega⟩
        ∗ tokF m d L q ⟨16 * k.val + 8, by omega⟩ ∗ tokF m d L q ⟨16 * k.val + 9, by omega⟩ ∗ tokF m d L q ⟨16 * k.val + 10, by omega⟩)
      ⊢ iprop((batch m d L fS (16 * k.val + 11) 0 -∗ wp frame (wpE (defs₀ (F := F)) 𝒱₀ (V d (cV L) (jV L)) none) Set.univ (kont ⟨(extractAt ![0] (k0_pay28 v10) inpos_S1_p0), (extractAt ![0] (k0_pay29 v12) inpos_S1_p0), hwa, Scalar.muli arg8 16#32, 11#32⟩) Q)
          -∗ wp frame (wpE (defs₀ (F := F)) 𝒱₀ (V d (cV L) (jV L)) none) Set.univ (k0_part4 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part4_eq_skeleton]
  unfold k0_part4_skel
  simp only [Prog.lift, Prog.bind_op, Prog.bind_ret, Prog.pure_eq_ret]
  iintro ⟨HB, ⟨%g8, Hr8⟩, ⟨%g9, Hr9⟩, ⟨%g10, Hr10⟩, Ht8, Ht9, Ht10⟩ Hk
  iapply (issue_one m d L fS _ (16 * k.val + 8) (16 * k.val + 0 + 8) rfl (by omega) _ _ (k0_off21_eq k 0) _ _ _ _ rfl heA heB (hfS _) g8) $$ [Ht8 Hr8 HB]
  · isplitl [Ht8]; · iexact Ht8
    isplitl [Hr8]; · iexact Hr8
    iexact HB
  iintro HB
  iapply (Entails.of_eq (wp_assume_of _ _ _ _ (chk_words (hfS _) (hv10 ⟨9, by norm_num⟩ slices_S16_o9_S1 (by omega)) (hv12 ⟨9, by norm_num⟩ slices_S16_o9_S1 (by omega)))).symm)
  iapply (issue_one m d L fS _ ((16 * k.val + 0 + 8) + 1) (16 * k.val + 0 + 9) rfl (by omega) _ _ (k0_off23_eq k 0) _ _ _ _ rfl (hv10 ⟨9, by norm_num⟩ slices_S16_o9_S1 (by omega)) (hv12 ⟨9, by norm_num⟩ slices_S16_o9_S1 (by omega)) (hfS _) g9) $$ [Ht9 Hr9 HB]
  · isplitl [Ht9]; · iexact Ht9
    isplitl [Hr9]; · iexact Hr9
    iexact HB
  iintro HB
  iapply (Entails.of_eq (wp_assume_of _ _ _ _ (chk_words (hfS _) (hv10 ⟨10, by norm_num⟩ slices_S16_o10_S1 (by omega)) (hv12 ⟨10, by norm_num⟩ slices_S16_o10_S1 (by omega)))).symm)
  iapply (issue_one m d L fS _ ((16 * k.val + 0 + 9) + 1) (16 * k.val + 0 + 10) rfl (by omega) _ _ (k0_off25_eq k 0) _ _ _ _ rfl (hv10 ⟨10, by norm_num⟩ slices_S16_o10_S1 (by omega)) (hv12 ⟨10, by norm_num⟩ slices_S16_o10_S1 (by omega)) (hfS _) g10) $$ [Ht10 Hr10 HB]
  · isplitl [Ht10]; · iexact Ht10
    isplitl [Hr10]; · iexact Hr10
    iexact HB
  iintro HB
  iapply (Entails.of_eq (wp_assume_of _ _ _ _ hwa).symm)
  iapply Hk
  iexact HB

set_option maxHeartbeats 400000 in
/-- Part 5 of a trip: the row copy of lane 11 started (its check passed before), lanes 12 and 13 checked and started, lane 14 checked. -/
theorem part5_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk15 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 11), by omega⟩))) (heB : eB = subW (fS (ix1 ⟨(16 * k.val + 0 + 11), by omega⟩)))
    (hwe : k0_chk12 eA eB) (hwa : k0_chk15 (extractAt ![0] (k0_pay34 v10) inpos_S1_p0) (extractAt ![0] (k0_pay35 v12) inpos_S1_p0)) :
    iprop(batch m d L fS (16 * k.val + 11) 0
        ∗ rowF d L ⟨16 * k.val + 11, by omega⟩ ∗ rowF d L ⟨16 * k.val + 12, by omega⟩ ∗ rowF d L ⟨16 * k.val + 13, by omega⟩
        ∗ tokF m d L q ⟨16 * k.val + 11, by omega⟩ ∗ tokF m d L q ⟨16 * k.val + 12, by omega⟩ ∗ tokF m d L q ⟨16 * k.val + 13, by omega⟩)
      ⊢ iprop((batch m d L fS (16 * k.val + 14) 0 -∗ wp frame (wpE (defs₀ (F := F)) 𝒱₀ (V d (cV L) (jV L)) none) Set.univ (kont ⟨(extractAt ![0] (k0_pay34 v10) inpos_S1_p0), (extractAt ![0] (k0_pay35 v12) inpos_S1_p0), hwa, Scalar.muli arg8 16#32, 14#32⟩) Q)
          -∗ wp frame (wpE (defs₀ (F := F)) 𝒱₀ (V d (cV L) (jV L)) none) Set.univ (k0_part5 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part5_eq_skeleton]
  unfold k0_part5_skel
  simp only [Prog.lift, Prog.bind_op, Prog.bind_ret, Prog.pure_eq_ret]
  iintro ⟨HB, ⟨%g11, Hr11⟩, ⟨%g12, Hr12⟩, ⟨%g13, Hr13⟩, Ht11, Ht12, Ht13⟩ Hk
  iapply (issue_one m d L fS _ (16 * k.val + 11) (16 * k.val + 0 + 11) rfl (by omega) _ _ (k0_off27_eq k 0) _ _ _ _ rfl heA heB (hfS _) g11) $$ [Ht11 Hr11 HB]
  · isplitl [Ht11]; · iexact Ht11
    isplitl [Hr11]; · iexact Hr11
    iexact HB
  iintro HB
  iapply (Entails.of_eq (wp_assume_of _ _ _ _ (chk_words (hfS _) (hv10 ⟨12, by norm_num⟩ slices_S16_o12_S1 (by omega)) (hv12 ⟨12, by norm_num⟩ slices_S16_o12_S1 (by omega)))).symm)
  iapply (issue_one m d L fS _ ((16 * k.val + 0 + 11) + 1) (16 * k.val + 0 + 12) rfl (by omega) _ _ (k0_off29_eq k 0) _ _ _ _ rfl (hv10 ⟨12, by norm_num⟩ slices_S16_o12_S1 (by omega)) (hv12 ⟨12, by norm_num⟩ slices_S16_o12_S1 (by omega)) (hfS _) g12) $$ [Ht12 Hr12 HB]
  · isplitl [Ht12]; · iexact Ht12
    isplitl [Hr12]; · iexact Hr12
    iexact HB
  iintro HB
  iapply (Entails.of_eq (wp_assume_of _ _ _ _ (chk_words (hfS _) (hv10 ⟨13, by norm_num⟩ slices_S16_o13_S1 (by omega)) (hv12 ⟨13, by norm_num⟩ slices_S16_o13_S1 (by omega)))).symm)
  iapply (issue_one m d L fS _ ((16 * k.val + 0 + 12) + 1) (16 * k.val + 0 + 13) rfl (by omega) _ _ (k0_off31_eq k 0) _ _ _ _ rfl (hv10 ⟨13, by norm_num⟩ slices_S16_o13_S1 (by omega)) (hv12 ⟨13, by norm_num⟩ slices_S16_o13_S1 (by omega)) (hfS _) g13) $$ [Ht13 Hr13 HB]
  · isplitl [Ht13]; · iexact Ht13
    isplitl [Hr13]; · iexact Hr13
    iexact HB
  iintro HB
  iapply (Entails.of_eq (wp_assume_of _ _ _ _ hwa).symm)
  iapply Hk
  iexact HB

set_option maxHeartbeats 800000 in
/-- ONE TRIP at a symbolic `k`: the chunk loaded, and per lane the check passed and the row copy started. -/
theorem issue_step (fS : S512.Idx → BitVec 32) (hfS : ∀ t : Fin 512, (fS (ix1 t)).toNat ≤ 999999) (q : PosShare TreeShare)
    (k : Fin k0_t1_loop.trips) (acc : Unit) :
    issueInv m d L fS q k acc ⊢ wp frame (wpE (defs₀ (F := F)) 𝒱₀ (V d (cV L) (jV L)) none) Set.univ
      (k0_t1_body L iW (Memref.isWhole_whole _) tW (Memref.isWhole_whole _) oW (Memref.isWhole_whole _)
        sI (Memref.isWhole_whole _) sR (Memref.isWhole_whole _) cc0_scratch2 cc0_scoped0 cc0_scoped1 k acc)
      (issueInv m d L fS q (k.val + 1)) := by
  have hk : k.val < 32 := lt_of_lt_of_le k.isLt trips1_le
  unfold issueInv
  rw [take16 (rowF d L) (16 * k.val) (by omega), take16 (tokF m d L q) (16 * k.val) (by omega),
    show 16 * (k.val + 1) = 16 * k.val + 16 by omega]
  unfold k0_t1_body
  simp only [Prog.lift, Prog.bind_op, Prog.bind_ret, Prog.pure_eq_ret]
  iintro ⟨Hs, HB, ⟨Hr0, Hr1, Hr2, Hr3, Hr4, Hr5, Hr6, Hr7, Hr8, Hr9, Hr10, Hr11, Hr12, Hr13, Hr14, Hr15, Hrs⟩, ⟨Ht0, Ht1, Ht2, Ht3, Ht4, Ht5, Ht6, Ht7, Ht8, Ht9, Ht10, Ht11, Ht12, Ht13, Ht14, Ht15, Hts⟩⟩
  -- part 1: the chunk's load, lanes 0 and 1, lane 2's check
  iapply (part1_step m d L fS hfS q k hk _ _) $$ [Hs HB Hr0 Hr1 Ht0 Ht1]
  · isplitl [Hs]; · iexact Hs
    isplitl [HB]; · iexact HB
    isplitl [Hr0]; · iexact Hr0
    isplitl [Hr1]; · iexact Hr1
    isplitl [Ht0]; · iexact Ht0
    iexact Ht1
  iintro %t %ht ⟨Hs, HB⟩
  obtain ⟨arg8, v10, v12, aA, aB, hw2, vMul, cc⟩ := t
  obtain ⟨⟨h10, h12⟩, hA2, hB2⟩ := ht
  -- part 2: lane 2's copy, lanes 3 and 4, lane 5's check
  have hw5 : k0_chk6 (extractAt ![0] (k0_pay16 v10) inpos_S1_p0) (extractAt ![0] (k0_pay17 v12) inpos_S1_p0) :=
    chk_words (hfS _) (h10 ⟨5, by norm_num⟩ slices_S16_o5_S1 (by omega)) (h12 ⟨5, by norm_num⟩ slices_S16_o5_S1 (by omega))
  iapply (part2_step m d L fS hfS q k hk _ _ _ _ _ v10 v12 h10 h12 _ _ hA2 hB2 hw2 hw5) $$ [HB Hr2 Hr3 Hr4 Ht2 Ht3 Ht4]
  · isplitl [HB]; · iexact HB
    isplitl [Hr2]; · iexact Hr2
    isplitl [Hr3]; · iexact Hr3
    isplitl [Hr4]; · iexact Hr4
    isplitl [Ht2]; · iexact Ht2
    isplitl [Ht3]; · iexact Ht3
    iexact Ht4
  iintro HB
  -- part 3: lane 5's copy, lanes 6 and 7, lane 8's check
  have hw8 : k0_chk9 (extractAt ![0] (k0_pay22 v10) inpos_S1_p0) (extractAt ![0] (k0_pay23 v12) inpos_S1_p0) :=
    chk_words (hfS _) (h10 ⟨8, by norm_num⟩ slices_S16_o8_S1 (by omega)) (h12 ⟨8, by norm_num⟩ slices_S16_o8_S1 (by omega))
  iapply (part3_step m d L fS hfS q k hk _ _ _ _ _ v10 v12 h10 h12 _ _ (h10 ⟨5, by norm_num⟩ slices_S16_o5_S1 (by omega)) (h12 ⟨5, by norm_num⟩ slices_S16_o5_S1 (by omega)) hw5 hw8) $$ [HB Hr5 Hr6 Hr7 Ht5 Ht6 Ht7]
  · isplitl [HB]; · iexact HB
    isplitl [Hr5]; · iexact Hr5
    isplitl [Hr6]; · iexact Hr6
    isplitl [Hr7]; · iexact Hr7
    isplitl [Ht5]; · iexact Ht5
    isplitl [Ht6]; · iexact Ht6
    iexact Ht7
  iintro HB
  -- part 4: lane 8's copy, lanes 9 and 10, lane 11's check
  have hw11 : k0_chk12 (extractAt ![0] (k0_pay28 v10) inpos_S1_p0) (extractAt ![0] (k0_pay29 v12) inpos_S1_p0) :=
    chk_words (hfS _) (h10 ⟨11, by norm_num⟩ slices_S16_o11_S1 (by omega)) (h12 ⟨11, by norm_num⟩ slices_S16_o11_S1 (by omega))
  iapply (part4_step m d L fS hfS q k hk _ _ _ _ _ v10 v12 h10 h12 _ _ (h10 ⟨8, by norm_num⟩ slices_S16_o8_S1 (by omega)) (h12 ⟨8, by norm_num⟩ slices_S16_o8_S1 (by omega)) hw8 hw11) $$ [HB Hr8 Hr9 Hr10 Ht8 Ht9 Ht10]
  · isplitl [HB]; · iexact HB
    isplitl [Hr8]; · iexact Hr8
    isplitl [Hr9]; · iexact Hr9
    isplitl [Hr10]; · iexact Hr10
    isplitl [Ht8]; · iexact Ht8
    isplitl [Ht9]; · iexact Ht9
    iexact Ht10
  iintro HB
  -- part 5: lane 11's copy, lanes 12 and 13, lane 14's check
  have hw14 : k0_chk15 (extractAt ![0] (k0_pay34 v10) inpos_S1_p0) (extractAt ![0] (k0_pay35 v12) inpos_S1_p0) :=
    chk_words (hfS _) (h10 ⟨14, by norm_num⟩ slices_S16_o14_S1 (by omega)) (h12 ⟨14, by norm_num⟩ slices_S16_o14_S1 (by omega))
  iapply (part5_step m d L fS hfS q k hk _ _ _ _ _ v10 v12 h10 h12 _ _ (h10 ⟨11, by norm_num⟩ slices_S16_o11_S1 (by omega)) (h12 ⟨11, by norm_num⟩ slices_S16_o11_S1 (by omega)) hw11 hw14) $$ [HB Hr11 Hr12 Hr13 Ht11 Ht12 Ht13]
  · isplitl [HB]; · iexact HB
    isplitl [Hr11]; · iexact Hr11
    isplitl [Hr12]; · iexact Hr12
    isplitl [Hr13]; · iexact Hr13
    isplitl [Ht11]; · iexact Ht11
    isplitl [Ht12]; · iexact Ht12
    iexact Ht13
  iintro HB
  -- the tail: lane 14's copy, lane 15
  icases Hr14 with ⟨%g14, Hr14⟩
  icases Hr15 with ⟨%g15, Hr15⟩
  iapply (issue_one m d L fS _ (16 * k.val + 14) (16 * k.val + 0 + 14) rfl (by omega) _ _ (k0_off33_eq k 0) _ _ _ _ rfl (h10 ⟨14, by norm_num⟩ slices_S16_o14_S1 (by omega)) (h12 ⟨14, by norm_num⟩ slices_S16_o14_S1 (by omega)) (hfS _) g14) $$ [Ht14 Hr14 HB]
  · isplitl [Ht14]; · iexact Ht14
    isplitl [Hr14]; · iexact Hr14
    iexact HB
  iintro HB
  iapply (Entails.of_eq (wp_assume_of _ _ _ _ (chk_words (hfS _) (h10 ⟨15, by norm_num⟩ slices_S16_o15_S1 (by omega)) (h12 ⟨15, by norm_num⟩ slices_S16_o15_S1 (by omega)))).symm)
  iapply (issue_one m d L fS _ ((16 * k.val + 0 + 14) + 1) (16 * k.val + 15) rfl (by omega) _ _ (k0_off35_eq k) _ _ _ _ rfl (h10 ⟨15, by norm_num⟩ slices_S16_o15_S1 (by omega)) (h12 ⟨15, by norm_num⟩ slices_S16_o15_S1 (by omega)) (hfS _) g15) $$ [Ht15 Hr15 HB]
  · isplitl [Ht15]; · iexact Ht15
    isplitl [Hr15]; · iexact Hr15
    iexact HB
  iintro HB
  sl_step
  isplitl [Hs]; · iexact Hs
  isplitl [HB]; · iexact HB
  isplitl [Hrs]; · iexact Hrs
  iexact Hts

end Tile

end Cert.Proof.KI

end
-- ==== Proof.TileTopKI.lean ====
/-
  A vector subcore's whole task, and the launch theorem's obligation for it.

  The task: fetch the subcore's 512 entries of the index list into the index scratch (one copy, waited for); start 512
  row copies on one semaphore, copy `t` out of the slice of the reshaped table the two words of entry `t` address into
  row `t` of the row scratch; wait 512 times for one row's worth each; write the row scratch out to the subcore's 512
  rows of the result (one copy, waited for).

  The 512 row copies are a batch on one cell: the deliveries are fixed when the batch is allocated (row `t` at the
  landed contents), each issue spends one read token of the reshaped table and one row of the scratch, the first 511
  waits hand nothing back and the last hands back the cell at zero and every delivery; the rows, pairwise disjoint and
  covering the scratch, join to the scratch whole at the landed contents, and writing those over the subcore's rows of
  the result leaves there the table's rows the entries name.  Every wait is recorded at index `none`.
-/
import proofs.«201881_g28561532518853_retrytranche2_526_24_alg».proof.Proof.TileKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iW" => (Memref.whole Cert.KernelIdeal.main_arg0_scv : Memref Cert.KernelIdeal.sig Kind.scVector Space.hbm Cert.KernelIdeal.S16384 EltTy.i32)
local notation "tW" => (Memref.whole Cert.KernelIdeal.main_v0_scv : Memref Cert.KernelIdeal.sig Kind.scVector Space.hbm Cert.KernelIdeal.S125000x8x64 EltTy.f32)
local notation "oW" => (Memref.whole Cert.KernelIdeal.main_v1_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

variable [FloatOps F]

section Tile

variable (d : Dev nD) (L : grid0.Coords)

omit [FloatOps F] in
/-- The row scratch whole is its 512 rows. -/
theorem rows_split (f : S512x64.Idx → F .f32) :
    ((V d (cV L) (jV L)).loc cc0_scratch1 ↦{fullShare} f : sProp 𝕄)
      = bigSep Finset.univ fun t : Fin 512 => ((V d (cV L) (jV L)).loc cc0_scratch1 ↦[rowSet t]{fullShare} f : sProp 𝕄) := by
  rw [← pointsTo_biUnion Finset.univ (ℓ := (V d (cV L) (jV L)).loc cc0_scratch1) rowSet rowSet_disjoint, rowSet_cover]; try rfl

omit [FloatOps F] in
/-- Held whole, the row scratch is held row by row, each row at some contents. -/
theorem rows_take (f : S512x64.Idx → F .f32) :
    ((V d (cV L) (jV L)).loc cc0_scratch1 ↦{fullShare} f : sProp 𝕄) ⊢ bigSep (Ring.rangeSet 512 0 512) (rowF (F := F) d L) := by
  have h : ∀ t : Fin 512, ((V d (cV L) (jV L)).loc cc0_scratch1 ↦[rowSet t]{fullShare} f : sProp 𝕄) ⊢ rowF (F := F) d L t := by
    intro t
    iintro H
    iexists f
    iexact H
  rw [rows_split, Ring.rangeSet_univ]
  exact bigSep_mono fun t _ => h t

omit [FloatOps F] in
/-- One row copy's credit is positive. -/
theorem NR_pos : 0 < NR := View.dmaCredit_pos _ (by decide)

omit [FloatOps F] in
theorem trips1_eq : k0_t1_loop.trips = 32 := by decide
omit [FloatOps F] in
theorem trips2_eq : k0_t2_loop.trips = 512 := by decide

/-- The write-out as the run states it — one write through the whole slice — leaves on the subcore's rows of the
    result what the result holds at the end: at the element under `x` of the slice both this write and the plain one put
    the row scratch's element `x`. -/
theorem out_value' (hpre : PreOK m) (fo : S16384x64.Idx → F .f32) (W2 : S512x64.Idx → F .f32)
    (hW2 : ∀ x, W2 x = landed (fetched m d L) (tbl3 m d) x) :
    ∀ y ∈ (oSl L).view.set, (oSl L).view.writes (Elt F) fo [⟨Rect.whole S512x64, W2⟩] y = gath m d y := by
  intro y hy
  obtain ⟨x, -, hx⟩ := Finset.mem_map.1 hy
  have hR : (Rect.whole S512x64).emb x = x := by
    funext a
    refine Fin.ext ?_
    show 0 + 1 * (x a).val = (x a).val
    omega
  have hx' : ((oSl L).view.slice (Rect.whole S512x64)).emb x = y := (congrArg (oSl L).view.emb hR).trans hx
  have h1 : (oSl L).view.writes (Elt F) fo [⟨Rect.whole S512x64, W2⟩] y = W2 x := by
    rw [← hx']
    exact View.write_emb_of_mem (v := (oSl L).view.slice (Rect.whole S512x64)) (Val := Elt F) fo W2 (Finset.mem_univ x)
  have h2 := out_value m hpre d L fo y hy
  have h3 : (oSl L).view.write (Elt F) fo ((Memref.whole cc0_scratch1 : Memref sig .scVector .vmem S512x64 .f32).view.read (Elt F)
      (landed (fetched m d L) (tbl3 m d))) Finset.univ y = landed (fetched m d L) (tbl3 m d) x := by
    rw [← hx]
    exact View.write_emb_of_mem (v := (oSl L).view) (Val := Elt F) fo _ (Finset.mem_univ x)
  exact h1.trans ((hW2 x).trans (h3.symm.trans h2))

/-- Before trip `k` of the drain loop: `k ≤ 512`; the waits so far recorded, all at index `none`; the evidence for the
    waits; and either (`k < 512`) the batch with `k` copies' units consumed, or (after the last wait) the batch's cell
    back at zero and every row's delivery. -/
def drainInv (O : CellTallies nD τ sig (HIx 1)) (W : Waits sig (HIx 1)) (fS : S512.Idx → BitVec 32) (k : ℕ) (_ : Unit) : sProp 𝕄 :=
  iprop(⌜k ≤ 512⌝ ∗ (∃ W', ⌜∀ p ∈ W', p ∈ W ∨ p.2 = none⌝ ∗ owes (V d (cV L) (jV L)) O W')
    ∗ Transfers.MayWaits (V d (cV L) (jV L)) (none : HIx 1) O
    ∗ (if k < 512 then batch m d L fS 512 (k * NR)
       else iprop(semVal (cBatch d (cV L) (jV L)) 0 ∗ bigSep Finset.univ (Dl m d L fS))))

set_option maxHeartbeats 1000000 in
/-- ONE TRIP at a symbolic `k`, by cases: `k + 1 < 512` — a wait short of the last, which hands nothing back —, or
    `k + 1 = 512` — the last, which hands back the cell at zero and every delivery. -/
theorem drain_step (O : CellTallies nD τ sig (HIx 1)) (W : Waits sig (HIx 1)) (fS : S512.Idx → BitVec 32)
    (k : Fin k0_t2_loop.trips) (acc : Unit) :
    drainInv m d L O W fS k acc ⊢ wp frame (wpE (defs₀ (F := F)) 𝒱₀ (V d (cV L) (jV L)) none) Set.univ
      (k0_t2_body L iW (Memref.isWhole_whole _) tW (Memref.isWhole_whole _) oW (Memref.isWhole_whole _)
        sI (Memref.isWhole_whole _) sR (Memref.isWhole_whole _) cc0_scratch2 cc0_scoped0 cc0_scoped1 k acc)
      (drainInv m d L O W fS (k.val + 1)) := by
  have hk : k.val < 512 := lt_of_lt_of_eq k.isLt trips2_eq
  have hpos : 0 < NR := NR_pos
  unfold drainInv
  simp only [if_pos hk]
  unfold k0_t2_body
  rcases Nat.lt_or_ge (k.val + 1) 512 with h1 | h1
  · simp only [if_pos h1]
    have hu : k.val * NR + NR < NR * 512 := by nlinarith
    iintro ⟨-, ⟨%W', %hW', HO⟩, #Hmw, HB⟩
    sl_exec
    sl_step
    isplitr; · ipureintro; omega
    isplitl [HO]
    · iexists (insert (SemLoc.dma cc0_scratch2.sem, (none : HIx 1)) W'); isplitr
      · ipureintro; intro p hp
        rcases Finset.mem_insert.mp hp with rfl | hp
        · exact .inr rfl
        · exact hW' p hp
      iexact HO
    isplitr; · iexact Hmw
    rw [show (k.val + 1) * NR = k.val * NR + NR from Nat.succ_mul _ _]
    iexact HB
  · simp only [if_neg (Nat.not_lt.mpr h1)]
    have hu : k.val * NR + NR = NR * 512 := by
      have : k.val + 1 = 512 := by omega
      nlinarith
    iintro ⟨-, ⟨%W', %hW', HO⟩, #Hmw, HB⟩
    sl_exec
    sl_step
    isplitr; · ipureintro; omega
    isplitl [HO]
    · iexists (insert (SemLoc.dma cc0_scratch2.sem, (none : HIx 1)) W'); isplitr
      · ipureintro; intro p hp
        rcases Finset.mem_insert.mp hp with rfl | hp
        · exact .inr rfl
        · exact hW' p hp
      iexact HO
    isplitr; · iexact Hmw
    isplitl [HB]; · iexact HB
    iexact HB_all
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (msgPts m d L ∗ outPts d L (m (oLoc d)) ∗ tblPts m d q)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iW (Memref.isWhole_whole _) tW (Memref.isWhole_whole _) oW (Memref.isWhole_whole _)
            sI (Memref.isWhole_whole _) sR (Memref.isWhole_whole _) cc0_scratch2 cc0_scoped0 cc0_scoped1)
          fun _ => iprop((msgPts m d L ∗ outPts d L (gath m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ho, Ht⟩, ⟨⟨%fs, Hs⟩, ⟨%fr, Hr⟩, Hbufs⟩, ⟨HsemB, HsemI, HsemO, Hsems⟩, HO⟩
  ihave Hmw := ((K (F := F)).mayWaits_none (thr := V d (cV L) (jV L)) hO) $$ Hlv
  ihave Hi' := (show msgPts m d L ⊢ ((iSl L).view.loc (V d (cV L) (jV L)) ↦[(iSl L).view.set]{fullShare} m (iLoc d) : sProp 𝕄) from .rfl) $$ Hi
  ihave Hs' := (show ((V d (cV L) (jV L)).loc cc0_scratch0 ↦{fullShare} fs : sProp 𝕄) ⊢ ((sI).view.loc (V d (cV L) (jV L)) ↦{fullShare} fs : sProp 𝕄) from .rfl) $$ Hs
  sl_exec
  -- the index scratch holds the fetched entries
  have hfetch : View.write (Elt F) (sI).view fs (tile_body.sl.dma0 m d L) Finset.univ = fetched m d L := by
    rw [View.write_whole_univ]; rfl
  ihave Hs := (Entails.of_eq (congrArg (fun f => ((sI).view.loc (V d (cV L) (jV L)) ↦{fullShare} f : sProp 𝕄)) hfetch)) $$ Hs'
  -- the batch of the 512 row copies, allocated on its cell at zero
  imod (Transfers.batch_alloc' (EC (F := F)) (V d (cV L) (jV L)) (none : HIx 1) NR (Dl m d L (fetched m d L))
    (sm := .dma cc0_scratch2.sem) (E := Set.univ)) $$ HsemB with HB
  -- the read share of the reshaped table as 512 tokens (the remainder dropped)
  ihave Ht' := (show tblPts m d q ⊢ ((tW).view.loc (V d (cV L) (jV L)) ↦{q} tbl3 m d : sProp 𝕄) from .rfl) $$ Ht
  ihave Ht'' := (Transfers.pointsTo_toks_range q 512).1 $$ Ht'
  icases Ht'' with ⟨-, Htk⟩
  ihave Htoks := (Entails.of_eq (Ring.bigSep_rangeSet_eq_range (NB := 512) (lo := 0) (hi := 512)
    (Φ := tokF m d L q) le_rfl (fun i => ((tW).view.loc (V d (cV L) (jV L)) ↦{Transfers.shareTokN q i} tbl3 m d : sProp 𝕄))
    (fun k hk => by show _ = tokF m d L q ⟨0 + k, hk⟩; simp only [Nat.zero_add])).symm) $$ Htk
  -- the row scratch as its 512 rows
  ihave Hrows := (rows_take (F := F) d L fr) $$ Hr
  -- the issue loop
  sl_for (issueInv m d L (fetched m d L) q) $$ [Hs HB Hrows Htoks]
  · intro k acc; exact issue_step m d L _ (fetched_le m hpre d L) q k acc
  · unfold issueInv
    isplitl [Hs]; · iexact Hs
    isplitl [HB]; · iexact HB
    isplitl [Hrows]; · iexact Hrows
    iexact Htoks
  iintro %acc HI
  -- every row copy started: the batch at 512 issued, the index scratch back
  ihave HI' := (show issueInv m d L (fetched m d L) q (Scf.trips k0_t1_loop.lb k0_t1_loop.ub k0_t1_loop.st) acc
      ⊢ iprop(((sI).view.loc (V d (cV L) (jV L)) ↦{fullShare} fetched m d L) ∗ batch m d L (fetched m d L) 512 0) from by
    rw [show Scf.trips k0_t1_loop.lb k0_t1_loop.ub k0_t1_loop.st = 32 from trips1_eq]
    unfold issueInv
    iintro ⟨Hs, HB, -, -⟩
    isplitl [Hs]; · iexact Hs
    iexact HB) $$ HI
  icases HI' with ⟨Hs, HB⟩
  -- the drain loop
  sl_for (drainInv m d L O W (fetched m d L)) $$ [HB HO Hmw]
  · intro k acc; exact drain_step m d L O W _ k acc
  · unfold drainInv
    rw [if_pos (by norm_num : (0 : ℕ) < 512)]
    isplitr; · ipureintro; omega
    isplitl [HO]
    · iexists (insert (SemLoc.dma cc0_scoped0.sem, (none : HIx 1)) W); isplitr
      · ipureintro; intro p hp
        rcases Finset.mem_insert.mp hp with rfl | hp
        · exact .inr rfl
        · exact .inl hp
      iexact HO
    isplitr; · iexact Hmw
    rw [Nat.zero_mul]
    iexact HB
  iintro %acc2 HD
  ihave HD' := (show drainInv m d L O W (fetched m d L) (Scf.trips k0_t2_loop.lb k0_t2_loop.ub k0_t2_loop.st) acc2
      ⊢ iprop((∃ W', ⌜∀ p ∈ W', p ∈ W ∨ p.2 = none⌝ ∗ owes (V d (cV L) (jV L)) O W')
          ∗ semVal (cBatch d (cV L) (jV L)) 0 ∗ bigSep Finset.univ (Dl m d L (fetched m d L))) from by
    rw [show Scf.trips k0_t2_loop.lb k0_t2_loop.ub k0_t2_loop.st = 512 from trips2_eq]
    unfold drainInv
    rw [if_neg (Nat.lt_irrefl _)]
    iintro ⟨-, HO, -, Hc, Hall⟩
    isplitl [HO]; · iexact HO
    isplitl [Hc] <;> iassumption) $$ HD
  icases HD' with ⟨⟨%W1, %hW1, HO⟩, HsemB, Hall⟩
  -- every row landed: the row scratch whole at the landed contents
  ihave Hr := (show bigSep Finset.univ (Dl m d L (fetched m d L))
      ⊢ ((sR).view.loc (V d (cV L) (jV L)) ↦{fullShare} landed (fetched m d L) (tbl3 m d) : sProp 𝕄) from
    Entails.of_eq (rows_split (F := F) d L _).symm) $$ Hall
  ihave Ho' := (show outPts d L (m (oLoc d))
      ⊢ ((oSl L).view.loc (V d (cV L) (jV L)) ↦[(oSl L).view.set]{fullShare} m (oLoc d) : sProp 𝕄) from .rfl) $$ Ho
  -- the write-out and its wait
  sl_exec
  sl_step
  -- the entries back, the rows at the gathered contents
  isplitl [Hi' Ho']
  · isplitl [Hi']
    · iexact Hi'
    · iapply (Entails.of_eq (pointsTo_congr (out_value' m d L hpre _ _ (fun _ => rfl))))
      iexact Ho'
  -- the scoped storage back: the two scratches at some contents, the three cells at zero
  isplitl [Hs Hr Hbufs]
  · isplitl [Hs]; · iexists _; iexact Hs
    isplitl [Hr]; · iexists _; iexact Hr
    iexact Hbufs
  isplitl [HsemB HsemI HsemO Hsems]
  · isplitl [HsemB]; · iexact HsemB
    isplitl [HsemI]; · iexact HsemI
    isplitl [HsemO]; · iexact HsemO
    iexact Hsems
  -- the three kinds of wait recorded, all at index `none`
  iexists (insert (SemLoc.dma cc0_scoped1.sem, (none : HIx 1)) W1); isplitr
  · ipureintro; intro p hp
    rcases Finset.mem_insert.mp hp with rfl | hp
    · exact .inr rfl
    · exact hW1 p hp
  iexact HO

end Tile

/-! ## The launch theorem's tile obligation -/

theorem defs₀_vector (c : Fin τ.nSC) (s : Fin τ.nSub) :
    defs₀ (F := F) (.scVector c s) 0 ()
      = SparseCore.onTile hcore0 hsub0 (fun c s => cc0_gather_kernel (coordsV c s)
          iW (Memref.isWhole_whole _) tW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A vector subcore's task: from its entries of the index list, its rows of the result and its read share of the
    reshaped table, to the entries back and the rows at the gathered contents. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre
    (tileShare (Fin.cast nCore_zero c) (Fin.cast nSub_zero i)) O W hO).trans (wp_mono frame _ _ fun _ => obl_post)

end Cert.Proof.KI

end
-- ==== Proof.SetupKB.lean ====
/-
  The gather kernel's programs as the SparseCore launch theorem sees them, and what its handshakes carry.

  The device's 32 vector subcores each fetch 512 consecutive entries of the index list (subcore `s` of core `c` the
  entries from `1024 s + 512 c` on), start one row copy per entry out of the table (reshaped on the TensorCore to
  `[125000, 8, 64]`: row `r` of the table is rows `(r / 8, r % 8)` of the reshaped array) into 512 rows of a scratch
  of their own, all on one DMA semaphore, wait 512 times for one row's worth each, and write the scratch out to the
  512 rows of the result that carry their entries' numbers.  The launch hands every subcore its 512 entries of the
  index list, a read share of the whole reshaped table, and its 512 rows of the result; it gets back the entries and
  the rows, the latter holding the table's rows the entries name.
-/
import proofs.«201881_g28561532518853_retrytranche2_526_24_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«201881_g28561532518853_retrytranche2_526_24_alg».proof.Proof.Gen.Kernel
import proofs.«201881_g28561532518853_retrytranche2_526_24_alg».proof.Proof.Gen.Kernel.Skeleton
import proofs.«201881_g28561532518853_retrytranche2_526_24_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, and what the result holds -/

variable (m : (ℓ : Loc nD τ sig) → Buf (Elt F) ℓ) (ρ : Dev nD → PrngReg)

/-- The index list and the table (the arguments), the reshaped table, the result, as locations of device `d`. -/
abbrev iLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

variable [FloatOps F]

/-- The reshaped table: the table's elements in row-major order at `[125000, 8, 64]`. -/
def tbl3 (d : Dev nD) : Buf (Elt F) (tLoc d) :=
  shapeCast S125000x8x64 (m (xLoc d)) shapeCasts_S1000000x64_S125000x8x64

/-- What the result holds at the end: row `r` is the table's row that entry `r` of the index list names. -/
def gath (d : Dev nD) : Buf (Elt F) (oLoc d) := Cert.Spec.takeRows (F := F) (m (iLoc d)) (m (xLoc d))

/-- What the proof asks of the launch memory: every entry of the index list, read as a natural number, names a row of the table. -/
def PreOK : Prop := ∀ (d : Dev nD) (r : S16384.Idx), (m (iLoc d) r).toNat ≤ 999999

/-! ## A subcore's pieces of the arrays -/

/-- The grid point of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The 512 entries of the index list a subcore fetches, and the 512 rows of the result it writes, as the kernel slices them. -/
def iSl (L : grid0.Coords) : Memref sig .scVector .hbm S512 .i32 :=
  (Memref.whole main_arg0_scv).slice (Rect.unit (s := S16384) (k0_off1 L) S512.size (k0_off1_inb L)) (fun _ => rfl)
def oSl (L : grid0.Coords) : Memref sig .scVector .hbm S512x64 .f32 :=
  (Memref.whole main_v1_scv).slice (Rect.unit (s := S16384x64) (k0_off36 L) S512x64.size (k0_off36_inb L)) (fun _ => rfl)
/-- Their elements. -/
def mSet (L : grid0.Coords) : Finset S16384.Idx := (iSl L).view.set
def oSet (L : grid0.Coords) : Finset S16384x64.Idx := (oSl L).view.set

/-- The read share of the reshaped table that goes to core `c`, and to its subcore `s`. -/
def coreShare (c : Fin 2) : PosShare TreeShare := Transfers.shareTok fullShare 2 c
def tileShare (c : Fin 2) (s : Fin 16) : PosShare TreeShare := Transfers.shareTok (coreShare c) 16 s

/-! ## What the handshakes carry -/

/-- A subcore's entries of the index list, at their launch contents. -/
abbrev msgPts (d : Dev nD) (L : grid0.Coords) : sProp 𝕄 := iLoc d ↦[mSet L]{fullShare} m (iLoc d)
/-- Its rows of the result, at contents `f`. -/
abbrev outPts (d : Dev nD) (L : grid0.Coords) (f : Buf (Elt F) (oLoc d)) : sProp 𝕄 := oLoc d ↦[oSet L]{fullShare} f
/-- The reshaped table whole, at read share `q`. -/
abbrev tblPts (d : Dev nD) (q : PosShare TreeShare) : sProp 𝕄 := tLoc d ↦{q} tbl3 m d

/-- What a subcore's task takes, and what it brings back. -/
def tileGo (d : Dev nD) (c : Fin 2) (s : Fin 16) : sProp 𝕄 :=
  iprop(msgPts m d (coordsV c s) ∗ outPts d (coordsV c s) (m (oLoc d)) ∗ tblPts m d (tileShare c s))
def tileTd (d : Dev nD) (c : Fin 2) (s : Fin 16) : sProp 𝕄 :=
  iprop(msgPts m d (coordsV c s) ∗ outPts d (coordsV c s) (gath m d))

/-- What a core takes for its sixteen subcores, and what it brings back. -/
def coreSt (d : Dev nD) (c : Fin 2) : sProp 𝕄 :=
  iprop((bigSep Finset.univ fun s : Fin 16 => iprop(msgPts m d (coordsV c s) ∗ outPts d (coordsV c s) (m (oLoc d)))) ∗ tblPts m d (coreShare c))
def coreDn (d : Dev nD) (c : Fin 2) : sProp 𝕄 := bigSep Finset.univ fun s : Fin 16 => tileTd m d c s

/-- The one call: a core takes its subcores' entries and rows and a read share of the reshaped table, and brings the
    entries and the rows back, the rows at the gathered contents. -/
def P : (K (F := F)).Pay (nD := nD) (Val := Elt F) (Name := ℕ) (U := UU) where
  st := fun q d c => match q with
    | 0 => coreSt m d (Fin.cast nCore_zero c)
  dn := fun q d c => match q with
    | 0 => coreDn m d (Fin.cast nCore_zero c)
  go := fun q d c i => match q with
    | 0 => tileGo m d (Fin.cast nCore_zero c) (Fin.cast nSub_zero i)
  td := fun q d c i => match q with
    | 0 => tileTd m d (Fin.cast nCore_zero c) (Fin.cast nSub_zero i)
  x := fun _ _ => iprop(emp)

instance coreSt_storable (d : Dev nD) (c : Fin 2) : BI.Storable (upEmb : UEmb _ 𝕄) (coreSt m d c) := by unfold coreSt; infer_instance
instance tileGo_storable (d : Dev nD) (c : Fin 2) (s : Fin 16) : BI.Storable (upEmb : UEmb _ 𝕄) (tileGo m d c s) := by unfold tileGo; infer_instance
instance tileTd_storable (d : Dev nD) (c : Fin 2) (s : Fin 16) : BI.Storable (upEmb : UEmb _ 𝕄) (tileTd m d c s) := by unfold tileTd; infer_instance
instance coreDn_storable (d : Dev nD) (c : Fin 2) : BI.Storable (upEmb : UEmb _ 𝕄) (coreDn m d c) := by unfold coreDn; infer_instance

instance P_storable : (P (F := F) m).IsStorable where
  st q d c := match q with
    | 0 => (inferInstance : BI.Storable (upEmb : UEmb _ 𝕄) (coreSt m d (Fin.cast nCore_zero c)))
  dn q d c := match q with
    | 0 => (inferInstance : BI.Storable (upEmb : UEmb _ 𝕄) (coreDn m d (Fin.cast nCore_zero c)))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

end Cert.Proof.KB

end
-- ==== Proof.DataKB.lean ====
/-
  The data of one subcore's gather, away from the program logic: the two words a table index splits into, the rows of
  the row scratch, what a row copy lands, and what the final write-out leaves in the result.

  An index `w ≤ 999999` names row `w` of the table; the kernel reads it as block `w >>> 3` and sub-row `w &&& 7` of the
  table reshaped to `[125000, 8, 64]`, whose element `(a, b, c)` is the table's `(8 a + b, c)`: the same row.
-/
import proofs.«201881_g28561532518853_retrytranche2_526_24_alg».proof.Proof.SetupKB
import Idealize.ShloMosaic.Lib.ValueIdx
import Idealize.ShloMosaic.Lib.Pipeline.Value

noncomputable section

namespace Cert.Proof.KB

open Cert.Kernel Cert.Kernel.Gen
open Idealize.ShloMosaic Idealize.ShloMosaic.ValueIdx
open Idealize.ShloMosaic.SparseCore (S V T)

variable {F : FTy → Type}

/-! ## The two words of an index -/

/-- The block and the sub-row the kernel computes from an index word. -/
def blkW (w : BitVec 32) : BitVec 32 := IntOp.shrui .vector w 3#32
def subW (w : BitVec 32) : BitVec 32 := IntOp.andi w 7#32

theorem blkW_toNat (w : BitVec 32) : (blkW w).toNat = w.toNat / 8 := by
  unfold blkW IntOp.shrui
  rw [if_pos (by decide), BitVec.ushiftRight_eq', BitVec.toNat_ushiftRight, Nat.shiftRight_eq_div_pow]
  rfl
theorem subW_toNat (w : BitVec 32) : (subW w).toNat = w.toNat % 8 := by
  unfold subW IntOp.andi
  rw [BitVec.toNat_and]
  exact Nat.and_two_pow_sub_one_eq_mod w.toNat 3

/-- The kernel's check on the two words of an index that names a row of the table: the one-row slice they address lies
    inside the reshaped table. -/
theorem chk_words {w a b : BitVec 32} (hw : w.toNat ≤ 999999) (ha : a = blkW w) (hb : b = subW w) :
    ∀ x, (![a.toNat, b.toNat, 0] : Fin 3 → ℕ) x + S1x1x64.size x ≤ S125000x8x64.size x := by
  subst ha hb
  have h1 := blkW_toNat w
  have h2 := subW_toNat w
  intro x
  match x with
  | ⟨0, _⟩ =>
    show (blkW w).toNat + 1 ≤ 125000
    omega
  | ⟨1, _⟩ =>
    show (subW w).toNat + 1 ≤ 8
    omega
  | ⟨2, _⟩ =>
    show 0 + 64 ≤ 64
    omega

/-! ## The rows of the row scratch -/

theorem row_inb (t : Fin 512) : ∀ a, (![t.val, 0] : Fin 2 → ℕ) a + S1x64.size a ≤ S512x64.size a := by
  intro a
  have := t.isLt
  match a with
  | ⟨0, _⟩ =>
    show t.val + 1 ≤ 512
    omega
  | ⟨1, _⟩ =>
    show 0 + 64 ≤ 64
    omega

/-- Row `t` of the row scratch, as a one-row slice. -/
def rowM (t : Fin 512) : Memref sig .scVector .vmem S1x64 .f32 :=
  (Memref.whole cc0_scratch1).slice (Rect.unit (s := S512x64) ![t.val, 0] S1x64.size (row_inb t)) (fun _ => rfl)
/-- Its elements. -/
def rowSet (t : Fin 512) : Finset S512x64.Idx := (rowM t).view.set

/-- Row `t`'s elements are the unit rectangle's at offsets `(t, 0)`. -/
theorem rowSet_eq (t : Fin 512) : rowSet t = (Rect.unit (s := S512x64) ![t.val, 0] S1x64.size (row_inb t)).set :=
  View.set_slice_whole _ _

theorem mem_rowSet (t : Fin 512) (y : S512x64.Idx) : y ∈ rowSet t ↔ (y 0).val = t.val := by
  rw [rowSet_eq, Rect.mem_set_unit]
  have h1 : (y 1).val < 64 := (y 1).isLt
  constructor
  · intro H
    have a0 : t.val ≤ (y 0).val ∧ (y 0).val < t.val + 1 := H 0
    omega
  · intro H a
    match a with
    | ⟨0, _⟩ =>
      show t.val ≤ (y 0).val ∧ (y 0).val < t.val + 1
      omega
    | ⟨1, _⟩ =>
      show 0 ≤ (y 1).val ∧ (y 1).val < 0 + 64
      omega
theorem rowSet_disjoint : ∀ t ∈ (Finset.univ : Finset (Fin 512)), ∀ t' ∈ (Finset.univ : Finset (Fin 512)), t ≠ t' → Disjoint (rowSet t) (rowSet t') := by
  intro t _ t' _ hne
  rw [Finset.disjoint_left]
  intro y hy hy'
  rw [mem_rowSet] at hy hy'
  exact hne (Fin.ext (by omega))
theorem rowSet_cover : (Finset.univ : Finset (Fin 512)).biUnion rowSet = Finset.univ := by
  ext y
  simp only [Finset.mem_biUnion, Finset.mem_univ, true_and, iff_true]
  exact ⟨y 0, (mem_rowSet _ _).mpr rfl⟩

/-- A one-row slice of the row scratch at offsets that ARE `(t, 0)` has row `t`'s elements. -/
theorem set_row_of_off (t : Fin 512) (off : Fin 2 → ℕ) (hinb : ∀ a, off a + S1x64.size a ≤ S512x64.size a) (hoff : off = ![t.val, 0]) :
    ((Memref.whole cc0_scratch1 : Memref sig .scVector .vmem S512x64 .f32).slice (Rect.unit (s := S512x64) off S1x64.size hinb) (fun _ => rfl)).view.set = rowSet t := by
  subst hoff; rfl

/-! ## What a row copy lands -/

/-- The one-row slice `(a, b, :)` of the reshaped table, squeezed to `[1, 64]`: a row copy's source. -/
def srcM (off : Fin 3 → ℕ) (h : ∀ x, off x + S1x1x64.size x ≤ S125000x8x64.size x) : Memref sig .scVector .hbm S1x64 .f32 :=
  ((Memref.whole main_v0_scv).slice (Rect.unit (s := S125000x8x64) off S1x1x64.size h) (fun _ => rfl)).squeeze S1x64 squeezes_S1x1x64_S1x64

/-- What the row scratch holds once every copy has landed: row `t` is row `(blk, sub)` of the reshaped table `T3`, the
    two words taken from entry `t` of the index scratch `fS`. -/
def landed (fS : S512.Idx → BitVec 32) (T3 : S125000x8x64.Idx → F .f32) : S512x64.Idx → F .f32 :=
  fun y => T3 (ix3 (⟨(blkW (fS (ix1 (y 0)))).toNat % 125000, Nat.mod_lt _ (by norm_num)⟩ : Fin 125000)
    (⟨(subW (fS (ix1 (y 0)))).toNat % 8, Nat.mod_lt _ (by norm_num)⟩ : Fin 8) (y 1))

/-- On row `t` the landed contents read entry `t` of the index scratch. -/
theorem landed_row (fS : S512.Idx → BitVec 32) (T3 : S125000x8x64.Idx → F .f32) (t : Fin 512) (y : S512x64.Idx)
    (hy : (y 0).val = t.val) :
    landed fS T3 y = T3 (ix3 (⟨(blkW (fS (ix1 t))).toNat % 125000, Nat.mod_lt _ (by norm_num)⟩ : Fin 125000)
      (⟨(subW (fS (ix1 t))).toNat % 8, Nat.mod_lt _ (by norm_num)⟩ : Fin 8) (y 1)) := by
  have e : y 0 = t := Fin.ext hy
  subst e
  rfl

/-- The squeeze of `[1, 1, 64]` to `[1, 64]` matches `(0, c)` with `(0, 0, c)`: both are at row-major position `c`. -/
theorem squeeze_idx (x : S1x64.Idx) (hh : S1x64.numel = (⟨3, S1x1x64.size⟩ : Shape).numel) :
    Shape.reshapeEquiv hh x = ix3 (0 : Fin 1) (0 : Fin 1) (x 1 : Fin 64) := by
  have hx0 : (x 0).val < 1 := (x 0).isLt
  have e3 := Shape.rowMajor_val_three (d := ![1, 1, 64]) (ix3 (0 : Fin 1) (0 : Fin 1) (x 1 : Fin 64))
  have e2 := Shape.rowMajor_val_two (d := ![1, 64]) x
  refine Shape.reshapeEquiv_eq_of_rowMajor hh (e3.trans (Eq.trans ?_ e2.symm))
  show (0 * 1 + 0) * 64 + (x 1).val = (x 0).val * 64 + (x 1).val
  omega

/-- A row copy out of slice `(a, b, :)` of the reshaped table into row `t` of the row scratch, `a` and `b` the two
    words of entry `t` of the index scratch (an index that names a row of the table), leaves on row `t` what `landed`
    says, whatever the scratch held. -/
theorem deliver_row (fS : S512.Idx → BitVec 32) (T3 : S125000x8x64.Idx → F .f32) (fd : S512x64.Idx → F .f32) (t : Fin 512)
    (off : Fin 3 → ℕ) (h : ∀ x, off x + S1x1x64.size x ≤ S125000x8x64.size x)
    (a b : BitVec 32) (hoff : off = ![a.toNat, b.toNat, 0])
    (ha : a = blkW (fS (ix1 t))) (hb : b = subW (fS (ix1 t))) (hw : (fS (ix1 t)).toNat ≤ 999999) :
    ∀ y ∈ rowSet t,
      (rowM t).view.write (Elt F) fd ((srcM off h).view.read (Elt F) T3) Finset.univ y = landed fS T3 y := by
  subst hoff ha hb
  intro y hy
  have hy0 : (y 0).val = t.val := (mem_rowSet t y).1 hy
  obtain ⟨x, -, hx⟩ := Finset.mem_map.1 hy
  have hy1 : 0 + 1 * (x 1).val = (y 1).val := congrArg (fun z : S512x64.Idx => (z 1).val) hx
  have h1 := blkW_toNat (fS (ix1 t))
  have h2 := subW_toNat (fS (ix1 t))
  rw [landed_row fS T3 t y hy0]
  have hwr : (rowM t).view.write (Elt F) fd ((srcM _ h).view.read (Elt F) T3) Finset.univ y
      = T3 ((srcM _ h).view.emb x) := by
    rw [← hx]
    exact View.write_emb_of_mem (v := (rowM t).view) (Val := Elt F) fd _ (Finset.mem_univ x)
  refine hwr.trans (congrArg T3 ?_)
  have hsrc : (srcM _ h).view.emb x
      = (Rect.unit (s := S125000x8x64) ![(blkW (fS (ix1 t))).toNat, (subW (fS (ix1 t))).toNat, 0] S1x1x64.size h).emb
          (ix3 (0 : Fin 1) (0 : Fin 1) (x 1 : Fin 64)) := by
    show (Rect.unit (s := S125000x8x64) ![(blkW (fS (ix1 t))).toNat, (subW (fS (ix1 t))).toNat, 0] S1x1x64.size h).emb
        (Shape.reshapeEquiv _ x) = _
    exact congrArg _ (squeeze_idx x _)
  refine hsrc.trans ?_
  funext c
  refine Fin.ext ?_
  match c with
  | ⟨0, _⟩ =>
    show (blkW (fS (ix1 t))).toNat + 1 * 0 = (blkW (fS (ix1 t))).toNat % 125000
    omega
  | ⟨1, _⟩ =>
    show (subW (fS (ix1 t))).toNat + 1 * 0 = (subW (fS (ix1 t))).toNat % 8
    omega
  | ⟨2, _⟩ =>
    show 0 + 1 * (x 1).val = (y 1).val
    exact hy1

/-! ## What the write-out leaves -/

variable (m : (ℓ : Loc nD τ sig) → Buf (Elt F) ℓ)

/-- What the index scratch of the subcore at grid point `L` holds after its fetch: its 512 entries of the index list. -/
def fetched (d : Dev nD) (L : grid0.Coords) : S512.Idx → BitVec 32 := (iSl L).view.read (Elt F) (m (iLoc d))

variable [FloatOps F]

/-- Every fetched entry names a row of the table. -/
theorem fetched_le (hpre : PreOK m) (d : Dev nD) (L : grid0.Coords) (t : Fin 512) : (fetched m d L (ix1 t)).toNat ≤ 999999 := by
  unfold fetched
  exact hpre d ((iSl L).view.emb (ix1 t))

/-- A word that names a row of the table reads the same signed and unsigned, so `rowOf` keeps it. -/
theorem rowOf_val (v : BitVec 32) (hv : v.toNat ≤ 999999) : (Cert.Spec.rowOf v).val = v.toNat := by
  have e : v.toInt = (v.toNat : Int) := BitVec.toInt_eq_toNat_of_lt (by omega)
  show min v.toInt.toNat 999999 = v.toNat
  rw [e, Int.toNat_natCast]
  omega

/-- Writing the row scratch, at the landed contents, over the subcore's 512 rows of the result leaves there the rows of
    the table its entries of the index list name: what the result holds at the end. -/
theorem out_value (hpre : PreOK m) (d : Dev nD) (L : grid0.Coords) (fo : S16384x64.Idx → F .f32) :
    ∀ y ∈ oSet L,
      (oSl L).view.write (Elt F) fo ((Memref.whole cc0_scratch1 : Memref sig .scVector .vmem S512x64 .f32).view.read (Elt F) (landed (fetched m d L) (tbl3 m d))) Finset.univ y
        = gath m d y := by
  intro y hy
  obtain ⟨x, -, hx⟩ := Finset.mem_map.1 hy
  -- the coordinates of `y`: the slice starts at row `1024 (L 1) + 512 (L 0)`, column 0
  have hy0 : k0_off36 L 0 + 1 * (x 0).val = (y 0).val := congrArg (fun z : S16384x64.Idx => (z 0).val) hx
  have hy1 : k0_off36 L 1 + 1 * (x 1).val = (y 1).val := congrArg (fun z : S16384x64.Idx => (z 1).val) hx
  rw [k0_off36_eq L] at hy0 hy1
  have hy0' : 1024 * (L 1).val + 512 * (L 0).val + 1 * (x 0).val = (y 0).val := hy0
  have hy1' : 0 + 1 * (x 1).val = (y 1).val := hy1
  -- the fetched entry under row `x 0` of the slice is entry `y 0` of the index list
  have hidx : (ix1 (y 0) : S16384.Idx) = (iSl L).view.emb (ix1 (x 0)) := by
    funext c
    refine Fin.ext ?_
    match c with
    | ⟨0, _⟩ =>
      show (y 0).val = k0_off1 L 0 + 1 * (x 0).val
      rw [k0_off1_eq L]
      show (y 0).val = 1024 * (L 1).val + 512 * (L 0).val + 1 * (x 0).val
      omega
  have hmsg : m (iLoc d) (ix1 (y 0)) = fetched m d L (ix1 (x 0)) := congrArg (m (iLoc d)) hidx
  have hw : (fetched m d L (ix1 (x 0))).toNat ≤ 999999 := fetched_le m hpre d L (x 0)
  have h1 := blkW_toNat (fetched m d L (ix1 (x 0)))
  have h2 := subW_toNat (fetched m d L (ix1 (x 0)))
  -- the write puts the landed element there
  have hwr : (oSl L).view.write (Elt F) fo ((Memref.whole cc0_scratch1 : Memref sig .scVector .vmem S512x64 .f32).view.read (Elt F)
      (landed (fetched m d L) (tbl3 m d))) Finset.univ y = landed (fetched m d L) (tbl3 m d) x := by
    rw [← hx]
    exact View.write_emb_of_mem (v := (oSl L).view) (Val := Elt F) fo _ (Finset.mem_univ x)
  refine hwr.trans ?_
  -- the reshaped table at `(w / 8, w % 8, c)` is the table at `(w, c)`
  have hcast : landed (fetched m d L) (tbl3 m d) x
      = m (xLoc d) (ix2 (⟨(fetched m d L (ix1 (x 0))).toNat, by omega⟩ : Fin 1000000) (x 1 : Fin 64)) := by
    refine shapeCast_apply (m (xLoc d)) shapeCasts_S1000000x64_S125000x8x64 _ _ ?_
    refine (Shape.rowMajor_val_two (d := ![1000000, 64]) _).trans (Eq.trans ?_ (Shape.rowMajor_val_three (d := ![125000, 8, 64]) _).symm)
    show (fetched m d L (ix1 (x 0))).toNat * 64 + (x 1).val
      = ((blkW (fetched m d L (ix1 (x 0)))).toNat % 125000 * 8 + (subW (fetched m d L (ix1 (x 0)))).toNat % 8) * 64 + (x 1).val
    omega
  refine hcast.trans (congrArg (m (xLoc d)) ?_)
  funext c
  refine Fin.ext ?_
  match c with
  | ⟨0, _⟩ =>
    show (fetched m d L (ix1 (x 0))).toNat = (Cert.Spec.rowOf (m (iLoc d) (ix1 (y 0)))).val
    exact ((rowOf_val _ (hpre d _)).trans (congrArg BitVec.toNat hmsg)).symm
  | ⟨1, _⟩ =>
    show (x 1).val = (y 1).val
    omega

end Cert.Proof.KB

end
-- ==== Proof.TileKB.lean ====
import proofs.«201881_g28561532518853_retrytranche2_526_24_alg».proof.Proof.DataKB
import Idealize.ShloMosaic.Lib.Ring

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iW" => (Memref.whole Cert.Kernel.main_arg0_scv : Memref Cert.Kernel.sig Kind.scVector Space.hbm Cert.Kernel.S16384 EltTy.i32)
local notation "tW" => (Memref.whole Cert.Kernel.main_v0_scv : Memref Cert.Kernel.sig Kind.scVector Space.hbm Cert.Kernel.S125000x8x64 EltTy.f32)
local notation "oW" => (Memref.whole Cert.Kernel.main_v1_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The subcore's three DMA semaphores' cells. -/
abbrev cBatch (d : Dev nD) (c : Fin τ.nSC) (i : Fin τ.nSub) : GSem nD τ sig := (V d c i, .dma cc0_scratch2.sem)
abbrev cIn (d : Dev nD) (c : Fin τ.nSC) (i : Fin τ.nSub) : GSem nD τ sig := (V d c i, .dma cc0_scoped0.sem)
abbrev cOut (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cBatch d (cV L) (jV L)) 0 ∗ semVal (cIn d (cV L) (jV L)) 0 ∗ semVal (cOut d (cV L) (jV L)) 0
          ∗ bigSep ((((ownCells (V d (cV L) (jV L))).erase (cBatch d (cV L) (jV L))).erase (cIn d (cV L) (jV L))).erase (cOut d (cV L) (jV L)))
              fun g => semVal g 0) := by
  unfold SparseCore.Cfg.ownSems0
  rw [SparseCore.bigSep_erase' ((mem_ownCells (g := cBatch d (cV L) (jV L))).mpr ⟨rfl, by
      show (SemLoc.dma cc0_scratch2.sem : SemLoc sig).isScoped .scVector = true; decide⟩),
    SparseCore.bigSep_erase' (Finset.mem_erase.mpr ⟨by simp [cBatch, cIn]; decide, (mem_ownCells (g := cIn d (cV L) (jV L))).mpr ⟨rfl, by
      show (SemLoc.dma cc0_scoped0.sem : SemLoc sig).isScoped .scVector = true; decide⟩⟩),
    SparseCore.bigSep_erase' (Finset.mem_erase.mpr ⟨by simp [cIn, cOut]; decide, Finset.mem_erase.mpr ⟨by simp [cBatch, cOut]; decide,
      (mem_ownCells (g := cOut d (cV L) (jV L))).mpr ⟨rfl, by show (SemLoc.dma cc0_scoped1.sem : SemLoc sig).isScoped .scVector = true; decide⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The transfers' counters, in the certificate's algebra. -/
abbrev EC : UEmb Counters (MT nD τ sig (HIx 1) (Elt F) ℕ UU ℕ) := countersEmb (U := UU)

/-- One row copy's credit on the batch's semaphore. -/
abbrev NR : ℕ := (rowM ⟨0, by norm_num⟩).view.dmaCredit

/-- What row copy `t` delivers: row `t` of the row scratch at the landed contents. -/
def Dl (fS : S512.Idx → BitVec 32) (t : Fin 512) : sProp 𝕄 :=
  (V d (cV L) (jV L)).loc cc0_scratch1 ↦[rowSet t]{fullShare} landed fS (tbl3 m d)

instance Dl_storable (fS : S512.Idx → BitVec 32) (t : Fin 512) : BI.Storable (upEmb : UEmb _ 𝕄) (Dl m d L fS t) := by
  unfold Dl; infer_instance

/-- The batch of the subcore's 512 row copies: `j` started, none waited for. -/
abbrev batch (fS : S512.Idx → BitVec 32) (j u : ℕ) : sProp 𝕄 :=
  Transfers.Batch (EC (F := F)) (V d (cV L) (jV L)) (.dma cc0_scratch2.sem) (none : HIx 1) NR (Dl m d L fS) j u

/-- ONE ROW COPY, number `j`: out of the slice of the reshaped table the two words of entry `j` of the index scratch
    address, into row `j` of the row scratch, on the batch's semaphore. -/
theorem issue_one {α : Type} {kont : PUnit → Prog (TpuEff nD τ sig (Elt F) Λ₀ (.scVector (cV L) (jV L))) α} {Q : α → sProp 𝕄}
    (fS : S512.Idx → BitVec 32) (q : PosShare TreeShare) (n₀ j : ℕ) (hn : n₀ = j) (hj : j < 512)
    (offd : Fin 2 → ℕ) (hd : ∀ a, offd a + S1x64.size a ≤ S512x64.size a) (hoffd : offd = ![j, 0])
    (offs : Fin 3 → ℕ) (hs : ∀ x, offs x + S1x1x64.size x ≤ S125000x8x64.size x)
    (a b : BitVec 32) (hoffs : offs = ![a.toNat, b.toNat, 0])
    (ha : a = blkW (fS (ix1 ⟨j, hj⟩))) (hb : b = subW (fS (ix1 ⟨j, hj⟩))) (hw : (fS (ix1 ⟨j, hj⟩)).toNat ≤ 999999)
    {hsrc : (srcM offs hs).view.WordExact} {hdst : ((sR).slice (Rect.unit (s := S512x64) offd S1x64.size hd) (fun _ => rfl)).view.WordExact}
    {hsem : DmaTarget.Typed (nD := nD) (τ := τ) (p := Proc.scVector (cV L) (jV L)) Space.hbm (.dma cc0_scratch2.sem) (DmaTarget.here (nD := nD) (τ := τ) (p := Proc.scVector (cV L) (jV L)) ((sR).slice (Rect.unit (s := S512x64) offd S1x64.size hd) (fun _ => rfl)))}
    (fd : S512x64.Idx → F .f32) :
    iprop(((tW).view.loc (V d (cV L) (jV L)) ↦{q} tbl3 m d) ∗ ((V d (cV L) (jV L)).loc cc0_scratch1 ↦[rowSet ⟨j, hj⟩]{fullShare} fd)
        ∗ batch m d L fS n₀ 0)
      ⊢ iprop((batch m d L fS (j + 1) 0 -∗ wp frame (wpE (defs₀ (F := F)) 𝒱₀ (V d (cV L) (jV L)) none) Set.univ (kont ⟨⟩) Q)
          -∗ wp frame (wpE (defs₀ (F := F)) 𝒱₀ (V d (cV L) (jV L)) none) Set.univ
            (.op (.enqueueDmaAs (srcM offs hs) (DmaTarget.here (nD := nD) (τ := τ) (p := Proc.scVector (cV L) (jV L)) ((sR).slice (Rect.unit (s := S512x64) offd S1x64.size hd) (fun _ => rfl))) .same (.dma cc0_scratch2.sem) hsrc hdst hsem) kont) Q) := by
  subst hn hoffd
  iintro ⟨Ht, Hr, HB⟩ Hk
  ihave Ht' := ((pointsTo_split_subset (ℓ := (tW).view.loc (V d (cV L) (jV L))) (I := (srcM offs hs).view.set) (S := Finset.univ) (Finset.subset_univ _)).1) $$ Ht
  icases Ht' with ⟨Hsrc, -⟩
  iapply (Transfers.wp_dmaBatch (EC (F := F)) 𝒱₀ (V d (cV L) (jV L)) none (src := srcM offs hs)
      (dst := (sR).slice (Rect.unit (s := S512x64) ![n₀, 0] S1x64.size hd) (fun _ => rfl)) (fs := tbl3 m d) (fd := fd) (q := q)
      (D := Dl m d L fS) (none : HIx 1) NR rfl
      (Sd := rowSet ⟨n₀, hj⟩) (Finset.Subset.refl _) hj (Nat.zero_le _) ?hD) $$ [Hsrc Hr HB]
  case hD =>
    iintro ⟨Hd, -⟩
    unfold Dl
    iapply (Entails.of_eq (pointsTo_congr (deliver_row fS (tbl3 m d) fd ⟨n₀, hj⟩ offs hs a b hoffs ha hb hw)))
    iexact Hd
  · isplitl [Hsrc]; · iexact Hsrc
    isplitl [Hr]; · iexact Hr
    iexact HB
  iexact Hk

/-! ## The lanes of a chunk of sixteen entries -/

/-- Lane `u` of a sixteen-lane vector, as the kernel takes it: the one-lane slice at `u`, then its only entry. -/
theorem lane_apply (x : IVec S16 32) (u : Fin 16) (h : S16.Slices ![u.val] S1) :
    extractAt ![0] (extractStridedSlice S1 ![u.val] x h) inpos_S1_p0 = x (ix1 u) := by
  unfold extractAt extractStridedSlice
  refine congrArg x (funext fun a => Fin.ext ?_)
  match a with
  | ⟨0, _⟩ => simp

/-- The kernel's two vector operations on a chunk: every lane's block word and sub-row word. -/
theorem pay4_apply (v7 : Vec F S16 .i32) (i : S16.Idx) : k0_pay4 (F := F) v7 i = blkW (v7 i) := by
  unfold k0_pay4 k0_pay3
  show IntOp.shrui .vector (shapeCast S16 v7 shapeCasts_S16_S16 i) (broadcast S16 3#32 i) = _
  rw [shapeCast_self]; rfl
theorem pay5_apply (v7 : Vec F S16 .i32) (i : S16.Idx) : k0_pay5 (F := F) v7 i = subW (v7 i) := by
  unfold k0_pay5 k0_pay3
  show IntOp.andi (shapeCast S16 v7 shapeCasts_S16_S16 i) (broadcast S16 7#32 i) = _
  rw [shapeCast_self]; rfl

omit [FloatOps F] in
theorem trips1_le : k0_t1_loop.trips ≤ 32 := k0_t1_abs.2.1

/-- Trip `k`'s chunk: sixteen entries of the index scratch from `16 k` on. -/
abbrev chunk (fS : S512.Idx → BitVec 32) (k : Fin k0_t1_loop.trips) : Vec F S16 .i32 :=
  (sI).view.readAt (Elt F) (Rect.unit (s := S512) (k0_off2 k) S16.size (k0_off2_inb k)).toLoadRect fS

omit [FloatOps F] in
theorem load_lane (fS : S512.Idx → BitVec 32) (k : Fin k0_t1_loop.trips) (u : Fin 16) (h : 16 * k.val + u.val < 512) :
    chunk (F := F) fS k (ix1 u) = fS (ix1 ⟨16 * k.val + u.val, h⟩) := by
  unfold chunk
  rw [View.readAt_apply]
  show fS _ = fS _
  refine congrArg fS (funext fun a => Fin.ext ?_)
  match a with
  | ⟨0, _⟩ =>
    show (k0_off2 k) 0 + 1 * (u : ℕ) = 16 * k.val + u.val
    rw [k0_off2_eq]; simp

/-! ## The issue loop -/

omit [FloatOps F] in
/-- Sixteen heads off a run. -/
theorem take16 (Φ : Fin 512 → sProp 𝕄) (lo : ℕ) (h : lo + 16 ≤ 512) :
    bigSep (Ring.rangeSet 512 lo 512) Φ = iprop(Φ ⟨lo + 0, by omega⟩ ∗ Φ ⟨lo + 1, by omega⟩ ∗ Φ ⟨lo + 2, by omega⟩ ∗ Φ ⟨lo + 3, by omega⟩ ∗ Φ ⟨lo + 4, by omega⟩ ∗ Φ ⟨lo + 5, by omega⟩ ∗ Φ ⟨lo + 6, by omega⟩ ∗ Φ ⟨lo + 7, by omega⟩ ∗ Φ ⟨lo + 8, by omega⟩ ∗ Φ ⟨lo + 9, by omega⟩ ∗ Φ ⟨lo + 10, by omega⟩ ∗ Φ ⟨lo + 11, by omega⟩ ∗ Φ ⟨lo + 12, by omega⟩ ∗ Φ ⟨lo + 13, by omega⟩ ∗ Φ ⟨lo + 14, by omega⟩ ∗ Φ ⟨lo + 15, by omega⟩ ∗ bigSep (Ring.rangeSet 512 (lo + 16) 512) Φ) := by
  have e : ∀ (a b : ℕ) (_ : b = a + 1) (ha : a < 512),
      bigSep (Ring.rangeSet 512 a 512) Φ = iprop(Φ ⟨a, ha⟩ ∗ bigSep (Ring.rangeSet 512 b 512) Φ) := by
    intro a b hb ha; subst hb; exact Ring.bigSep_rangeSet_head ha ha
  rw [e lo (lo + 1) rfl (by omega), e (lo + 1) (lo + 2) rfl (by omega), e (lo + 2) (lo + 3) rfl (by omega), e (lo + 3) (lo + 4) rfl (by omega), e (lo + 4) (lo + 5) rfl (by omega), e (lo + 5) (lo + 6) rfl (by omega), e (lo + 6) (lo + 7) rfl (by omega), e (lo + 7) (lo + 8) rfl (by omega), e (lo + 8) (lo + 9) rfl (by omega), e (lo + 9) (lo + 10) rfl (by omega), e (lo + 10) (lo + 11) rfl (by omega), e (lo + 11) (lo + 12) rfl (by omega), e (lo + 12) (lo + 13) rfl (by omega), e (lo + 13) (lo + 14) rfl (by omega), e (lo + 14) (lo + 15) rfl (by omega), e (lo + 15) (lo + 16) rfl (by omega)]
  rfl

/-- A row of the row scratch owned, and read token `t` of the reshaped table. -/
abbrev rowF (t : Fin 512) : sProp 𝕄 := iprop(∃ g : S512x64.Idx → F .f32, (V d (cV L) (jV L)).loc cc0_scratch1 ↦[rowSet t]{fullShare} g)
abbrev tokF (q : PosShare TreeShare) (t : Fin 512) : sProp 𝕄 := (tW).view.loc (V d (cV L) (jV L)) ↦{Transfers.shareTokN q t.val} tbl3 m d

/-- Before trip `k` of the issue loop: the index scratch at its fetched contents, `16 k` row copies started, the rows and
    the read tokens from `16 k` on still in hand. -/
def issueInv (fS : S512.Idx → BitVec 32) (q : PosShare TreeShare) (k : ℕ) (_ : Unit) : sProp 𝕄 :=
  iprop(((sI).view.loc (V d (cV L) (jV L)) ↦{fullShare} fS) ∗ batch m d L fS (16 * k) 0
    ∗ bigSep (Ring.rangeSet 512 (16 * k) 512) (rowF d L) ∗ bigSep (Ring.rangeSet 512 (16 * k) 512) (tokF m d L q))

/-- Lane `u` of the chunk's block words is the block word of entry `16 k + u` of the index scratch. -/
theorem laneA (fS : S512.Idx → BitVec 32) (k : Fin k0_t1_loop.trips) (u : Fin 16) (h : S16.Slices ![u.val] S1)
    (j : ℕ) (hj : j < 512) (e : j = 16 * k.val + u.val) :
    extractAt ![0] (extractStridedSlice S1 ![u.val] (k0_pay4 (chunk (F := F) fS k)) h) inpos_S1_p0 = blkW (fS (ix1 ⟨j, hj⟩)) := by
  subst e
  exact (lane_apply _ u h).trans ((pay4_apply _ _).trans (congrArg blkW (load_lane fS k u hj)))
/-- Lane `u` of the chunk's sub-row words is the sub-row word of entry `16 k + u` of the index scratch. -/
theorem laneB (fS : S512.Idx → BitVec 32) (k : Fin k0_t1_loop.trips) (u : Fin 16) (h : S16.Slices ![u.val] S1)
    (j : ℕ) (hj : j < 512) (e : j = 16 * k.val + u.val) :
    extractAt ![0] (extractStridedSlice S1 ![u.val] (k0_pay5 (chunk (F := F) fS k)) h) inpos_S1_p0 = subW (fS (ix1 ⟨j, hj⟩)) := by
  subst e
  exact (lane_apply _ u h).trans ((pay5_apply _ _).trans (congrArg subW (load_lane fS k u hj)))

/-- The chunk's load, its value handed to the continuation as a variable equal to what the index scratch reads. -/
theorem wp_load_var {α : Type} (fS : S512.Idx → BitVec 32) (r : LoadRect S512) (hl : (sI).view.LoadsAt r)
    (kk : (r.shape.Idx → Elt F .i32) → Prog (TpuEff nD τ sig (Elt F) Λ₀ (.scVector (cV L) (jV L))) α) (Q : α → sProp 𝕄) :
    iprop((((sI).view.loc (V d (cV L) (jV L)) ↦{fullShare} fS) : sProp 𝕄)
        ∗ (∀ v : r.shape.Idx → Elt F .i32, ⌜v = (sI).view.readAt (Elt F) r fS⌝ -∗ ((sI).view.loc (V d (cV L) (jV L)) ↦{fullShare} fS) -∗ wp frame (wpE (defs₀ (F := F)) 𝒱₀ (V d (cV L) (jV L)) none) Set.univ (kk v) Q))
      ⊢ wp frame (wpE (defs₀ (F := F)) 𝒱₀ (V d (cV L) (jV L)) none) Set.univ (.op (.load sI r hl) kk) Q := by
  iintro ⟨Hs, Hk⟩
  iapply (wp_load 𝒱₀ (V d (cV L) (jV L)) none Set.univ (m := sI) (S := Finset.univ) (Finset.subset_univ _)) $$ Hs
  iintro Hs
  iapply Hk $$ %_ %rfl Hs

set_option maxHeartbeats 400000 in
/-- Part 1 of a trip: the chunk loaded, lanes 0 and 1 checked and started, lane 2 checked. The continuation takes the
    part's results as variables, with what they are: every lane of the two word vectors, and lane 2's two words. -/
theorem part1_step {α : Type} (fS : S512.Idx → BitVec 32) (hfS : ∀ t : Fin 512, (fS (ix1 t)).toNat ≤ 999999) (q : PosShare TreeShare)
    (k : Fin k0_t1_loop.trips) (hk : k.val < 32)
    (kont : (Σ' (arg8 : BitVec 32) (v10 : IVec S16 32) (v12 : IVec S16 32) (vA : BitVec 32) (vB : BitVec 32) (_ : k0_chk3 vA vB) (_ : BitVec 32), BitVec 32) → Prog (TpuEff nD τ sig (Elt F) Λ₀ (.scVector (cV L) (jV L))) α) (Q : α → sProp 𝕄) :
    iprop(((sI).view.loc (V d (cV L) (jV L)) ↦{fullShare} fS) ∗ batch m d L fS (16 * k.val) 0
        ∗ rowF d L ⟨16 * k.val + 0, by omega⟩ ∗ rowF d L ⟨16 * k.val + 1, by omega⟩ ∗ tokF m d L q ⟨16 * k.val + 0, by omega⟩ ∗ tokF m d L q ⟨16 * k.val + 1, by omega⟩)
      ⊢ iprop((∀ t : (Σ' (arg8 : BitVec 32) (v10 : IVec S16 32) (v12 : IVec S16 32) (vA : BitVec 32) (vB : BitVec 32) (_ : k0_chk3 vA vB) (_ : BitVec 32), BitVec 32), ⌜((∀ (u : Fin 16) (h : S16.Slices ![u.val] S1) (hlt : 16 * k.val + u.val < 512),
        extractAt ![0] (extractStridedSlice S1 ![u.val] t.2.1 h) inpos_S1_p0 = blkW (fS (ix1 ⟨16 * k.val + u.val, hlt⟩)))
      ∧ (∀ (u : Fin 16) (h : S16.Slices ![u.val] S1) (hlt : 16 * k.val + u.val < 512),
        extractAt ![0] (extractStridedSlice S1 ![u.val] t.2.2.1 h) inpos_S1_p0 = subW (fS (ix1 ⟨16 * k.val + u.val, hlt⟩))))
                ∧ t.2.2.2.1 = blkW (fS (ix1 ⟨(16 * k.val + 0 + 2), by omega⟩)) ∧ t.2.2.2.2.1 = subW (fS (ix1 ⟨(16 * k.val + 0 + 2), by omega⟩))⌝
              -∗ iprop(((sI).view.loc (V d (cV L) (jV L)) ↦{fullShare} fS) ∗ batch m d L fS (16 * k.val + 2) 0) -∗ wp frame (wpE (defs₀ (F := F)) 𝒱₀ (V d (cV L) (jV L)) none) Set.univ (kont t) Q)
          -∗ wp frame (wpE (defs₀ (F := F)) 𝒱₀ (V d (cV L) (jV L)) none) Set.univ (k0_part1 L iW (Memref.isWhole_whole _) tW (Memref.isWhole_whole _) oW (Memref.isWhole_whole _) sI (Memref.isWhole_whole _) sR (Memref.isWhole_whole _) cc0_scratch2 cc0_scoped0 cc0_scoped1 0#32 1#32 k >>= kont) Q) := by
  simp only [k0_part1_eq_skeleton]
  unfold k0_part1_skel
  simp only [Prog.lift, Prog.bind_op, Prog.bind_ret, Prog.pure_eq_ret]
  iintro ⟨Hs, HB, ⟨%g0, Hr0⟩, ⟨%g1, Hr1⟩, Ht0, Ht1⟩ Hk
  iapply (wp_load_var d L fS _ _ _ _)
  isplitl [Hs]; · iexact Hs
  iintro %v7 %hv7 Hs
  have hv10 : ∀ (u : Fin 16) (h : S16.Slices ![u.val] S1) (hlt : 16 * k.val + u.val < 512),
      extractAt ![0] (extractStridedSlice S1 ![u.val] (k0_pay4 (F := F) v7) h) inpos_S1_p0 = blkW (fS (ix1 ⟨16 * k.val + u.val, hlt⟩)) := by
    intro u h hlt; rw [hv7]; exact laneA fS k u h _ hlt rfl
  have hv12 : ∀ (u : Fin 16) (h : S16.Slices ![u.val] S1) (hlt : 16 * k.val + u.val < 512),
      extractAt ![0] (extractStridedSlice S1 ![u.val] (k0_pay5 (F := F) v7) h) inpos_S1_p0 = subW (fS (ix1 ⟨16 * k.val + u.val, hlt⟩)) := by
    intro u h hlt; rw [hv7]; exact laneB fS k u h _ hlt rfl
  iapply (Entails.of_eq (wp_assume_of _ _ _ _ (chk_words (hfS _) (hv10 ⟨0, by norm_num⟩ slices_S16_o0_S1 (by omega)) (hv12 ⟨0, by norm_num⟩ slices_S16_o0_S1 (by omega)))).symm)
  iapply (issue_one m d L fS _ (16 * k.val) (16 * k.val + 0) rfl (by omega) _ _ (k0_off5_eq k 0) _ _ _ _ rfl (hv10 ⟨0, by norm_num⟩ slices_S16_o0_S1 (by omega)) (hv12 ⟨0, by norm_num⟩ slices_S16_o0_S1 (by omega)) (hfS _) g0) $$ [Ht0 Hr0 HB]
  · isplitl [Ht0]; · iexact Ht0
    isplitl [Hr0]; · iexact Hr0
    iexact HB
  iintro HB
  iapply (Entails.of_eq (wp_assume_of _ _ _ _ (chk_words (hfS _) (hv10 ⟨1, by norm_num⟩ slices_S16_o1_S1 (by omega)) (hv12 ⟨1, by norm_num⟩ slices_S16_o1_S1 (by omega)))).symm)
  iapply (issue_one m d L fS _ ((16 * k.val + 0) + 1) (16 * k.val + 0 + 1) rfl (by omega) _ _ (k0_off7_eq k 0) _ _ _ _ rfl (hv10 ⟨1, by norm_num⟩ slices_S16_o1_S1 (by omega)) (hv12 ⟨1, by norm_num⟩ slices_S16_o1_S1 (by omega)) (hfS _) g1) $$ [Ht1 Hr1 HB]
  · isplitl [Ht1]; · iexact Ht1
    isplitl [Hr1]; · iexact Hr1
    iexact HB
  iintro HB
  iapply (Entails.of_eq (wp_assume_of _ _ _ _ (chk_words (hfS _) (hv10 ⟨2, by norm_num⟩ slices_S16_o2_S1 (by omega)) (hv12 ⟨2, by norm_num⟩ slices_S16_o2_S1 (by omega)))).symm)
  iapply Hk $$ %_ %⟨⟨hv10, hv12⟩, (hv10 ⟨2, by norm_num⟩ slices_S16_o2_S1 (by omega)), (hv12 ⟨2, by norm_num⟩ slices_S16_o2_S1 (by omega))⟩ [Hs HB]
  isplitl [Hs]; · iexact Hs
  iexact HB

set_option maxHeartbeats 400000 in
/-- Part 2 of a trip: the row copy of lane 2 started (its check passed before), lanes 3 and 4 checked and started, lane 5 checked. -/
theorem part2_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk6 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 2), by omega⟩))) (heB : eB = subW (fS (ix1 ⟨(16 * k.val + 0 + 2), by omega⟩)))
    (hwe : k0_chk3 eA eB) (hwa : k0_chk6 (extractAt ![0] (k0_pay16 v10) inpos_S1_p0) (extractAt ![0] (k0_pay17 v12) inpos_S1_p0)) :
    iprop(batch m d L fS (16 * k.val + 2) 0
        ∗ rowF d L ⟨16 * k.val + 2, by omega⟩ ∗ rowF d L ⟨16 * k.val + 3, by omega⟩ ∗ rowF d L ⟨16 * k.val + 4, by omega⟩
        ∗ tokF m d L q ⟨16 * k.val + 2, by omega⟩ ∗ tokF m d L q ⟨16 * k.val + 3, by omega⟩ ∗ tokF m d L q ⟨16 * k.val + 4, by omega⟩)
      ⊢ iprop((batch m d L fS (16 * k.val + 5) 0 -∗ wp frame (wpE (defs₀ (F := F)) 𝒱₀ (V d (cV L) (jV L)) none) Set.univ (kont ⟨(extractAt ![0] (k0_pay16 v10) inpos_S1_p0), (extractAt ![0] (k0_pay17 v12) inpos_S1_p0), hwa, Scalar.muli arg8 16#32, 5#32⟩) Q)
          -∗ wp frame (wpE (defs₀ (F := F)) 𝒱₀ (V d (cV L) (jV L)) none) Set.univ (k0_part2 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part2_eq_skeleton]
  unfold k0_part2_skel
  simp only [Prog.lift, Prog.bind_op, Prog.bind_ret, Prog.pure_eq_ret]
  iintro ⟨HB, ⟨%g2, Hr2⟩, ⟨%g3, Hr3⟩, ⟨%g4, Hr4⟩, Ht2, Ht3, Ht4⟩ Hk
  iapply (issue_one m d L fS _ (16 * k.val + 2) (16 * k.val + 0 + 2) rfl (by omega) _ _ (k0_off9_eq k 0) _ _ _ _ rfl heA heB (hfS _) g2) $$ [Ht2 Hr2 HB]
  · isplitl [Ht2]; · iexact Ht2
    isplitl [Hr2]; · iexact Hr2
    iexact HB
  iintro HB
  iapply (Entails.of_eq (wp_assume_of _ _ _ _ (chk_words (hfS _) (hv10 ⟨3, by norm_num⟩ slices_S16_o3_S1 (by omega)) (hv12 ⟨3, by norm_num⟩ slices_S16_o3_S1 (by omega)))).symm)
  iapply (issue_one m d L fS _ ((16 * k.val + 0 + 2) + 1) (16 * k.val + 0 + 3) rfl (by omega) _ _ (k0_off11_eq k 0) _ _ _ _ rfl (hv10 ⟨3, by norm_num⟩ slices_S16_o3_S1 (by omega)) (hv12 ⟨3, by norm_num⟩ slices_S16_o3_S1 (by omega)) (hfS _) g3) $$ [Ht3 Hr3 HB]
  · isplitl [Ht3]; · iexact Ht3
    isplitl [Hr3]; · iexact Hr3
    iexact HB
  iintro HB
  iapply (Entails.of_eq (wp_assume_of _ _ _ _ (chk_words (hfS _) (hv10 ⟨4, by norm_num⟩ slices_S16_o4_S1 (by omega)) (hv12 ⟨4, by norm_num⟩ slices_S16_o4_S1 (by omega)))).symm)
  iapply (issue_one m d L fS _ ((16 * k.val + 0 + 3) + 1) (16 * k.val + 0 + 4) rfl (by omega) _ _ (k0_off13_eq k 0) _ _ _ _ rfl (hv10 ⟨4, by norm_num⟩ slices_S16_o4_S1 (by omega)) (hv12 ⟨4, by norm_num⟩ slices_S16_o4_S1 (by omega)) (hfS _) g4) $$ [Ht4 Hr4 HB]
  · isplitl [Ht4]; · iexact Ht4
    isplitl [Hr4]; · iexact Hr4
    iexact HB
  iintro HB
  iapply (Entails.of_eq (wp_assume_of _ _ _ _ hwa).symm)
  iapply Hk
  iexact HB

set_option maxHeartbeats 400000 in
/-- Part 3 of a trip: the row copy of lane 5 started (its check passed before), lanes 6 and 7 checked and started, lane 8 checked. -/
theorem part3_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk9 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 5), by omega⟩))) (heB : eB = subW (fS (ix1 ⟨(16 * k.val + 0 + 5), by omega⟩)))
    (hwe : k0_chk6 eA eB) (hwa : k0_chk9 (extractAt ![0] (k0_pay22 v10) inpos_S1_p0) (extractAt ![0] (k0_pay23 v12) inpos_S1_p0)) :
    iprop(batch m d L fS (16 * k.val + 5) 0
        ∗ rowF d L ⟨16 * k.val + 5, by omega⟩ ∗ rowF d L ⟨16 * k.val + 6, by omega⟩ ∗ rowF d L ⟨16 * k.val + 7, by omega⟩
        ∗ tokF m d L q ⟨16 * k.val + 5, by omega⟩ ∗ tokF m d L q ⟨16 * k.val + 6, by omega⟩ ∗ tokF m d L q ⟨16 * k.val + 7, by omega⟩)
      ⊢ iprop((batch m d L fS (16 * k.val + 8) 0 -∗ wp frame (wpE (defs₀ (F := F)) 𝒱₀ (V d (cV L) (jV L)) none) Set.univ (kont ⟨(extractAt ![0] (k0_pay22 v10) inpos_S1_p0), (extractAt ![0] (k0_pay23 v12) inpos_S1_p0), hwa, Scalar.muli arg8 16#32, 8#32⟩) Q)
          -∗ wp frame (wpE (defs₀ (F := F)) 𝒱₀ (V d (cV L) (jV L)) none) Set.univ (k0_part3 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part3_eq_skeleton]
  unfold k0_part3_skel
  simp only [Prog.lift, Prog.bind_op, Prog.bind_ret, Prog.pure_eq_ret]
  iintro ⟨HB, ⟨%g5, Hr5⟩, ⟨%g6, Hr6⟩, ⟨%g7, Hr7⟩, Ht5, Ht6, Ht7⟩ Hk
  iapply (issue_one m d L fS _ (16 * k.val + 5) (16 * k.val + 0 + 5) rfl (by omega) _ _ (k0_off15_eq k 0) _ _ _ _ rfl heA heB (hfS _) g5) $$ [Ht5 Hr5 HB]
  · isplitl [Ht5]; · iexact Ht5
    isplitl [Hr5]; · iexact Hr5
    iexact HB
  iintro HB
  iapply (Entails.of_eq (wp_assume_of _ _ _ _ (chk_words (hfS _) (hv10 ⟨6, by norm_num⟩ slices_S16_o6_S1 (by omega)) (hv12 ⟨6, by norm_num⟩ slices_S16_o6_S1 (by omega)))).symm)
  iapply (issue_one m d L fS _ ((16 * k.val + 0 + 5) + 1) (16 * k.val + 0 + 6) rfl (by omega) _ _ (k0_off17_eq k 0) _ _ _ _ rfl (hv10 ⟨6, by norm_num⟩ slices_S16_o6_S1 (by omega)) (hv12 ⟨6, by norm_num⟩ slices_S16_o6_S1 (by omega)) (hfS _) g6) $$ [Ht6 Hr6 HB]
  · isplitl [Ht6]; · iexact Ht6
    isplitl [Hr6]; · iexact Hr6
    iexact HB
  iintro HB
  iapply (Entails.of_eq (wp_assume_of _ _ _ _ (chk_words (hfS _) (hv10 ⟨7, by norm_num⟩ slices_S16_o7_S1 (by omega)) (hv12 ⟨7, by norm_num⟩ slices_S16_o7_S1 (by omega)))).symm)
  iapply (issue_one m d L fS _ ((16 * k.val + 0 + 6) + 1) (16 * k.val + 0 + 7) rfl (by omega) _ _ (k0_off19_eq k 0) _ _ _ _ rfl (hv10 ⟨7, by norm_num⟩ slices_S16_o7_S1 (by omega)) (hv12 ⟨7, by norm_num⟩ slices_S16_o7_S1 (by omega)) (hfS _) g7) $$ [Ht7 Hr7 HB]
  · isplitl [Ht7]; · iexact Ht7
    isplitl [Hr7]; · iexact Hr7
    iexact HB
  iintro HB
  iapply (Entails.of_eq (wp_assume_of _ _ _ _ hwa).symm)
  iapply Hk
  iexact HB

set_option maxHeartbeats 400000 in
/-- Part 4 of a trip: the row copy of lane 8 started (its check passed before), lanes 9 and 10 checked and started, lane 11 checked. -/
theorem part4_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk12 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 8), by omega⟩))) (heB : eB = subW (fS (ix1 ⟨(16 * k.val + 0 + 8), by omega⟩)))
    (hwe : k0_chk9 eA eB) (hwa : k0_chk12 (extractAt ![0] (k0_pay28 v10) inpos_S1_p0) (extractAt ![0] (k0_pay29 v12) inpos_S1_p0)) :
    iprop(batch m d L fS (16 * k.val + 8) 0
        ∗ rowF d L ⟨16 * k.val + 8, by omega⟩ ∗ rowF d L ⟨16 * k.val + 9, by omega⟩ ∗ rowF d L ⟨16 * k.val + 10, by omega⟩
        ∗ tokF m d L q ⟨16 * k.val + 8, by omega⟩ ∗ tokF m d L q ⟨16 * k.val + 9, by omega⟩ ∗ tokF m d L q ⟨16 * k.val + 10, by omega⟩)
      ⊢ iprop((batch m d L fS (16 * k.val + 11) 0 -∗ wp frame (wpE (defs₀ (F := F)) 𝒱₀ (V d (cV L) (jV L)) none) Set.univ (kont ⟨(extractAt ![0] (k0_pay28 v10) inpos_S1_p0), (extractAt ![0] (k0_pay29 v12) inpos_S1_p0), hwa, Scalar.muli arg8 16#32, 11#32⟩) Q)
          -∗ wp frame (wpE (defs₀ (F := F)) 𝒱₀ (V d (cV L) (jV L)) none) Set.univ (k0_part4 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part4_eq_skeleton]
  unfold k0_part4_skel
  simp only [Prog.lift, Prog.bind_op, Prog.bind_ret, Prog.pure_eq_ret]
  iintro ⟨HB, ⟨%g8, Hr8⟩, ⟨%g9, Hr9⟩, ⟨%g10, Hr10⟩, Ht8, Ht9, Ht10⟩ Hk
  iapply (issue_one m d L fS _ (16 * k.val + 8) (16 * k.val + 0 + 8) rfl (by omega) _ _ (k0_off21_eq k 0) _ _ _ _ rfl heA heB (hfS _) g8) $$ [Ht8 Hr8 HB]
  · isplitl [Ht8]; · iexact Ht8
    isplitl [Hr8]; · iexact Hr8
    iexact HB
  iintro HB
  iapply (Entails.of_eq (wp_assume_of _ _ _ _ (chk_words (hfS _) (hv10 ⟨9, by norm_num⟩ slices_S16_o9_S1 (by omega)) (hv12 ⟨9, by norm_num⟩ slices_S16_o9_S1 (by omega)))).symm)
  iapply (issue_one m d L fS _ ((16 * k.val + 0 + 8) + 1) (16 * k.val + 0 + 9) rfl (by omega) _ _ (k0_off23_eq k 0) _ _ _ _ rfl (hv10 ⟨9, by norm_num⟩ slices_S16_o9_S1 (by omega)) (hv12 ⟨9, by norm_num⟩ slices_S16_o9_S1 (by omega)) (hfS _) g9) $$ [Ht9 Hr9 HB]
  · isplitl [Ht9]; · iexact Ht9
    isplitl [Hr9]; · iexact Hr9
    iexact HB
  iintro HB
  iapply (Entails.of_eq (wp_assume_of _ _ _ _ (chk_words (hfS _) (hv10 ⟨10, by norm_num⟩ slices_S16_o10_S1 (by omega)) (hv12 ⟨10, by norm_num⟩ slices_S16_o10_S1 (by omega)))).symm)
  iapply (issue_one m d L fS _ ((16 * k.val + 0 + 9) + 1) (16 * k.val + 0 + 10) rfl (by omega) _ _ (k0_off25_eq k 0) _ _ _ _ rfl (hv10 ⟨10, by norm_num⟩ slices_S16_o10_S1 (by omega)) (hv12 ⟨10, by norm_num⟩ slices_S16_o10_S1 (by omega)) (hfS _) g10) $$ [Ht10 Hr10 HB]
  · isplitl [Ht10]; · iexact Ht10
    isplitl [Hr10]; · iexact Hr10
    iexact HB
  iintro HB
  iapply (Entails.of_eq (wp_assume_of _ _ _ _ hwa).symm)
  iapply Hk
  iexact HB

set_option maxHeartbeats 400000 in
/-- Part 5 of a trip: the row copy of lane 11 started (its check passed before), lanes 12 and 13 checked and started, lane 14 checked. -/
theorem part5_step {α : Type} (fS : S512.Idx → BitVec 32) (hfS : ∀ t : Fin 512, (fS (ix1 t)).toNat ≤ 999999) (q : PosShare TreeShare)
    (k : Fin k0_t1_loop.trips) (hk : k.val < 32)
    (kont : (Σ' (vA : BitVec 32) (vB : BitVec 32) (_ : k0_chk15 vA vB) (_ : BitVec 32), BitVec 32) → Prog (TpuEff nD τ sig (Elt F) Λ₀ (.scVector (cV L) (jV L))) α) (Q : α → sProp 𝕄) (arg8 vMul cc : BitVec 32)
    (v10 v12 : IVec S16 32) (hv10 : ∀ (u : Fin 16) (h : S16.Slices ![u.val] S1) (hlt : 16 * k.val + u.val < 512),
      extractAt ![0] (extractStridedSlice S1 ![u.val] v10 h) inpos_S1_p0 = blkW (fS (ix1 ⟨16 * k.val + u.val, hlt⟩)))
    (hv12 : ∀ (u : Fin 16) (h : S16.Slices ![u.val] S1) (hlt : 16 * k.val + u.val < 512),
      extractAt ![0] (extractStridedSlice S1 ![u.val] v12 h) inpos_S1_p0 = subW (fS (ix1 ⟨16 * k.val + u.val, hlt⟩)))
    (eA eB : BitVec 32) (heA : eA = blkW (fS (ix1 ⟨(16 * k.val + 0 + 11), by omega⟩))) (heB : eB = subW (fS (ix1 ⟨(16 * k.val + 0 + 11), by omega⟩)))
    (hwe : k0_chk12 eA eB) (hwa : k0_chk15 (extractAt ![0] (k0_pay34 v10) inpos_S1_p0) (extractAt ![0] (k0_pay35 v12) inpos_S1_p0)) :
    iprop(batch m d L fS (16 * k.val + 11) 0
        ∗ rowF d L ⟨16 * k.val + 11, by omega⟩ ∗ rowF d L ⟨16 * k.val + 12, by omega⟩ ∗ rowF d L ⟨16 * k.val + 13, by omega⟩
        ∗ tokF m d L q ⟨16 * k.val + 11, by omega⟩ ∗ tokF m d L q ⟨16 * k.val + 12, by omega⟩ ∗ tokF m d L q ⟨16 * k.val + 13, by omega⟩)
      ⊢ iprop((batch m d L fS (16 * k.val + 14) 0 -∗ wp frame (wpE (defs₀ (F := F)) 𝒱₀ (V d (cV L) (jV L)) none) Set.univ (kont ⟨(extractAt ![0] (k0_pay34 v10) inpos_S1_p0), (extractAt ![0] (k0_pay35 v12) inpos_S1_p0), hwa, Scalar.muli arg8 16#32, 14#32⟩) Q)
          -∗ wp frame (wpE (defs₀ (F := F)) 𝒱₀ (V d (cV L) (jV L)) none) Set.univ (k0_part5 L iW (Memref.isWhole_whole _) tW (Memref.isWhole_whole _) oW (Memref.isWhole_whole _) sI (Memref.isWhole_whole _) sR (Memref.isWhole_whole _) cc0_scratch2 cc0_scoped0 cc0_scoped1 k arg8 v10 v12 eA eB hwe vMul cc >>= kont) Q) := by
  simp only [k0_part5_eq_skeleton]
  unfold k0_part5_skel
  simp only [Prog.lift, Prog.bind_op, Prog.bind_ret, Prog.pure_eq_ret]
  iintro ⟨HB, ⟨%g11, Hr11⟩, ⟨%g12, Hr12⟩, ⟨%g13, Hr13⟩, Ht11, Ht12, Ht13⟩ Hk
  iapply (issue_one m d L fS _ (16 * k.val + 11) (16 * k.val + 0 + 11) rfl (by omega) _ _ (k0_off27_eq k 0) _ _ _ _ rfl heA heB (hfS _) g11) $$ [Ht11 Hr11 HB]
  · isplitl [Ht11]; · iexact Ht11
    isplitl [Hr11]; · iexact Hr11
    iexact HB
  iintro HB
  iapply (Entails.of_eq (wp_assume_of _ _ _ _ (chk_words (hfS _) (hv10 ⟨12, by norm_num⟩ slices_S16_o12_S1 (by omega)) (hv12 ⟨12, by norm_num⟩ slices_S16_o12_S1 (by omega)))).symm)
  iapply (issue_one m d L fS _ ((16 * k.val + 0 + 11) + 1) (16 * k.val + 0 + 12) rfl (by omega) _ _ (k0_off29_eq k 0) _ _ _ _ rfl (hv10 ⟨12, by norm_num⟩ slices_S16_o12_S1 (by omega)) (hv12 ⟨12, by norm_num⟩ slices_S16_o12_S1 (by omega)) (hfS _) g12) $$ [Ht12 Hr12 HB]
  · isplitl [Ht12]; · iexact Ht12
    isplitl [Hr12]; · iexact Hr12
    iexact HB
  iintro HB
  iapply (Entails.of_eq (wp_assume_of _ _ _ _ (chk_words (hfS _) (hv10 ⟨13, by norm_num⟩ slices_S16_o13_S1 (by omega)) (hv12 ⟨13, by norm_num⟩ slices_S16_o13_S1 (by omega)))).symm)
  iapply (issue_one m d L fS _ ((16 * k.val + 0 + 12) + 1) (16 * k.val + 0 + 13) rfl (by omega) _ _ (k0_off31_eq k 0) _ _ _ _ rfl (hv10 ⟨13, by norm_num⟩ slices_S16_o13_S1 (by omega)) (hv12 ⟨13, by norm_num⟩ slices_S16_o13_S1 (by omega)) (hfS _) g13) $$ [Ht13 Hr13 HB]
  · isplitl [Ht13]; · iexact Ht13
    isplitl [Hr13]; · iexact Hr13
    iexact HB
  iintro HB
  iapply (Entails.of_eq (wp_assume_of _ _ _ _ hwa).symm)
  iapply Hk
  iexact HB

set_option maxHeartbeats 800000 in
/-- ONE TRIP at a symbolic `k`: the chunk loaded, and per lane the check passed and the row copy started. -/
theorem issue_step (fS : S512.Idx → BitVec 32) (hfS : ∀ t : Fin 512, (fS (ix1 t)).toNat ≤ 999999) (q : PosShare TreeShare)
    (k : Fin k0_t1_loop.trips) (acc : Unit) :
    issueInv m d L fS q k acc ⊢ wp frame (wpE (defs₀ (F := F)) 𝒱₀ (V d (cV L) (jV L)) none) Set.univ
      (k0_t1_body L iW (Memref.isWhole_whole _) tW (Memref.isWhole_whole _) oW (Memref.isWhole_whole _)
        sI (Memref.isWhole_whole _) sR (Memref.isWhole_whole _) cc0_scratch2 cc0_scoped0 cc0_scoped1 k acc)
      (issueInv m d L fS q (k.val + 1)) := by
  have hk : k.val < 32 := lt_of_lt_of_le k.isLt trips1_le
  unfold issueInv
  rw [take16 (rowF d L) (16 * k.val) (by omega), take16 (tokF m d L q) (16 * k.val) (by omega),
    show 16 * (k.val + 1) = 16 * k.val + 16 by omega]
  unfold k0_t1_body
  simp only [Prog.lift, Prog.bind_op, Prog.bind_ret, Prog.pure_eq_ret]
  iintro ⟨Hs, HB, ⟨Hr0, Hr1, Hr2, Hr3, Hr4, Hr5, Hr6, Hr7, Hr8, Hr9, Hr10, Hr11, Hr12, Hr13, Hr14, Hr15, Hrs⟩, ⟨Ht0, Ht1, Ht2, Ht3, Ht4, Ht5, Ht6, Ht7, Ht8, Ht9, Ht10, Ht11, Ht12, Ht13, Ht14, Ht15, Hts⟩⟩
  -- part 1: the chunk's load, lanes 0 and 1, lane 2's check
  iapply (part1_step m d L fS hfS q k hk _ _) $$ [Hs HB Hr0 Hr1 Ht0 Ht1]
  · isplitl [Hs]; · iexact Hs
    isplitl [HB]; · iexact HB
    isplitl [Hr0]; · iexact Hr0
    isplitl [Hr1]; · iexact Hr1
    isplitl [Ht0]; · iexact Ht0
    iexact Ht1
  iintro %t %ht ⟨Hs, HB⟩
  obtain ⟨arg8, v10, v12, aA, aB, hw2, vMul, cc⟩ := t
  obtain ⟨⟨h10, h12⟩, hA2, hB2⟩ := ht
  -- part 2: lane 2's copy, lanes 3 and 4, lane 5's check
  have hw5 : k0_chk6 (extractAt ![0] (k0_pay16 v10) inpos_S1_p0) (extractAt ![0] (k0_pay17 v12) inpos_S1_p0) :=
    chk_words (hfS _) (h10 ⟨5, by norm_num⟩ slices_S16_o5_S1 (by omega)) (h12 ⟨5, by norm_num⟩ slices_S16_o5_S1 (by omega))
  iapply (part2_step m d L fS hfS q k hk _ _ _ _ _ v10 v12 h10 h12 _ _ hA2 hB2 hw2 hw5) $$ [HB Hr2 Hr3 Hr4 Ht2 Ht3 Ht4]
  · isplitl [HB]; · iexact HB
    isplitl [Hr2]; · iexact Hr2
    isplitl [Hr3]; · iexact Hr3
    isplitl [Hr4]; · iexact Hr4
    isplitl [Ht2]; · iexact Ht2
    isplitl [Ht3]; · iexact Ht3
    iexact Ht4
  iintro HB
  -- part 3: lane 5's copy, lanes 6 and 7, lane 8's check
  have hw8 : k0_chk9 (extractAt ![0] (k0_pay22 v10) inpos_S1_p0) (extractAt ![0] (k0_pay23 v12) inpos_S1_p0) :=
    chk_words (hfS _) (h10 ⟨8, by norm_num⟩ slices_S16_o8_S1 (by omega)) (h12 ⟨8, by norm_num⟩ slices_S16_o8_S1 (by omega))
  iapply (part3_step m d L fS hfS q k hk _ _ _ _ _ v10 v12 h10 h12 _ _ (h10 ⟨5, by norm_num⟩ slices_S16_o5_S1 (by omega)) (h12 ⟨5, by norm_num⟩ slices_S16_o5_S1 (by omega)) hw5 hw8) $$ [HB Hr5 Hr6 Hr7 Ht5 Ht6 Ht7]
  · isplitl [HB]; · iexact HB
    isplitl [Hr5]; · iexact Hr5
    isplitl [Hr6]; · iexact Hr6
    isplitl [Hr7]; · iexact Hr7
    isplitl [Ht5]; · iexact Ht5
    isplitl [Ht6]; · iexact Ht6
    iexact Ht7
  iintro HB
  -- part 4: lane 8's copy, lanes 9 and 10, lane 11's check
  have hw11 : k0_chk12 (extractAt ![0] (k0_pay28 v10) inpos_S1_p0) (extractAt ![0] (k0_pay29 v12) inpos_S1_p0) :=
    chk_words (hfS _) (h10 ⟨11, by norm_num⟩ slices_S16_o11_S1 (by omega)) (h12 ⟨11, by norm_num⟩ slices_S16_o11_S1 (by omega))
  iapply (part4_step m d L fS hfS q k hk _ _ _ _ _ v10 v12 h10 h12 _ _ (h10 ⟨8, by norm_num⟩ slices_S16_o8_S1 (by omega)) (h12 ⟨8, by norm_num⟩ slices_S16_o8_S1 (by omega)) hw8 hw11) $$ [HB Hr8 Hr9 Hr10 Ht8 Ht9 Ht10]
  · isplitl [HB]; · iexact HB
    isplitl [Hr8]; · iexact Hr8
    isplitl [Hr9]; · iexact Hr9
    isplitl [Hr10]; · iexact Hr10
    isplitl [Ht8]; · iexact Ht8
    isplitl [Ht9]; · iexact Ht9
    iexact Ht10
  iintro HB
  -- part 5: lane 11's copy, lanes 12 and 13, lane 14's check
  have hw14 : k0_chk15 (extractAt ![0] (k0_pay34 v10) inpos_S1_p0) (extractAt ![0] (k0_pay35 v12) inpos_S1_p0) :=
    chk_words (hfS _) (h10 ⟨14, by norm_num⟩ slices_S16_o14_S1 (by omega)) (h12 ⟨14, by norm_num⟩ slices_S16_o14_S1 (by omega))
  iapply (part5_step m d L fS hfS q k hk _ _ _ _ _ v10 v12 h10 h12 _ _ (h10 ⟨11, by norm_num⟩ slices_S16_o11_S1 (by omega)) (h12 ⟨11, by norm_num⟩ slices_S16_o11_S1 (by omega)) hw11 hw14) $$ [HB Hr11 Hr12 Hr13 Ht11 Ht12 Ht13]
  · isplitl [HB]; · iexact HB
    isplitl [Hr11]; · iexact Hr11
    isplitl [Hr12]; · iexact Hr12
    isplitl [Hr13]; · iexact Hr13
    isplitl [Ht11]; · iexact Ht11
    isplitl [Ht12]; · iexact Ht12
    iexact Ht13
  iintro HB
  -- the tail: lane 14's copy, lane 15
  icases Hr14 with ⟨%g14, Hr14⟩
  icases Hr15 with ⟨%g15, Hr15⟩
  iapply (issue_one m d L fS _ (16 * k.val + 14) (16 * k.val + 0 + 14) rfl (by omega) _ _ (k0_off33_eq k 0) _ _ _ _ rfl (h10 ⟨14, by norm_num⟩ slices_S16_o14_S1 (by omega)) (h12 ⟨14, by norm_num⟩ slices_S16_o14_S1 (by omega)) (hfS _) g14) $$ [Ht14 Hr14 HB]
  · isplitl [Ht14]; · iexact Ht14
    isplitl [Hr14]; · iexact Hr14
    iexact HB
  iintro HB
  iapply (Entails.of_eq (wp_assume_of _ _ _ _ (chk_words (hfS _) (h10 ⟨15, by norm_num⟩ slices_S16_o15_S1 (by omega)) (h12 ⟨15, by norm_num⟩ slices_S16_o15_S1 (by omega)))).symm)
  iapply (issue_one m d L fS _ ((16 * k.val + 0 + 14) + 1) (16 * k.val + 15) rfl (by omega) _ _ (k0_off35_eq k) _ _ _ _ rfl (h10 ⟨15, by norm_num⟩ slices_S16_o15_S1 (by omega)) (h12 ⟨15, by norm_num⟩ slices_S16_o15_S1 (by omega)) (hfS _) g15) $$ [Ht15 Hr15 HB]
  · isplitl [Ht15]; · iexact Ht15
    isplitl [Hr15]; · iexact Hr15
    iexact HB
  iintro HB
  sl_step
  isplitl [Hs]; · iexact Hs
  isplitl [HB]; · iexact HB
  isplitl [Hrs]; · iexact Hrs
  iexact Hts

end Tile

end Cert.Proof.KB

end
-- ==== Proof.TileTopKB.lean ====
/-
  A vector subcore's whole task, and the launch theorem's obligation for it.

  The task: fetch the subcore's 512 entries of the index list into the index scratch (one copy, waited for); start 512
  row copies on one semaphore, copy `t` out of the slice of the reshaped table the two words of entry `t` address into
  row `t` of the row scratch; wait 512 times for one row's worth each; write the row scratch out to the subcore's 512
  rows of the result (one copy, waited for).

  The 512 row copies are a batch on one cell: the deliveries are fixed when the batch is allocated (row `t` at the
  landed contents), each issue spends one read token of the reshaped table and one row of the scratch, the first 511
  waits hand nothing back and the last hands back the cell at zero and every delivery; the rows, pairwise disjoint and
  covering the scratch, join to the scratch whole at the landed contents, and writing those over the subcore's rows of
  the result leaves there the table's rows the entries name.  Every wait is recorded at index `none`.
-/
import proofs.«201881_g28561532518853_retrytranche2_526_24_alg».proof.Proof.TileKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iW" => (Memref.whole Cert.Kernel.main_arg0_scv : Memref Cert.Kernel.sig Kind.scVector Space.hbm Cert.Kernel.S16384 EltTy.i32)
local notation "tW" => (Memref.whole Cert.Kernel.main_v0_scv : Memref Cert.Kernel.sig Kind.scVector Space.hbm Cert.Kernel.S125000x8x64 EltTy.f32)
local notation "oW" => (Memref.whole Cert.Kernel.main_v1_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

variable [FloatOps F]

section Tile

variable (d : Dev nD) (L : grid0.Coords)

omit [FloatOps F] in
/-- The row scratch whole is its 512 rows. -/
theorem rows_split (f : S512x64.Idx → F .f32) :
    ((V d (cV L) (jV L)).loc cc0_scratch1 ↦{fullShare} f : sProp 𝕄)
      = bigSep Finset.univ fun t : Fin 512 => ((V d (cV L) (jV L)).loc cc0_scratch1 ↦[rowSet t]{fullShare} f : sProp 𝕄) := by
  rw [← pointsTo_biUnion Finset.univ (ℓ := (V d (cV L) (jV L)).loc cc0_scratch1) rowSet rowSet_disjoint, rowSet_cover]; try rfl

omit [FloatOps F] in
/-- Held whole, the row scratch is held row by row, each row at some contents. -/
theorem rows_take (f : S512x64.Idx → F .f32) :
    ((V d (cV L) (jV L)).loc cc0_scratch1 ↦{fullShare} f : sProp 𝕄) ⊢ bigSep (Ring.rangeSet 512 0 512) (rowF (F := F) d L) := by
  have h : ∀ t : Fin 512, ((V d (cV L) (jV L)).loc cc0_scratch1 ↦[rowSet t]{fullShare} f : sProp 𝕄) ⊢ rowF (F := F) d L t := by
    intro t
    iintro H
    iexists f
    iexact H
  rw [rows_split, Ring.rangeSet_univ]
  exact bigSep_mono fun t _ => h t

omit [FloatOps F] in
/-- One row copy's credit is positive. -/
theorem NR_pos : 0 < NR := View.dmaCredit_pos _ (by decide)

omit [FloatOps F] in
theorem trips1_eq : k0_t1_loop.trips = 32 := by decide
omit [FloatOps F] in
theorem trips2_eq : k0_t2_loop.trips = 512 := by decide

/-- The write-out as the run states it — one write through the whole slice — leaves on the subcore's rows of the
    result what the result holds at the end: at the element under `x` of the slice both this write and the plain one put
    the row scratch's element `x`. -/
theorem out_value' (hpre : PreOK m) (fo : S16384x64.Idx → F .f32) (W2 : S512x64.Idx → F .f32)
    (hW2 : ∀ x, W2 x = landed (fetched m d L) (tbl3 m d) x) :
    ∀ y ∈ (oSl L).view.set, (oSl L).view.writes (Elt F) fo [⟨Rect.whole S512x64, W2⟩] y = gath m d y := by
  intro y hy
  obtain ⟨x, -, hx⟩ := Finset.mem_map.1 hy
  have hR : (Rect.whole S512x64).emb x = x := by
    funext a
    refine Fin.ext ?_
    show 0 + 1 * (x a).val = (x a).val
    omega
  have hx' : ((oSl L).view.slice (Rect.whole S512x64)).emb x = y := (congrArg (oSl L).view.emb hR).trans hx
  have h1 : (oSl L).view.writes (Elt F) fo [⟨Rect.whole S512x64, W2⟩] y = W2 x := by
    rw [← hx']
    exact View.write_emb_of_mem (v := (oSl L).view.slice (Rect.whole S512x64)) (Val := Elt F) fo W2 (Finset.mem_univ x)
  have h2 := out_value m hpre d L fo y hy
  have h3 : (oSl L).view.write (Elt F) fo ((Memref.whole cc0_scratch1 : Memref sig .scVector .vmem S512x64 .f32).view.read (Elt F)
      (landed (fetched m d L) (tbl3 m d))) Finset.univ y = landed (fetched m d L) (tbl3 m d) x := by
    rw [← hx]
    exact View.write_emb_of_mem (v := (oSl L).view) (Val := Elt F) fo _ (Finset.mem_univ x)
  exact h1.trans ((hW2 x).trans (h3.symm.trans h2))

/-- Before trip `k` of the drain loop: `k ≤ 512`; the waits so far recorded, all at index `none`; the evidence for the
    waits; and either (`k < 512`) the batch with `k` copies' units consumed, or (after the last wait) the batch's cell
    back at zero and every row's delivery. -/
def drainInv (O : CellTallies nD τ sig (HIx 1)) (W : Waits sig (HIx 1)) (fS : S512.Idx → BitVec 32) (k : ℕ) (_ : Unit) : sProp 𝕄 :=
  iprop(⌜k ≤ 512⌝ ∗ (∃ W', ⌜∀ p ∈ W', p ∈ W ∨ p.2 = none⌝ ∗ owes (V d (cV L) (jV L)) O W')
    ∗ Transfers.MayWaits (V d (cV L) (jV L)) (none : HIx 1) O
    ∗ (if k < 512 then batch m d L fS 512 (k * NR)
       else iprop(semVal (cBatch d (cV L) (jV L)) 0 ∗ bigSep Finset.univ (Dl m d L fS))))

set_option maxHeartbeats 1000000 in
/-- ONE TRIP at a symbolic `k`, by cases: `k + 1 < 512` — a wait short of the last, which hands nothing back —, or
    `k + 1 = 512` — the last, which hands back the cell at zero and every delivery. -/
theorem drain_step (O : CellTallies nD τ sig (HIx 1)) (W : Waits sig (HIx 1)) (fS : S512.Idx → BitVec 32)
    (k : Fin k0_t2_loop.trips) (acc : Unit) :
    drainInv m d L O W fS k acc ⊢ wp frame (wpE (defs₀ (F := F)) 𝒱₀ (V d (cV L) (jV L)) none) Set.univ
      (k0_t2_body L iW (Memref.isWhole_whole _) tW (Memref.isWhole_whole _) oW (Memref.isWhole_whole _)
        sI (Memref.isWhole_whole _) sR (Memref.isWhole_whole _) cc0_scratch2 cc0_scoped0 cc0_scoped1 k acc)
      (drainInv m d L O W fS (k.val + 1)) := by
  have hk : k.val < 512 := lt_of_lt_of_eq k.isLt trips2_eq
  have hpos : 0 < NR := NR_pos
  unfold drainInv
  simp only [if_pos hk]
  unfold k0_t2_body
  rcases Nat.lt_or_ge (k.val + 1) 512 with h1 | h1
  · simp only [if_pos h1]
    have hu : k.val * NR + NR < NR * 512 := by nlinarith
    iintro ⟨-, ⟨%W', %hW', HO⟩, #Hmw, HB⟩
    sl_exec
    sl_step
    isplitr; · ipureintro; omega
    isplitl [HO]
    · iexists (insert (SemLoc.dma cc0_scratch2.sem, (none : HIx 1)) W'); isplitr
      · ipureintro; intro p hp
        rcases Finset.mem_insert.mp hp with rfl | hp
        · exact .inr rfl
        · exact hW' p hp
      iexact HO
    isplitr; · iexact Hmw
    rw [show (k.val + 1) * NR = k.val * NR + NR from Nat.succ_mul _ _]
    iexact HB
  · simp only [if_neg (Nat.not_lt.mpr h1)]
    have hu : k.val * NR + NR = NR * 512 := by
      have : k.val + 1 = 512 := by omega
      nlinarith
    iintro ⟨-, ⟨%W', %hW', HO⟩, #Hmw, HB⟩
    sl_exec
    sl_step
    isplitr; · ipureintro; omega
    isplitl [HO]
    · iexists (insert (SemLoc.dma cc0_scratch2.sem, (none : HIx 1)) W'); isplitr
      · ipureintro; intro p hp
        rcases Finset.mem_insert.mp hp with rfl | hp
        · exact .inr rfl
        · exact hW' p hp
      iexact HO
    isplitr; · iexact Hmw
    isplitl [HB]; · iexact HB
    iexact HB_all
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (msgPts m d L ∗ outPts d L (m (oLoc d)) ∗ tblPts m d q)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iW (Memref.isWhole_whole _) tW (Memref.isWhole_whole _) oW (Memref.isWhole_whole _)
            sI (Memref.isWhole_whole _) sR (Memref.isWhole_whole _) cc0_scratch2 cc0_scoped0 cc0_scoped1)
          fun _ => iprop((msgPts m d L ∗ outPts d L (gath m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Ho, Ht⟩, ⟨⟨%fs, Hs⟩, ⟨%fr, Hr⟩, Hbufs⟩, ⟨HsemB, HsemI, HsemO, Hsems⟩, HO⟩
  ihave Hmw := ((K (F := F)).mayWaits_none (thr := V d (cV L) (jV L)) hO) $$ Hlv
  ihave Hi' := (show msgPts m d L ⊢ ((iSl L).view.loc (V d (cV L) (jV L)) ↦[(iSl L).view.set]{fullShare} m (iLoc d) : sProp 𝕄) from .rfl) $$ Hi
  ihave Hs' := (show ((V d (cV L) (jV L)).loc cc0_scratch0 ↦{fullShare} fs : sProp 𝕄) ⊢ ((sI).view.loc (V d (cV L) (jV L)) ↦{fullShare} fs : sProp 𝕄) from .rfl) $$ Hs
  sl_exec
  -- the index scratch holds the fetched entries
  have hfetch : View.write (Elt F) (sI).view fs (tile_body.sl.dma0 m d L) Finset.univ = fetched m d L := by
    rw [View.write_whole_univ]; rfl
  ihave Hs := (Entails.of_eq (congrArg (fun f => ((sI).view.loc (V d (cV L) (jV L)) ↦{fullShare} f : sProp 𝕄)) hfetch)) $$ Hs'
  -- the batch of the 512 row copies, allocated on its cell at zero
  imod (Transfers.batch_alloc' (EC (F := F)) (V d (cV L) (jV L)) (none : HIx 1) NR (Dl m d L (fetched m d L))
    (sm := .dma cc0_scratch2.sem) (E := Set.univ)) $$ HsemB with HB
  -- the read share of the reshaped table as 512 tokens (the remainder dropped)
  ihave Ht' := (show tblPts m d q ⊢ ((tW).view.loc (V d (cV L) (jV L)) ↦{q} tbl3 m d : sProp 𝕄) from .rfl) $$ Ht
  ihave Ht'' := (Transfers.pointsTo_toks_range q 512).1 $$ Ht'
  icases Ht'' with ⟨-, Htk⟩
  ihave Htoks := (Entails.of_eq (Ring.bigSep_rangeSet_eq_range (NB := 512) (lo := 0) (hi := 512)
    (Φ := tokF m d L q) le_rfl (fun i => ((tW).view.loc (V d (cV L) (jV L)) ↦{Transfers.shareTokN q i} tbl3 m d : sProp 𝕄))
    (fun k hk => by show _ = tokF m d L q ⟨0 + k, hk⟩; simp only [Nat.zero_add])).symm) $$ Htk
  -- the row scratch as its 512 rows
  ihave Hrows := (rows_take (F := F) d L fr) $$ Hr
  -- the issue loop
  sl_for (issueInv m d L (fetched m d L) q) $$ [Hs HB Hrows Htoks]
  · intro k acc; exact issue_step m d L _ (fetched_le m hpre d L) q k acc
  · unfold issueInv
    isplitl [Hs]; · iexact Hs
    isplitl [HB]; · iexact HB
    isplitl [Hrows]; · iexact Hrows
    iexact Htoks
  iintro %acc HI
  -- every row copy started: the batch at 512 issued, the index scratch back
  ihave HI' := (show issueInv m d L (fetched m d L) q (Scf.trips k0_t1_loop.lb k0_t1_loop.ub k0_t1_loop.st) acc
      ⊢ iprop(((sI).view.loc (V d (cV L) (jV L)) ↦{fullShare} fetched m d L) ∗ batch m d L (fetched m d L) 512 0) from by
    rw [show Scf.trips k0_t1_loop.lb k0_t1_loop.ub k0_t1_loop.st = 32 from trips1_eq]
    unfold issueInv
    iintro ⟨Hs, HB, -, -⟩
    isplitl [Hs]; · iexact Hs
    iexact HB) $$ HI
  icases HI' with ⟨Hs, HB⟩
  -- the drain loop
  sl_for (drainInv m d L O W (fetched m d L)) $$ [HB HO Hmw]
  · intro k acc; exact drain_step m d L O W _ k acc
  · unfold drainInv
    rw [if_pos (by norm_num : (0 : ℕ) < 512)]
    isplitr; · ipureintro; omega
    isplitl [HO]
    · iexists (insert (SemLoc.dma cc0_scoped0.sem, (none : HIx 1)) W); isplitr
      · ipureintro; intro p hp
        rcases Finset.mem_insert.mp hp with rfl | hp
        · exact .inr rfl
        · exact .inl hp
      iexact HO
    isplitr; · iexact Hmw
    rw [Nat.zero_mul]
    iexact HB
  iintro %acc2 HD
  ihave HD' := (show drainInv m d L O W (fetched m d L) (Scf.trips k0_t2_loop.lb k0_t2_loop.ub k0_t2_loop.st) acc2
      ⊢ iprop((∃ W', ⌜∀ p ∈ W', p ∈ W ∨ p.2 = none⌝ ∗ owes (V d (cV L) (jV L)) O W')
          ∗ semVal (cBatch d (cV L) (jV L)) 0 ∗ bigSep Finset.univ (Dl m d L (fetched m d L))) from by
    rw [show Scf.trips k0_t2_loop.lb k0_t2_loop.ub k0_t2_loop.st = 512 from trips2_eq]
    unfold drainInv
    rw [if_neg (Nat.lt_irrefl _)]
    iintro ⟨-, HO, -, Hc, Hall⟩
    isplitl [HO]; · iexact HO
    isplitl [Hc] <;> iassumption) $$ HD
  icases HD' with ⟨⟨%W1, %hW1, HO⟩, HsemB, Hall⟩
  -- every row landed: the row scratch whole at the landed contents
  ihave Hr := (show bigSep Finset.univ (Dl m d L (fetched m d L))
      ⊢ ((sR).view.loc (V d (cV L) (jV L)) ↦{fullShare} landed (fetched m d L) (tbl3 m d) : sProp 𝕄) from
    Entails.of_eq (rows_split (F := F) d L _).symm) $$ Hall
  ihave Ho' := (show outPts d L (m (oLoc d))
      ⊢ ((oSl L).view.loc (V d (cV L) (jV L)) ↦[(oSl L).view.set]{fullShare} m (oLoc d) : sProp 𝕄) from .rfl) $$ Ho
  -- the write-out and its wait
  sl_exec
  sl_step
  -- the entries back, the rows at the gathered contents
  isplitl [Hi' Ho']
  · isplitl [Hi']
    · iexact Hi'
    · iapply (Entails.of_eq (pointsTo_congr (out_value' m d L hpre _ _ (fun _ => rfl))))
      iexact Ho'
  -- the scoped storage back: the two scratches at some contents, the three cells at zero
  isplitl [Hs Hr Hbufs]
  · isplitl [Hs]; · iexists _; iexact Hs
    isplitl [Hr]; · iexists _; iexact Hr
    iexact Hbufs
  isplitl [HsemB HsemI HsemO Hsems]
  · isplitl [HsemB]; · iexact HsemB
    isplitl [HsemI]; · iexact HsemI
    isplitl [HsemO]; · iexact HsemO
    iexact Hsems
  -- the three kinds of wait recorded, all at index `none`
  iexists (insert (SemLoc.dma cc0_scoped1.sem, (none : HIx 1)) W1); isplitr
  · ipureintro; intro p hp
    rcases Finset.mem_insert.mp hp with rfl | hp
    · exact .inr rfl
    · exact hW1 p hp
  iexact HO

end Tile

/-! ## The launch theorem's tile obligation -/

theorem defs₀_vector (c : Fin τ.nSC) (s : Fin τ.nSub) :
    defs₀ (F := F) (.scVector c s) 0 ()
      = SparseCore.onTile hcore0 hsub0 (fun c s => cc0_gather_kernel (coordsV c s)
          iW (Memref.isWhole_whole _) tW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A vector subcore's task: from its entries of the index list, its rows of the result and its read share of the
    reshaped table, to the entries back and the rows at the gathered contents. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre
    (tileShare (Fin.cast nCore_zero c) (Fin.cast nSub_zero i)) O W hO).trans (wp_mono frame _ _ fun _ => obl_post)

end Cert.Proof.KB

end
-- ==== Proof.LaunchKI.lean ====
/-
  The launch of the gather kernel: how a core's operands split among its sixteen subcores, the launch element of the
  ghost state, @main on the TensorCore (the reshape of the table, then the one call), how the final assertion reads the
  memory, and the program's run, the subcores' task taken as a hypothesis.
-/
import proofs.«201881_g28561532518853_retrytranche2_526_24_alg».proof.Proof.SetupKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A core's operands among its subcores -/

omit [FloatOps F] in
theorem bigSep_emp' {I : Type} (s : Finset I) : (bigSep s fun _ => iprop(emp)) = (iprop(emp) : sProp 𝕄) := bigSep_emp_const s

omit [FloatOps F] in
/-- A family over the call's sixteen subcores, read over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the call's two cores, read over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share of the reshaped table goes out as sixteen read tokens, one per subcore (what is left of the share
    after the sixteen is given up); the entries and the rows are already per subcore.  Back come the subcores'
    entries and rows, which are the core's. -/
theorem vecSplit : (K (F := F)).VecSplit' (P m) 0 := by
  intro d c
  show coreSt m d (Fin.cast nCore_zero c) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ coreDn m d (Fin.cast nCore_zero c)))
  generalize Fin.cast nCore_zero c = c'
  rw [bigSep_tasks (F := F) (fun i => tileGo m d c' i), bigSep_tasks (F := F) (fun i => tileTd m d c' i)]
  unfold coreSt coreDn tileGo
  rw [bigSep_sep', bigSep_sep', bigSep_sep']
  iintro ⟨⟨Hm, Ho⟩, Ht⟩
  ihave Ht' := (Transfers.pointsTo_toks_split (coreShare c') 16) $$ Ht
  icases Ht' with ⟨-, Hts⟩
  imodintro
  isplitl [Hm Ho Hts]
  · isplitl [Hm]; · iexact Hm
    isplitl [Ho]; · iexact Ho
    iexact Hts
  iintro Htd; iexact Htd

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The subcores' pieces partition the index list and the result -/

theorem mSet_eq (L : grid0.Coords) : mSet L = (Rect.unit (s := S16384) (k0_off1 L) S512.size (k0_off1_inb L)).set :=
  View.set_slice_whole _ _
theorem oSet_eq (L : grid0.Coords) : oSet L = (Rect.unit (s := S16384x64) (k0_off36 L) S512x64.size (k0_off36_inb L)).set :=
  View.set_slice_whole _ _

/-- Subcore `s` of core `c` starts at entry `1024 s + 512 c`. -/
theorem off1_coords (c : Fin 2) (s : Fin 16) : k0_off1 (coordsV c s) = ![1024 * s.val + 512 * c.val] := k0_off1_eq _
theorem off36_coords (c : Fin 2) (s : Fin 16) : k0_off36 (coordsV c s) = ![1024 * s.val + 512 * c.val, 0] := k0_off36_eq _

/-- Two different subcores' runs of 512 do not meet: their starts are different multiples of 512. -/
theorem starts_apart {c c' : Fin 2} {s s' : Fin 16} (h : (c, s) ≠ (c', s')) :
    1024 * s.val + 512 * c.val + 512 ≤ 1024 * s'.val + 512 * c'.val ∨ 1024 * s'.val + 512 * c'.val + 512 ≤ 1024 * s.val + 512 * c.val := by
  have hne : c.val ≠ c'.val ∨ s.val ≠ s'.val := by
    by_contra hn
    have hn' := not_or.mp hn
    exact h (Prod.ext (Fin.ext (not_not.mp hn'.1)) (Fin.ext (not_not.mp hn'.2)))
  have := c.isLt; have := c'.isLt
  omega

theorem mSets_disjoint : ∀ p ∈ (Finset.univ : Finset (Fin 2 × Fin 16)), ∀ p' ∈ (Finset.univ : Finset (Fin 2 × Fin 16)), p ≠ p' →
    Disjoint (mSet (coordsV p.1 p.2)) (mSet (coordsV p'.1 p'.2)) := by
  rintro ⟨c, s⟩ - ⟨c', s'⟩ - h
  rw [mSet_eq, mSet_eq]
  refine Rect.unit_disjoint 0 ?_
  rw [off1_coords, off1_coords]
  exact starts_apart h

theorem oSets_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ - ⟨c', s'⟩ - h
  rw [oSet_eq, oSet_eq]
  refine Rect.unit_disjoint 0 ?_
  rw [off36_coords, off36_coords]
  exact starts_apart h

/-- Entry `r` lies in the run of subcore `r / 1024` of core `(r / 512) % 2`. -/
theorem mSets_cover : (Finset.univ : Finset (Fin 2 × Fin 16)).biUnion (fun p => mSet (coordsV p.1 p.2)) = Finset.univ := by
  ext i
  simp only [Finset.mem_biUnion, Finset.mem_univ, true_and, iff_true]
  have hi : (i 0).val < 16384 := (i 0).isLt
  refine ⟨(⟨(i 0).val / 512 % 2, Nat.mod_lt _ (by decide)⟩, ⟨(i 0).val / 1024, by omega⟩), ?_⟩
  rw [mSet_eq, Rect.mem_set_unit, off1_coords]
  refine Fin.forall_fin_one.mpr ?_
  show 1024 * ((i 0).val / 1024) + 512 * ((i 0).val / 512 % 2) ≤ (i 0).val
    ∧ (i 0).val < 1024 * ((i 0).val / 1024) + 512 * ((i 0).val / 512 % 2) + 512
  omega

theorem oSets_cover : (Finset.univ : Finset (Fin 2 × Fin 16)).biUnion (fun p => oSet (coordsV p.1 p.2)) = Finset.univ := by
  ext i
  simp only [Finset.mem_biUnion, Finset.mem_univ, true_and, iff_true]
  have hi : (i 0).val < 16384 := (i 0).isLt
  have hj : (i 1).val < 64 := (i 1).isLt
  refine ⟨(⟨(i 0).val / 512 % 2, Nat.mod_lt _ (by decide)⟩, ⟨(i 0).val / 1024, by omega⟩), ?_⟩
  rw [oSet_eq, Rect.mem_set_unit, off36_coords]
  refine Fin.forall_fin_two.mpr ⟨?_, ?_⟩
  · show 1024 * ((i 0).val / 1024) + 512 * ((i 0).val / 512 % 2) ≤ (i 0).val
      ∧ (i 0).val < 1024 * ((i 0).val / 1024) + 512 * ((i 0).val / 512 % 2) + 512
    omega
  · show 0 ≤ (i 1).val ∧ (i 1).val < 0 + 64
    omega

omit [FloatOps F] in
/-- An array held whole is held piece by piece, core by core and subcore by subcore, along a partition of its elements. -/
theorem pts_split {ℓ : Loc nD τ sig} (Kf : Fin 2 → Fin 16 → Finset (Idx ℓ))
    (hd : ∀ p ∈ (Finset.univ : Finset (Fin 2 × Fin 16)), ∀ p' ∈ (Finset.univ : Finset (Fin 2 × Fin 16)), p ≠ p' → Disjoint (Kf p.1 p.2) (Kf p'.1 p'.2))
    (hc : (Finset.univ : Finset (Fin 2 × Fin 16)).biUnion (fun p => Kf p.1 p.2) = Finset.univ)
    (q : PosShare TreeShare) (f : Buf (Elt F) ℓ) :
    (ℓ ↦{q} f : sProp 𝕄) = bigSep Finset.univ fun c : Fin 2 => bigSep Finset.univ fun s : Fin 16 => ℓ ↦[Kf c s]{q} f := by
  have e : (ℓ ↦[(Finset.univ : Finset (Fin 2 × Fin 16)).biUnion (fun p => Kf p.1 p.2)]{q} f : sProp 𝕄)
      = bigSep Finset.univ fun p : Fin 2 × Fin 16 => ℓ ↦[Kf p.1 p.2]{q} f :=
    pointsTo_biUnion Finset.univ (fun p : Fin 2 × Fin 16 => Kf p.1 p.2) hd
  rw [hc] at e
  rw [e, ← Finset.univ_product_univ]
  exact SparseCore.bigSep_product Finset.univ Finset.univ (fun p : Fin 2 × Fin 16 => (ℓ ↦[Kf p.1 p.2]{q} f : sProp 𝕄))

/-! ## @main on the TensorCore -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The reshape of the table. -/
abbrev opR : HloOp τ sig (Elt F) := StableHlo.reshape main_arg1 main_v0 rfl shapeCasts_S1000000x64_S125000x8x64

/-- The TensorCore's arrays, all unscoped: the index list, the table, the reshaped table, the result. -/
abbrev S4 : Finset (DevRef τ sig) := {i', x', t', o'}

omit [FloatOps F] in
theorem held_S4 (d : Dev nD) (W : Valuation τ sig (Elt F)) :
    (held (T d) S4 W : sProp 𝕄)
      = iprop((iLoc d ↦{fullShare} W i') ∗ (xLoc d ↦{fullShare} W x') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({x', t'} : Finset (DevRef τ sig)) ⊆ S4 by decide

/-- After the reshape: the reshaped table holds the table's elements in row-major order, the other arrays what they held. -/
theorem R_i (d : Dev nD) : (opR (F := F)).result (V0 m d) i' = m (iLoc d) :=
  (opR (F := F)).result_of_not_mem (V0 m d) (b := i') (show i' ∉ ({t'} : Finset (DevRef τ sig)) by decide)
theorem R_x (d : Dev nD) : (opR (F := F)).result (V0 m d) x' = m (xLoc d) :=
  (opR (F := F)).result_of_not_mem (V0 m d) (b := x') (show x' ∉ ({t'} : Finset (DevRef τ sig)) by decide)
theorem R_o (d : Dev nD) : (opR (F := F)).result (V0 m d) o' = m (oLoc d) :=
  (opR (F := F)).result_of_not_mem (V0 m d) (b := o') (show o' ∉ ({t'} : Finset (DevRef τ sig)) by decide)
theorem R_t (d : Dev nD) : (opR (F := F)).result (V0 m d) t' = tbl3 m d :=
  (StableHlo.reshape_result main_arg1 main_v0 rfl shapeCasts_S1000000x64_S125000x8x64 _ _ (V0 m d)).trans rfl

/-- What @main leaves the claim: the index list and the table at their launch contents, the result at the gathered rows. -/
abbrev FIN (d : Dev nD) : sProp 𝕄 :=
  iprop((iLoc d ↦{fullShare} m (iLoc d)) ∗ (xLoc d ↦{fullShare} m (xLoc d)) ∗ (oLoc d ↦{fullShare} gath m d))

theorem held_after (d : Dev nD) :
    (held (T d) S4 ((opR (F := F)).result (V0 m d)) : sProp 𝕄)
      = iprop((iLoc d ↦{fullShare} m (iLoc d)) ∗ (xLoc d ↦{fullShare} m (xLoc d)) ∗ (tLoc d ↦{fullShare} tbl3 m d) ∗ oLoc d ↦{fullShare} m (oLoc d)) := by
  rw [held_S4, R_i, R_x, R_t, R_o]

omit [FloatOps F] in
/-- The index list, whole, is the 32 subcores' runs of entries; -/
theorem iPts_cs (d : Dev nD) (f : Buf (Elt F) (iLoc d)) :
    (iLoc d ↦{fullShare} f : sProp 𝕄)
      = bigSep Finset.univ fun c : Fin 2 => bigSep Finset.univ fun s : Fin 16 => iLoc d ↦[mSet (coordsV c s)]{fullShare} f :=
  pts_split (ℓ := iLoc d) (fun c s => mSet (coordsV c s)) mSets_disjoint mSets_cover fullShare f
omit [FloatOps F] in
/-- the result, whole, their runs of rows. -/
theorem oPts_cs (d : Dev nD) (f : Buf (Elt F) (oLoc d)) :
    (oLoc d ↦{fullShare} f : sProp 𝕄)
      = bigSep Finset.univ fun c : Fin 2 => bigSep Finset.univ fun s : Fin 16 => oLoc d ↦[oSet (coordsV c s)]{fullShare} f :=
  pts_split (ℓ := oLoc d) (fun c s => oSet (coordsV c s)) oSets_disjoint oSets_cover fullShare f

theorem st0_eq (d : Dev nD) :
    (bigSep Finset.univ fun c : Fin ((K (F := F)).nCore 0) => (P m).st 0 d c) = bigSep Finset.univ fun c : Fin 2 => coreSt m d c :=
  bigSep_cores (F := F) (fun c => coreSt m d c)
theorem dn0_eq (d : Dev nD) :
    (bigSep Finset.univ fun c : Fin ((K (F := F)).nCore 0) => (P m).dn 0 d c) = bigSep Finset.univ fun c : Fin 2 => coreDn m d c :=
  bigSep_cores (F := F) (fun c => coreDn m d c)

/-- What the call takes: the index list and the result cut into the subcores' pieces, the reshaped table's full share
    into one read token per core (what is left of it given up). -/
theorem cores_st (d : Dev nD) :
    iprop((iLoc d ↦{fullShare} m (iLoc d)) ∗ (oLoc d ↦{fullShare} m (oLoc d)) ∗ (tLoc d ↦{fullShare} tbl3 m d))
      ⊢ (bigSep Finset.univ fun c : Fin 2 => coreSt m d c : sProp 𝕄) := by
  rw [iPts_cs d (m (iLoc d)), oPts_cs d (m (oLoc d))]
  unfold coreSt
  simp only [bigSep_sep']
  iintro ⟨Hi, Ho, Ht⟩
  ihave Hts := (Transfers.pointsTo_toks_split fullShare 2) $$ Ht
  icases Hts with ⟨-, Hts⟩
  isplitl [Hi Ho]
  · isplitl [Hi]; · iexact Hi
    iexact Ho
  iexact Hts

/-- What it brings back: the pieces, the result's all at the gathered contents, which are the two arrays whole. -/
theorem cores_dn (d : Dev nD) :
    (bigSep Finset.univ fun c : Fin 2 => coreDn m d c : sProp 𝕄)
      ⊢ iprop((iLoc d ↦{fullShare} m (iLoc d)) ∗ (oLoc d ↦{fullShare} gath m d)) := by
  rw [iPts_cs d (m (iLoc d)), oPts_cs d (gath m d)]
  unfold coreDn tileTd
  simp only [bigSep_sep']
  exact BI.Entails.refl _

/-- @main on device `d`'s TensorCore: the reshape of the table, over the four arrays held whole; then the one call, which
    takes the index list, the result and read tokens of the reshaped table, the table itself staying here; the index
    list and the table kept, the result at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_after m d)) $$ Hheld
  icases Hh with ⟨Hi, Hx, Ht, Ho⟩
  rw [wp_ret]; imodintro
  -- the call
  iapply ((K (F := F)).wp_run (D (F := F)) 𝒱 (EH := EH) (P := P m) κ d 0) $$ [Hst Hi Hx Ht Ho Hb]
  isplitr; · iexact Hctx
  isplitl [Hst]; · iexact Hst
  isplitl [Hi Ht Ho]
  · rw [st0_eq]
    iapply (cores_st m d)
    isplitl [Hi]; · iexact Hi
    isplitl [Ho]; · iexact Ho
    iexact Ht
  iintro ⟨Hst, Hdn⟩
  ihave Hdn' := (Entails.of_eq (dn0_eq m d)) $$ Hdn
  ihave Hio := (cores_dn m d) $$ Hdn'
  icases Hio with ⟨Hi, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = gath m d ∧ s'.mem.mem (iLoc d) = m (iLoc d) ∧ s'.mem.mem (xLoc d) = m (xLoc d)

/-- Held whole at the full share, an array's contents are the memory's. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gath m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result holds the gathered rows, the index list and the table what they held at the launch. -/
def QC : PUnit × MemSt nD τ sig (Elt F) → Prop := fun r =>
  ∀ c : Dev nD, r.2.mem (oLoc c) = gath m c ∧ r.2.mem (iLoc c) = m (iLoc c) ∧ r.2.mem (xLoc c) = m (xLoc c)

/-- The program runs to completion from the launch memory and ends in `QC`, given the subcores' task. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.RefRun.lean ====
/-
  The reference program's run and value.  The program is a row gather in "fill" mode: an index word is wrapped once if
  it reads negative (`select(msg < 0, msg + 1000000, msg)`), the wrapped column is tested against `[0, 999999]`, the
  test is reduced by `and` over the column's unit axis into a row mask, the rows are gathered from the table (the
  start index read signed and clamped into `[0, 999999]`), and a row whose mask is 0 is replaced by a fill constant.

  Three steps.  (1) @main, its two module-local functions unfolded at their call sites, is a straight line of 23
  operations, so every weakly fair execution terminates with each buffer at the fold of the operations over the launch
  contents; read at the result buffer, the fold is the term `out msg tbl` below, and the two argument buffers are
  unchanged.  (2) The precondition's integer conjunct is an `and`-reduction over all entries of
  `0 ≤ msg ∧ msg ≤ 999999` (signed); it equals 1, so every entry's test is 1 and every index word reads as an integer
  in `[0, 999999]`.  (3) Under that range: no word is wrapped (it is nonnegative), every in-range test is 1, so the
  mask — a left fold by `and` from 1 over ones — is 1 at every row and the select keeps the gathered element; and the
  gather at `(r, c)` reads the table at row `min (idx[r,0] as an integer, floored at 0) 999999` and column `c`, which
  is the specification's `takeRows` at `(r, c)`.
-/
import proofs.«201881_g28561532518853_retrytranche2_526_24_alg».proof.Defs
import proofs.«201881_g28561532518853_retrytranche2_526_24_alg».proof.Proof.Gen.ReferenceIdeal
import proofs.«201881_g28561532518853_retrytranche2_526_24_alg».proof.Proof.Gen.Pre_input_domain
import proofs.«201881_g28561532518853_retrytranche2_526_24_alg».proof.Proof.Spec
import Idealize.ShloMosaic.Lib.StableHlo.Run
import Idealize.ShloMosaic.Lib.ReduceAll
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- The program's 23 operations in order: the 22 of the row-take function with the wrap's one select in its place. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the two argument arrays -/

/-- The index column: each word wrapped once if negative, as a `[16384, 1]` array. -/
def idx (msg : IVec S16384 32) : IVec S16384x1 32 :=
  broadcastInDim S16384x1 ![0] bcast_S16384_S16384x1_0
    (select (cmpi .slt msg (broadcastInDim S16384 ![] bcast_S_S16384 (constantI S_ 32 0#32)))
      (addi msg (broadcastInDim S16384 ![] bcast_S_S16384 (constantI S_ 32 1000000#32))) msg)

/-- The in-range test `0 ≤ idx ≤ 999999` of the index column, entry by entry. -/
def inRange (msg : IVec S16384 32) : IVec S16384x1 1 :=
  andi (cmpi .sge (idx msg) (broadcastInDim S16384x1 ![] bcast_S_S16384x1 (constantI S_ 32 0#32)))
    (cmpi .sle (idx msg) (broadcastInDim S16384x1 ![0, 1] bcast_S1x1_S16384x1_0_1
      (broadcastInDim S1x1 ![1] bcast_S1_S1x1_1 (constantI S1 32 999999#32))))

/-- The row mask: the in-range test reduced by `and` over the unit axis. -/
def mask (msg : IVec S16384 32) : IVec S16384 1 :=
  Host.reduce IntOp.andi (inRange msg) (constantI S_ 1 1#1) reducesTo_S16384x1_S16384_d1 h_S_

/-- The program's result: the gathered rows where the mask holds, the fill constant elsewhere. -/
def out (msg : IVec S16384 32) (tbl : FVec F S1000000x64 .f32) : FVec F S16384x64 .f32 :=
  select (broadcastInDim S16384x64 ![0] bcast_S16384_S16384x64_0 (mask msg))
    (Host.gather gather_S1000000x64_S16384x1_S16384x64_1_0_n_n_0_1_164 tbl (idx msg))
    (broadcastInDim S16384x64 ![] bcast_S_S16384x64 (constant S_ .f32 0x7FC00000#32))

attribute [local irreducible] Host.reduce Host.gather in
set_option maxRecDepth 8192 in
theorem out_eq (V : Valuation τ sig (Elt F)) :
    after ops V (main_v0 : DevRef τ sig) = out (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-! ## The value, index by index -/

/-- A broadcast along axis 0 into `[16384, 1]` reads the operand at the row coordinate. -/
theorem bcast_x1_apply {α : Type} (x : S16384.Idx → α) (j : S16384x1.Idx) :
    broadcastInDim S16384x1 ![0] bcast_S16384_S16384x1_0 x j = x (ix1 (j 0)) := by
  unfold broadcastInDim
  congr 1
  funext a
  match a with
  | ⟨0, _⟩ => rfl

/-- The index column at an entry: the word, wrapped once if it reads negative. -/
theorem idx_apply (msg : IVec S16384 32) (j : S16384x1.Idx) :
    idx msg j = Scalar.select (IntOp.cmpi .slt (msg (ix1 (j 0))) 0#32) (IntOp.addi (msg (ix1 (j 0))) 1000000#32)
      (msg (ix1 (j 0))) := by
  unfold idx
  rw [bcast_x1_apply]
  rfl

/-- A word that reads nonnegative is not wrapped. -/
theorem idx_of_nonneg (msg : IVec S16384 32) (j : S16384x1.Idx) (h : 0 ≤ (msg (ix1 (j 0))).toInt) :
    idx msg j = msg (ix1 (j 0)) := by
  rw [idx_apply]
  refine if_neg fun e => ?_
  have := IntOp.cmpi_slt.1 e
  rw [show (0#32 : BitVec 32).toInt = 0 from by decide] at this
  omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Under the range hypothesis every row's mask bit is 1. -/
theorem mask_eq_one (msg : IVec S16384 32) (hmsg : ∀ r : S16384.Idx, 0 ≤ (msg r).toInt ∧ (msg r).toInt ≤ 999999)
    (r : S16384.Idx) : mask msg r = 1#1 := by
  unfold mask
  rw [Host.reduce_eq_foldl]
  refine foldl_andi_ones (inRange msg) (fun i => ?_) _
  show IntOp.andi (IntOp.cmpi .sge (idx msg i) 0#32) (IntOp.cmpi .sle (idx msg i) 999999#32) = 1#1
  rw [idx_of_nonneg msg i (hmsg _).1]
  refine IntOp.andi_eq_one.2 ⟨IntOp.cmpi_sge.2 ?_, IntOp.cmpi_sle.2 ?_⟩
  · rw [show (0#32 : BitVec 32).toInt = 0 from by decide]; exact (hmsg _).1
  · rw [show (999999#32 : BitVec 32).toInt = 999999 from by decide]; exact (hmsg _).2

local notation "G" => gather_S1000000x64_S16384x1_S16384x64_1_0_n_n_0_1_164

/-- The gather read at `(r, c)`: the table's row named by the start index `ix[r, 0]` (read signed and clamped into
    `[0, 999999]`), at column `c`. -/
theorem gather_row_apply {α : Type} (tbl : S1000000x64.Idx → α) (ix : IVec S16384x1 32) (j : S16384x64.Idx) :
    Host.gather G tbl ix j = tbl (ix2 (Cert.Spec.rowOf (ix (ix2 (j 0) (0 : Fin 1)))) (j 1)) := by
  unfold Host.gather
  congr 1
  funext a
  refine Fin.ext ?_
  show GatherDims.start G j ix a + GatherDims.batchCoord G j a + GatherDims.offCoord G j a = _
  rw [GatherDims.batchCoord_eq_zero _ _ _ List.not_mem_nil]
  match a with
  | ⟨0, h0⟩ =>
    have hm : (⟨0, h0⟩ : Fin S1000000x64.rank) ∈ GatherDims.startIndexMap G := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : GatherDims.siIdx G j ⟨List.idxOf (⟨0, h0⟩ : Fin S1000000x64.rank) (GatherDims.startIndexMap G),
        List.idxOf_lt_length_iff.2 hm⟩ = ix2 (j 0) (0 : Fin 1) := by
      funext b; refine Fin.ext ?_
      match b with
      | ⟨0, _⟩ => rfl
      | ⟨1, _⟩ => rfl
    rw [hsi]
    rfl
  | ⟨1, h1⟩ =>
    have hm : (⟨1, h1⟩ : Fin S1000000x64.rank) ∉ GatherDims.startIndexMap G :=
      (by decide : (1 : Fin 2) ∉ GatherDims.startIndexMap G)
    have hk : (⟨1, h1⟩ : Fin S1000000x64.rank) ∈ GatherDims.sKept G :=
      (by decide : (1 : Fin 2) ∈ GatherDims.sKept G)
    unfold GatherDims.start
    rw [dif_neg hm]
    unfold GatherDims.offCoord
    rw [dif_pos hk]
    simp only [Nat.zero_add, Nat.add_zero]
    rfl

/-- A broadcast along axis 0 into `[16384, 64]` reads the operand at the row coordinate. -/
theorem bcast_x64_apply {α : Type} (x : S16384.Idx → α) (j : S16384x64.Idx) :
    broadcastInDim S16384x64 ![0] bcast_S16384_S16384x64_0 x j = x (ix1 (j 0)) := by
  unfold broadcastInDim
  congr 1
  funext a
  match a with
  | ⟨0, _⟩ => rfl

/-- Under the range hypothesis the program's result is the row gather of the specification. -/
theorem out_value (msg : IVec S16384 32) (tbl : FVec F S1000000x64 .f32)
    (hmsg : ∀ r : S16384.Idx, 0 ≤ (msg r).toInt ∧ (msg r).toInt ≤ 999999) :
    out msg tbl = Cert.Spec.takeRows msg tbl := by
  funext j
  unfold out
  rw [select_apply, bcast_x64_apply, mask_eq_one msg hmsg, select_one, gather_row_apply,
    idx_of_nonneg msg _ (hmsg _).1]
  rfl

/-! ## The precondition read back: every index word lies in `[0, 999999]` -/

attribute [local irreducible] Host.reduce in
/-- The precondition's second conjunct is an `and`-reduction of `0 ≤ msg ∧ msg ≤ 999999` (signed) over all entries; it is
    1, so each entry's test is 1, and each comparison says its inequality of the words read as integers. -/
theorem msg_range (msg : IVec S16384 32) (tbl : FVec F S1000000x64 .f32)
    (h : Cert.Pre_input_domain.fn (F := F) msg tbl = fun _ => 1#1) (r : S16384.Idx) :
    0 ≤ (msg r).toInt ∧ (msg r).toInt ≤ 999999 := by
  have h0 := congrFun h ix0
  dsimp only [Cert.Pre_input_domain.fn] at h0
  have h1 := (IntOp.andi_eq_one.1 h0).2
  haveI : Subsingleton (Cert.Pre_input_domain.S_.Idx) := ⟨fun a b => funext fun d => d.elim0⟩
  have h2 := Host.reduce_andi_all _ _ _ _ _ h1 r
  have h3 := IntOp.andi_eq_one.1 h2
  have ha : (0#32 : BitVec 32).toInt ≤ (msg r).toInt := IntOp.cmpi_sge.1 h3.1
  have hb : (msg r).toInt ≤ (999999#32 : BitVec 32).toInt := IntOp.cmpi_sle.1 h3.2
  rw [show (0#32 : BitVec 32).toInt = 0 from by decide] at ha
  rw [show (999999#32 : BitVec 32).toInt = 999999 from by decide] at hb
  exact ⟨ha, hb⟩

/-! ## The run -/

/-- At the ideal instance, from any memory with zero counters of which the precondition holds: every weakly fair
    execution of @main terminates, the result buffer holds the specification's row gather of the two argument arrays,
    and the argument arrays are unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ Cert.ReferenceIdeal.τ).loc Cert.ReferenceIdeal.main_v0)
          = Cert.Spec.takeRows (F := Ideal) (m ((c.tc : Thread _ Cert.ReferenceIdeal.τ).loc Cert.ReferenceIdeal.main_arg0)) (m ((c.tc : Thread _ Cert.ReferenceIdeal.τ).loc Cert.ReferenceIdeal.main_arg1))
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)) :=
  (θ_run defs _ _).mono (fun _ h c =>
      ⟨(h c main_v0).trans ((out_eq _).trans (out_value _ _ (msg_range _ _ (hpre c)))),
        (h c main_arg0).trans (arg0_eq _), (h c main_arg1).trans (arg1_eq _)⟩)
    (run_main m ρ)

end Cert.ReferenceIdeal.RefValue

end
-- ==== Proof.ClaimsKI.lean ====
/-
  The kernel's claims from its run: under the precondition every entry of the index list names a row of the table,
  which is all the vector subcores' tasks ask; the program's run then ends with the result at the gathered rows and the
  two arguments unchanged.  The frame drops the result; the value claim pairs it with the reference's run, whose result
  is the same function of arguments that agree.
-/
import proofs.«201881_g28561532518853_retrytranche2_526_24_alg».proof.Proof.LaunchKI
import proofs.«201881_g28561532518853_retrytranche2_526_24_alg».proof.Proof.RefRun

noncomputable section

namespace Cert.Proof.KI

open Cert.KernelIdeal Cert.KernelIdeal.Gen
open Idealize.ShloMosaic
open Idealize.ShloMosaic.SparseCore (S V T)
open Idealize.SL.Sem

variable {F : FTy → Type} [FloatOps F]

/-- A word that reads, signed, as an integer in `[0, 999999]` reads, unsigned, as the same number. -/
theorem toNat_le_of_toInt (w : BitVec 32) (h0 : 0 ≤ w.toInt) (h1 : w.toInt ≤ 999999) : w.toNat ≤ 999999 := by
  rw [BitVec.toInt_eq_toNat_cond] at h0 h1
  split at h0 <;> omega

/-- The precondition, on every device, gives what the subcores' tasks ask of the index list. -/
theorem ok_of_pre (m : (ℓ : Loc nD τ sig) → Buf (Elt F) ℓ)
    (h : ∀ c : Dev nD, Cert.Pre_input_domain.fn (F := F) (m (iLoc c)) (m (xLoc c)) = fun _ => 1#1) : PreOK m := by
  intro d r
  have hr := Cert.ReferenceIdeal.RefValue.msg_range (F := F) (m (iLoc d)) (m (xLoc d)) (h d) r
  exact toNat_le_of_toInt _ hr.1 hr.2

end Cert.Proof.KI

namespace Cert.Proof.KIClaims

open Idealize.ShloMosaic Idealize.SL.Sem Cert.Proof.KI

/-- The idealized kernel's frame, given the subcores' task obligation. -/
theorem frame (htile : ∀ m : (ℓ : Loc Cert.KernelIdeal.nD Cert.KernelIdeal.τ Cert.KernelIdeal.sig) → Buf (Elt Ideal) ℓ, PreOK m →
      (K (F := Ideal)).TileObl (D (F := Ideal)) 𝒱 (P m) v₀ 0) :
    Cert.frame_KernelIdeal (hKernelIdeal := Cert.KernelIdeal.Gen.facts) (hPre_input_domain := Cert.Pre_input_domain.Gen.facts) :=
  fun m ρ hpre =>
    (θ_run Cert.KernelIdeal.defs _ _).mono (fun _ h c => ⟨(h c).2.1, (h c).2.2⟩)
      (run_main (F := Ideal) m ρ (htile m (ok_of_pre m hpre)))

/-- At the ideal instance both programs end with the rows of the table the index list names. -/
theorem algebraic (htile : ∀ m : (ℓ : Loc Cert.KernelIdeal.nD Cert.KernelIdeal.τ Cert.KernelIdeal.sig) → Buf (Elt Ideal) ℓ, PreOK m →
      (K (F := Ideal)).TileObl (D (F := Ideal)) 𝒱 (P m) v₀ 0) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m ρ m' ρ' hpre hagree
  refine ⟨fun c => gath m c, run_main (F := Ideal) m ρ (htile m (ok_of_pre m hpre)), ?_⟩
  have hpre' : Cert.Pre_ReferenceIdeal (hPre_input_domain := Cert.Pre_input_domain.Gen.facts) m' := fun c => by
    rw [(hagree c).1, (hagree c).2]; exact hpre c
  refine (θ_run Cert.ReferenceIdeal.defs _ _).mono (fun _ h c => ⟨(h c).1.trans ?_, (h c).2.1, (h c).2.2⟩)
    (Cert.ReferenceIdeal.RefValue.run m' ρ' hpre')
  rw [(hagree c).1, (hagree c).2]
  rfl

end Cert.Proof.KIClaims

end
-- ==== Proof.LaunchKB.lean ====
/-
  The launch of the gather kernel: how a core's operands split among its sixteen subcores, the launch element of the
  ghost state, @main on the TensorCore (the reshape of the table, then the one call), how the final assertion reads the
  memory, and the program's run, the subcores' task taken as a hypothesis.
-/
import proofs.«201881_g28561532518853_retrytranche2_526_24_alg».proof.Proof.SetupKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A core's operands among its subcores -/

omit [FloatOps F] in
theorem bigSep_emp' {I : Type} (s : Finset I) : (bigSep s fun _ => iprop(emp)) = (iprop(emp) : sProp 𝕄) := bigSep_emp_const s

omit [FloatOps F] in
/-- A family over the call's sixteen subcores, read over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the call's two cores, read over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share of the reshaped table goes out as sixteen read tokens, one per subcore (what is left of the share
    after the sixteen is given up); the entries and the rows are already per subcore.  Back come the subcores'
    entries and rows, which are the core's. -/
theorem vecSplit : (K (F := F)).VecSplit' (P m) 0 := by
  intro d c
  show coreSt m d (Fin.cast nCore_zero c) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ coreDn m d (Fin.cast nCore_zero c)))
  generalize Fin.cast nCore_zero c = c'
  rw [bigSep_tasks (F := F) (fun i => tileGo m d c' i), bigSep_tasks (F := F) (fun i => tileTd m d c' i)]
  unfold coreSt coreDn tileGo
  rw [bigSep_sep', bigSep_sep', bigSep_sep']
  iintro ⟨⟨Hm, Ho⟩, Ht⟩
  ihave Ht' := (Transfers.pointsTo_toks_split (coreShare c') 16) $$ Ht
  icases Ht' with ⟨-, Hts⟩
  imodintro
  isplitl [Hm Ho Hts]
  · isplitl [Hm]; · iexact Hm
    isplitl [Ho]; · iexact Ho
    iexact Hts
  iintro Htd; iexact Htd

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The subcores' pieces partition the index list and the result -/

theorem mSet_eq (L : grid0.Coords) : mSet L = (Rect.unit (s := S16384) (k0_off1 L) S512.size (k0_off1_inb L)).set :=
  View.set_slice_whole _ _
theorem oSet_eq (L : grid0.Coords) : oSet L = (Rect.unit (s := S16384x64) (k0_off36 L) S512x64.size (k0_off36_inb L)).set :=
  View.set_slice_whole _ _

/-- Subcore `s` of core `c` starts at entry `1024 s + 512 c`. -/
theorem off1_coords (c : Fin 2) (s : Fin 16) : k0_off1 (coordsV c s) = ![1024 * s.val + 512 * c.val] := k0_off1_eq _
theorem off36_coords (c : Fin 2) (s : Fin 16) : k0_off36 (coordsV c s) = ![1024 * s.val + 512 * c.val, 0] := k0_off36_eq _

/-- Two different subcores' runs of 512 do not meet: their starts are different multiples of 512. -/
theorem starts_apart {c c' : Fin 2} {s s' : Fin 16} (h : (c, s) ≠ (c', s')) :
    1024 * s.val + 512 * c.val + 512 ≤ 1024 * s'.val + 512 * c'.val ∨ 1024 * s'.val + 512 * c'.val + 512 ≤ 1024 * s.val + 512 * c.val := by
  have hne : c.val ≠ c'.val ∨ s.val ≠ s'.val := by
    by_contra hn
    have hn' := not_or.mp hn
    exact h (Prod.ext (Fin.ext (not_not.mp hn'.1)) (Fin.ext (not_not.mp hn'.2)))
  have := c.isLt; have := c'.isLt
  omega

theorem mSets_disjoint : ∀ p ∈ (Finset.univ : Finset (Fin 2 × Fin 16)), ∀ p' ∈ (Finset.univ : Finset (Fin 2 × Fin 16)), p ≠ p' →
    Disjoint (mSet (coordsV p.1 p.2)) (mSet (coordsV p'.1 p'.2)) := by
  rintro ⟨c, s⟩ - ⟨c', s'⟩ - h
  rw [mSet_eq, mSet_eq]
  refine Rect.unit_disjoint 0 ?_
  rw [off1_coords, off1_coords]
  exact starts_apart h

theorem oSets_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ - ⟨c', s'⟩ - h
  rw [oSet_eq, oSet_eq]
  refine Rect.unit_disjoint 0 ?_
  rw [off36_coords, off36_coords]
  exact starts_apart h

/-- Entry `r` lies in the run of subcore `r / 1024` of core `(r / 512) % 2`. -/
theorem mSets_cover : (Finset.univ : Finset (Fin 2 × Fin 16)).biUnion (fun p => mSet (coordsV p.1 p.2)) = Finset.univ := by
  ext i
  simp only [Finset.mem_biUnion, Finset.mem_univ, true_and, iff_true]
  have hi : (i 0).val < 16384 := (i 0).isLt
  refine ⟨(⟨(i 0).val / 512 % 2, Nat.mod_lt _ (by decide)⟩, ⟨(i 0).val / 1024, by omega⟩), ?_⟩
  rw [mSet_eq, Rect.mem_set_unit, off1_coords]
  refine Fin.forall_fin_one.mpr ?_
  show 1024 * ((i 0).val / 1024) + 512 * ((i 0).val / 512 % 2) ≤ (i 0).val
    ∧ (i 0).val < 1024 * ((i 0).val / 1024) + 512 * ((i 0).val / 512 % 2) + 512
  omega

theorem oSets_cover : (Finset.univ : Finset (Fin 2 × Fin 16)).biUnion (fun p => oSet (coordsV p.1 p.2)) = Finset.univ := by
  ext i
  simp only [Finset.mem_biUnion, Finset.mem_univ, true_and, iff_true]
  have hi : (i 0).val < 16384 := (i 0).isLt
  have hj : (i 1).val < 64 := (i 1).isLt
  refine ⟨(⟨(i 0).val / 512 % 2, Nat.mod_lt _ (by decide)⟩, ⟨(i 0).val / 1024, by omega⟩), ?_⟩
  rw [oSet_eq, Rect.mem_set_unit, off36_coords]
  refine Fin.forall_fin_two.mpr ⟨?_, ?_⟩
  · show 1024 * ((i 0).val / 1024) + 512 * ((i 0).val / 512 % 2) ≤ (i 0).val
      ∧ (i 0).val < 1024 * ((i 0).val / 1024) + 512 * ((i 0).val / 512 % 2) + 512
    omega
  · show 0 ≤ (i 1).val ∧ (i 1).val < 0 + 64
    omega

omit [FloatOps F] in
/-- An array held whole is held piece by piece, core by core and subcore by subcore, along a partition of its elements. -/
theorem pts_split {ℓ : Loc nD τ sig} (Kf : Fin 2 → Fin 16 → Finset (Idx ℓ))
    (hd : ∀ p ∈ (Finset.univ : Finset (Fin 2 × Fin 16)), ∀ p' ∈ (Finset.univ : Finset (Fin 2 × Fin 16)), p ≠ p' → Disjoint (Kf p.1 p.2) (Kf p'.1 p'.2))
    (hc : (Finset.univ : Finset (Fin 2 × Fin 16)).biUnion (fun p => Kf p.1 p.2) = Finset.univ)
    (q : PosShare TreeShare) (f : Buf (Elt F) ℓ) :
    (ℓ ↦{q} f : sProp 𝕄) = bigSep Finset.univ fun c : Fin 2 => bigSep Finset.univ fun s : Fin 16 => ℓ ↦[Kf c s]{q} f := by
  have e : (ℓ ↦[(Finset.univ : Finset (Fin 2 × Fin 16)).biUnion (fun p => Kf p.1 p.2)]{q} f : sProp 𝕄)
      = bigSep Finset.univ fun p : Fin 2 × Fin 16 => ℓ ↦[Kf p.1 p.2]{q} f :=
    pointsTo_biUnion Finset.univ (fun p : Fin 2 × Fin 16 => Kf p.1 p.2) hd
  rw [hc] at e
  rw [e, ← Finset.univ_product_univ]
  exact SparseCore.bigSep_product Finset.univ Finset.univ (fun p : Fin 2 × Fin 16 => (ℓ ↦[Kf p.1 p.2]{q} f : sProp 𝕄))

/-! ## @main on the TensorCore -/

abbrev i' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The reshape of the table. -/
abbrev opR : HloOp τ sig (Elt F) := StableHlo.reshape main_arg1 main_v0 rfl shapeCasts_S1000000x64_S125000x8x64

/-- The TensorCore's arrays, all unscoped: the index list, the table, the reshaped table, the result. -/
abbrev S4 : Finset (DevRef τ sig) := {i', x', t', o'}

omit [FloatOps F] in
theorem held_S4 (d : Dev nD) (W : Valuation τ sig (Elt F)) :
    (held (T d) S4 W : sProp 𝕄)
      = iprop((iLoc d ↦{fullShare} W i') ∗ (xLoc d ↦{fullShare} W x') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({x', t'} : Finset (DevRef τ sig)) ⊆ S4 by decide

/-- After the reshape: the reshaped table holds the table's elements in row-major order, the other arrays what they held. -/
theorem R_i (d : Dev nD) : (opR (F := F)).result (V0 m d) i' = m (iLoc d) :=
  (opR (F := F)).result_of_not_mem (V0 m d) (b := i') (show i' ∉ ({t'} : Finset (DevRef τ sig)) by decide)
theorem R_x (d : Dev nD) : (opR (F := F)).result (V0 m d) x' = m (xLoc d) :=
  (opR (F := F)).result_of_not_mem (V0 m d) (b := x') (show x' ∉ ({t'} : Finset (DevRef τ sig)) by decide)
theorem R_o (d : Dev nD) : (opR (F := F)).result (V0 m d) o' = m (oLoc d) :=
  (opR (F := F)).result_of_not_mem (V0 m d) (b := o') (show o' ∉ ({t'} : Finset (DevRef τ sig)) by decide)
theorem R_t (d : Dev nD) : (opR (F := F)).result (V0 m d) t' = tbl3 m d :=
  (StableHlo.reshape_result main_arg1 main_v0 rfl shapeCasts_S1000000x64_S125000x8x64 _ _ (V0 m d)).trans rfl

/-- What @main leaves the claim: the index list and the table at their launch contents, the result at the gathered rows. -/
abbrev FIN (d : Dev nD) : sProp 𝕄 :=
  iprop((iLoc d ↦{fullShare} m (iLoc d)) ∗ (xLoc d ↦{fullShare} m (xLoc d)) ∗ (oLoc d ↦{fullShare} gath m d))

theorem held_after (d : Dev nD) :
    (held (T d) S4 ((opR (F := F)).result (V0 m d)) : sProp 𝕄)
      = iprop((iLoc d ↦{fullShare} m (iLoc d)) ∗ (xLoc d ↦{fullShare} m (xLoc d)) ∗ (tLoc d ↦{fullShare} tbl3 m d) ∗ oLoc d ↦{fullShare} m (oLoc d)) := by
  rw [held_S4, R_i, R_x, R_t, R_o]

omit [FloatOps F] in
/-- The index list, whole, is the 32 subcores' runs of entries; -/
theorem iPts_cs (d : Dev nD) (f : Buf (Elt F) (iLoc d)) :
    (iLoc d ↦{fullShare} f : sProp 𝕄)
      = bigSep Finset.univ fun c : Fin 2 => bigSep Finset.univ fun s : Fin 16 => iLoc d ↦[mSet (coordsV c s)]{fullShare} f :=
  pts_split (ℓ := iLoc d) (fun c s => mSet (coordsV c s)) mSets_disjoint mSets_cover fullShare f
omit [FloatOps F] in
/-- the result, whole, their runs of rows. -/
theorem oPts_cs (d : Dev nD) (f : Buf (Elt F) (oLoc d)) :
    (oLoc d ↦{fullShare} f : sProp 𝕄)
      = bigSep Finset.univ fun c : Fin 2 => bigSep Finset.univ fun s : Fin 16 => oLoc d ↦[oSet (coordsV c s)]{fullShare} f :=
  pts_split (ℓ := oLoc d) (fun c s => oSet (coordsV c s)) oSets_disjoint oSets_cover fullShare f

theorem st0_eq (d : Dev nD) :
    (bigSep Finset.univ fun c : Fin ((K (F := F)).nCore 0) => (P m).st 0 d c) = bigSep Finset.univ fun c : Fin 2 => coreSt m d c :=
  bigSep_cores (F := F) (fun c => coreSt m d c)
theorem dn0_eq (d : Dev nD) :
    (bigSep Finset.univ fun c : Fin ((K (F := F)).nCore 0) => (P m).dn 0 d c) = bigSep Finset.univ fun c : Fin 2 => coreDn m d c :=
  bigSep_cores (F := F) (fun c => coreDn m d c)

/-- What the call takes: the index list and the result cut into the subcores' pieces, the reshaped table's full share
    into one read token per core (what is left of it given up). -/
theorem cores_st (d : Dev nD) :
    iprop((iLoc d ↦{fullShare} m (iLoc d)) ∗ (oLoc d ↦{fullShare} m (oLoc d)) ∗ (tLoc d ↦{fullShare} tbl3 m d))
      ⊢ (bigSep Finset.univ fun c : Fin 2 => coreSt m d c : sProp 𝕄) := by
  rw [iPts_cs d (m (iLoc d)), oPts_cs d (m (oLoc d))]
  unfold coreSt
  simp only [bigSep_sep']
  iintro ⟨Hi, Ho, Ht⟩
  ihave Hts := (Transfers.pointsTo_toks_split fullShare 2) $$ Ht
  icases Hts with ⟨-, Hts⟩
  isplitl [Hi Ho]
  · isplitl [Hi]; · iexact Hi
    iexact Ho
  iexact Hts

/-- What it brings back: the pieces, the result's all at the gathered contents, which are the two arrays whole. -/
theorem cores_dn (d : Dev nD) :
    (bigSep Finset.univ fun c : Fin 2 => coreDn m d c : sProp 𝕄)
      ⊢ iprop((iLoc d ↦{fullShare} m (iLoc d)) ∗ (oLoc d ↦{fullShare} gath m d)) := by
  rw [iPts_cs d (m (iLoc d)), oPts_cs d (gath m d)]
  unfold coreDn tileTd
  simp only [bigSep_sep']
  exact BI.Entails.refl _

/-- @main on device `d`'s TensorCore: the reshape of the table, over the four arrays held whole; then the one call, which
    takes the index list, the result and read tokens of the reshaped table, the table itself staying here; the index
    list and the table kept, the result at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, over the four arrays
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_after m d)) $$ Hheld
  icases Hh with ⟨Hi, Hx, Ht, Ho⟩
  rw [wp_ret]; imodintro
  -- the call
  iapply ((K (F := F)).wp_run (D (F := F)) 𝒱 (EH := EH) (P := P m) κ d 0) $$ [Hst Hi Hx Ht Ho Hb]
  isplitr; · iexact Hctx
  isplitl [Hst]; · iexact Hst
  isplitl [Hi Ht Ho]
  · rw [st0_eq]
    iapply (cores_st m d)
    isplitl [Hi]; · iexact Hi
    isplitl [Ho]; · iexact Ho
    iexact Ht
  iintro ⟨Hst, Hdn⟩
  ihave Hdn' := (Entails.of_eq (dn0_eq m d)) $$ Hdn
  ihave Hio := (cores_dn m d) $$ Hdn'
  icases Hio with ⟨Hi, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = gath m d ∧ s'.mem.mem (iLoc d) = m (iLoc d) ∧ s'.mem.mem (xLoc d) = m (xLoc d)

/-- Held whole at the full share, an array's contents are the memory's. -/
theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gath m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- On every device: the result holds the gathered rows, the index list and the table what they held at the launch. -/
def QC : PUnit × MemSt nD τ sig (Elt F) → Prop := fun r =>
  ∀ c : Dev nD, r.2.mem (oLoc c) = gath m c ∧ r.2.mem (iLoc c) = m (iLoc c) ∧ r.2.mem (xLoc c) = m (xLoc c)

/-- The program runs to completion from the launch memory and ends in `QC`, given the subcores' task. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.ClaimsKB.lean ====
/-
  The word-level kernel's frame from its run: under the precondition every entry of the index list names a row of the
  table, which is all the vector subcores' tasks ask; the program's run then ends with the two arguments unchanged.
-/
import proofs.«201881_g28561532518853_retrytranche2_526_24_alg».proof.Proof.LaunchKB
import proofs.«201881_g28561532518853_retrytranche2_526_24_alg».proof.Proof.RefRun

noncomputable section

namespace Cert.Proof.KB

open Cert.Kernel Cert.Kernel.Gen
open Idealize.ShloMosaic
open Idealize.ShloMosaic.SparseCore (S V T)
open Idealize.SL.Sem

variable {F : FTy → Type} [FloatOps F]

/-- A word that reads, signed, as an integer in `[0, 999999]` reads, unsigned, as the same number. -/
theorem toNat_le_of_toInt (w : BitVec 32) (h0 : 0 ≤ w.toInt) (h1 : w.toInt ≤ 999999) : w.toNat ≤ 999999 := by
  rw [BitVec.toInt_eq_toNat_cond] at h0 h1
  split at h0 <;> omega

/-- The precondition, on every device, gives what the subcores' tasks ask of the index list. -/
theorem ok_of_pre (m : (ℓ : Loc nD τ sig) → Buf (Elt F) ℓ)
    (h : ∀ c : Dev nD, Cert.Pre_input_domain.fn (F := F) (m (iLoc c)) (m (xLoc c)) = fun _ => 1#1) : PreOK m := by
  intro d r
  have hr := Cert.ReferenceIdeal.RefValue.msg_range (F := F) (m (iLoc d)) (m (xLoc d)) (h d) r
  exact toNat_le_of_toInt _ hr.1 hr.2

end Cert.Proof.KB

namespace Cert.Proof.KBClaims

open Idealize.ShloMosaic Idealize.SL.Sem Cert.Proof.KB

/-- The kernel's frame, given the subcores' task obligation. -/
theorem frame (htile : ∀ m : (ℓ : Loc Cert.Kernel.nD Cert.Kernel.τ Cert.Kernel.sig) → Buf (Elt Bits) ℓ, PreOK m →
      (K (F := Bits)).TileObl (D (F := Bits)) 𝒱 (P m) v₀ 0) :
    Cert.frame_Kernel (hKernel := Cert.Kernel.Gen.facts) (hPre_input_domain := Cert.Pre_input_domain.Gen.facts) :=
  fun m ρ hpre =>
    (θ_run Cert.Kernel.defs _ _).mono (fun _ h c => ⟨(h c).2.1, (h c).2.2⟩)
      (run_main (F := Bits) m ρ (htile m (ok_of_pre m hpre)))

end Cert.Proof.KBClaims

end
-- ==== Proof.lean ====
/-
  The certificate of the row gather: a SparseCore kernel whose 32 vector subcores each fetch 512 entries of the index
  list, copy the 512 rows of the table those entries name (out of the table reshaped to `[125000, 8, 64]`, entry `w` read
  as block `w >>> 3` and sub-row `w &&& 7`: row `8 (w >>> 3) + (w &&& 7) = w`) into a scratch of their own and write the
  scratch out to their 512 rows of the result — against `jnp.take` along axis 0, which under the precondition
  `0 ≤ message ≤ 999999` neither wraps nor masks any row.  Both programs end with `result[r, :] = table[message[r], :]`.

  The three frames and the value claim come from two runs with one postcondition: the kernel's run (every weakly fair
  execution of the TensorCore's program and the SparseCores' ends, the result at the gathered rows, the arguments
  unchanged), once per float instance, and the reference's run.  The ideal pass rewrote nothing, so `preserves` is `True`.
-/
import proofs.«201881_g28561532518853_retrytranche2_526_24_alg».proof.Defs
import proofs.«201881_g28561532518853_retrytranche2_526_24_alg».proof.Proof.Gen.Kernel
import proofs.«201881_g28561532518853_retrytranche2_526_24_alg».proof.Proof.Gen.Kernel.Skeleton
import proofs.«201881_g28561532518853_retrytranche2_526_24_alg».proof.Proof.Gen.KernelIdeal
import proofs.«201881_g28561532518853_retrytranche2_526_24_alg».proof.Proof.Gen.KernelIdeal.Skeleton
import proofs.«201881_g28561532518853_retrytranche2_526_24_alg».proof.Proof.Gen.ReferenceIdeal
import proofs.«201881_g28561532518853_retrytranche2_526_24_alg».proof.Proof.Gen.Pre_input_domain
import proofs.«201881_g28561532518853_retrytranche2_526_24_alg».proof.Proof.TileTopKI
import proofs.«201881_g28561532518853_retrytranche2_526_24_alg».proof.Proof.TileTopKB
import proofs.«201881_g28561532518853_retrytranche2_526_24_alg».proof.Proof.ClaimsKI
import proofs.«201881_g28561532518853_retrytranche2_526_24_alg».proof.Proof.ClaimsKB
import Idealize.ShloMosaic.Adequacy
import Idealize.ShloMosaic.Init

noncomputable section

namespace Cert.Proof

open Idealize.ShloMosaic Idealize.SL.Sem

/-- The reference's frame: its run with the result dropped. -/
theorem frame_ri : Cert.frame_ReferenceIdeal (hReferenceIdeal := Cert.ReferenceIdeal.Gen.facts) (hPre_input_domain := Cert.Pre_input_domain.Gen.facts) :=
  fun m ρ hpre =>
    (θ_run Cert.ReferenceIdeal.defs _ _).mono (fun _ h c => ⟨(h c).2.1, (h c).2.2⟩) (Cert.ReferenceIdeal.RefValue.run m ρ hpre)

theorem claim : Cert.Claim := ⟨Cert.Kernel.Gen.facts, Cert.KernelIdeal.Gen.facts, Cert.ReferenceIdeal.Gen.facts, Cert.Pre_input_domain.Gen.facts,
  Cert.Proof.KBClaims.frame (fun m h => Cert.Proof.KB.tileObl m h),
  Cert.Proof.KIClaims.frame (fun m h => Cert.Proof.KI.tileObl m h),
  frame_ri,
  trivial,
  Cert.Proof.KIClaims.algebraic (fun m h => Cert.Proof.KI.tileObl m h)⟩

end Cert.Proof

end
